-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x12544 : Shape := ⟨2, ![5000, 12544]⟩
abbrev S12544x1024 : Shape := ⟨2, ![12544, 1024]⟩
abbrev S1024 : Shape := ⟨1, ![1024]⟩
abbrev S1024x1024 : Shape := ⟨2, ![1024, 1024]⟩
abbrev S1024x91 : Shape := ⟨2, ![1024, 91]⟩
abbrev S91 : Shape := ⟨1, ![91]⟩
abbrev S1024x364 : Shape := ⟨2, ![1024, 364]⟩
abbrev S364 : Shape := ⟨1, ![364]⟩
abbrev S_ : Shape := ⟨0, ![]⟩

class Facts : Prop where
  bcast_S_S5000x12544 : S_.BroadcastsInDim S5000x12544 (![] : Fin 0 → Fin S5000x12544.rank)
  reducesTo_S5000x12544_S_d0_1 : S5000x12544.ReducesTo [0, 1] S_
  h_S_ : 0 < S_.numel
  bcast_S_S12544x1024 : S_.BroadcastsInDim S12544x1024 (![] : Fin 0 → Fin S12544x1024.rank)
  reducesTo_S12544x1024_S_d0_1 : S12544x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x91 : S_.BroadcastsInDim S1024x91 (![] : Fin 0 → Fin S1024x91.rank)
  reducesTo_S1024x91_S_d0_1 : S1024x91.ReducesTo [0, 1] S_
  bcast_S_S91 : S_.BroadcastsInDim S91 (![] : Fin 0 → Fin S91.rank)
  reducesTo_S91_S_d0 : S91.ReducesTo [0] S_
  bcast_S_S1024x364 : S_.BroadcastsInDim S1024x364 (![] : Fin 0 → Fin S1024x364.rank)
  reducesTo_S1024x364_S_d0_1 : S1024x364.ReducesTo [0, 1] S_
  bcast_S_S364 : S_.BroadcastsInDim S364 (![] : Fin 0 → Fin S364.rank)
  reducesTo_S364_S_d0 : S364.ReducesTo [0] S_

variable [Facts]

def fn_part2 {F : FTy → Type} [FloatOps F] (main_arg7 : FVec F S1024x364 .f32) (main_arg8 : FVec F S364 .f32) (main_v33 : IVec S_ 1) : IVec S_ 1 :=
  let main_v34 : FVec F S1024x364 .f32 := Host.absf main_arg7
  let main_cst_12 : FVec F S_ .f32 := constant S_ .f32 0x7F800000#32
  let main_v35 : FVec F S1024x364 .f32 := broadcastInDim S1024x364 ![] bcast_S_S1024x364 main_cst_12
  let main_v36 : IVec S1024x364 1 := cmpf .olt main_v34 main_v35
  let main_c_13 : IVec S_ 1 := constantI S_ 1 1#1
  let main_v37 : IVec S_ 1 := (fun x v => Host.reduce IntOp.andi x v reducesTo_S1024x364_S_d0_1 h_S_) main_v36 main_c_13
  let main_v38 : IVec S_ 1 := andi main_v33 main_v37
  let main_v39 : FVec F S364 .f32 := Host.absf main_arg8
  let main_cst_14 : FVec F S_ .f32 := constant S_ .f32 0x7F800000#32
  let main_v40 : FVec F S364 .f32 := broadcastInDim S364 ![] bcast_S_S364 main_cst_14
  let main_v41 : IVec S364 1 := cmpf .olt main_v39 main_v40
  let main_c_15 : IVec S_ 1 := constantI S_ 1 1#1
  let main_v42 : IVec S_ 1 := (fun x v => Host.reduce IntOp.andi x v reducesTo_S364_S_d0 h_S_) main_v41 main_c_15
  let main_v43 : IVec S_ 1 := andi main_v38 main_v42
  main_v43

def fn_part1 {F : FTy → Type} [FloatOps F] (main_arg4 : FVec F S1024 .f32) (main_arg5 : FVec F S1024x91 .f32) (main_arg6 : FVec F S91 .f32) (main_arg7 : FVec F S1024x364 .f32) (main_arg8 : FVec F S364 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x91 .f32 := Host.absf main_arg5
  let main_cst_8 : FVec F S_ .f32 := constant S_ .f32 0x7F800000#32
  let main_v25 : FVec F S1024x91 .f32 := broadcastInDim S1024x91 ![] bcast_S_S1024x91 main_cst_8
  let main_v26 : IVec S1024x91 1 := cmpf .olt main_v24 main_v25
  let main_c_9 : IVec S_ 1 := constantI S_ 1 1#1
  let main_v27 : IVec S_ 1 := (fun x v => Host.reduce IntOp.andi x v reducesTo_S1024x91_S_d0_1 h_S_) main_v26 main_c_9
  let main_v28 : IVec S_ 1 := andi main_v23 main_v27
  let main_v29 : FVec F S91 .f32 := Host.absf main_arg6
  let main_cst_10 : FVec F S_ .f32 := constant S_ .f32 0x7F800000#32
  let main_v30 : FVec F S91 .f32 := broadcastInDim S91 ![] bcast_S_S91 main_cst_10
  let main_v31 : IVec S91 1 := cmpf .olt main_v29 main_v30
  let main_c_11 : IVec S_ 1 := constantI S_ 1 1#1
  let main_v32 : IVec S_ 1 := (fun x v => Host.reduce IntOp.andi x v reducesTo_S91_S_d0 h_S_) main_v31 main_c_11
  let main_v33 : IVec S_ 1 := andi main_v28 main_v32
  fn_part2 (F := F) main_arg7 main_arg8 main_v33

def fn {F : FTy → Type} [FloatOps F] (main_arg0 : FVec F S5000x12544 .f32) (main_arg1 : FVec F S12544x1024 .f32) (main_arg2 : FVec F S1024 .f32) (main_arg3 : FVec F S1024x1024 .f32) (main_arg4 : FVec F S1024 .f32) (main_arg5 : FVec F S1024x91 .f32) (main_arg6 : FVec F S91 .f32) (main_arg7 : FVec F S1024x364 .f32) (main_arg8 : FVec F S364 .f32) : IVec S_ 1 :=
  let main_v0 : FVec F S5000x12544 .f32 := Host.absf main_arg0
  let main_cst : FVec F S_ .f32 := constant S_ .f32 0x7F800000#32
  let main_v1 : FVec F S5000x12544 .f32 := broadcastInDim S5000x12544 ![] bcast_S_S5000x12544 main_cst
  let main_v2 : IVec S5000x12544 1 := cmpf .olt main_v0 main_v1
  let main_c : IVec S_ 1 := constantI S_ 1 1#1
  let main_v3 : IVec S_ 1 := (fun x v => Host.reduce IntOp.andi x v reducesTo_S5000x12544_S_d0_1 h_S_) main_v2 main_c
  let main_v4 : FVec F S12544x1024 .f32 := Host.absf main_arg1
  let main_cst_0 : FVec F S_ .f32 := constant S_ .f32 0x7F800000#32
  let main_v5 : FVec F S12544x1024 .f32 := broadcastInDim S12544x1024 ![] bcast_S_S12544x1024 main_cst_0
  let main_v6 : IVec S12544x1024 1 := cmpf .olt main_v4 main_v5
  let main_c_1 : IVec S_ 1 := constantI S_ 1 1#1
  let main_v7 : IVec S_ 1 := (fun x v => Host.reduce IntOp.andi x v reducesTo_S12544x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S5000x12544 : Shape := ⟨2, ![5000, 12544]⟩
abbrev S12544x1024 : Shape := ⟨2, ![12544, 1024]⟩
abbrev S1024 : Shape := ⟨1, ![1024]⟩
abbrev S1024x1024 : Shape := ⟨2, ![1024, 1024]⟩
abbrev S1024x91 : Shape := ⟨2, ![1024, 91]⟩
abbrev S91 : Shape := ⟨1, ![91]⟩
abbrev S1024x364 : Shape := ⟨2, ![1024, 364]⟩
abbrev S364 : Shape := ⟨1, ![364]⟩
abbrev S1x1024 : Shape := ⟨2, ![1, 1024]⟩
abbrev S1x91 : Shape := ⟨2, ![1, 91]⟩
abbrev S1x364 : Shape := ⟨2, ![1, 364]⟩
abbrev S5000x91 : Shape := ⟨2, ![5000, 91]⟩
abbrev S5000x364 : Shape := ⟨2, ![5000, 364]⟩
abbrev S1000x896 : Shape := ⟨2, ![1000, 896]⟩
abbrev S896x1024 : Shape := ⟨2, ![896, 1024]⟩
abbrev S1000x91 : Shape := ⟨2, ![1000, 91]⟩
abbrev S1000x364 : Shape := ⟨2, ![1000, 364]⟩
abbrev S1000x1024 : Shape := ⟨2, ![1000, 1024]⟩

abbrev nBuf : Space → Nat
  | .hbm => 18
  | .vmem => 17
  | .smem => 0
  | _ => 0

abbrev bufTy : (tb : Table) → Fin (tcTables nBuf tb) → BufTy
  | .hbm, ⟨0, _⟩ => ⟨S5000x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x91, .f32⟩
  | .hbm, ⟨6, _⟩ => ⟨S91, .f32⟩
  | .hbm, ⟨7, _⟩ => ⟨S1024x364, .f32⟩
  | .hbm, ⟨8, _⟩ => ⟨S364, .f32⟩
  | .hbm, ⟨9, _⟩ => ⟨S1x1024, .f32⟩
  | .hbm, ⟨10, _⟩ => ⟨S1x1024, .f32⟩
  | .hbm, ⟨11, _⟩ => ⟨S1x91, .f32⟩
  | .hbm, ⟨12, _⟩ => ⟨S1x364, .f32⟩
  | .hbm, ⟨13, _⟩ => ⟨S1024x1024, .bf16⟩
  | .hbm, ⟨14, _⟩ => ⟨S1024x91, .bf16⟩
  | .hbm, ⟨15, _⟩ => ⟨S1024x364, .bf16⟩
  | .hbm, ⟨16, _⟩ => ⟨S5000x91, .f32⟩
  | .hbm, ⟨17, _⟩ => ⟨S5000x364, .f32⟩
  | .local _ .vmem, ⟨0, _⟩ => ⟨S1000x896, .f32⟩
  | .local _ .vmem, ⟨1, _⟩ => ⟨S1000x896, .f32⟩
  | .local _ .vmem, ⟨2, _⟩ => ⟨S896x1024, .f32⟩
  | .local _ .vmem, ⟨3, _⟩ => ⟨S896x1024, .f32⟩
  | .local _ .vmem, ⟨4, _⟩ => ⟨S1x1024, .f32⟩
  | .local _ .vmem, ⟨5, _⟩ => ⟨S1024x1024, .bf16⟩
  | .local _ .vmem, ⟨6, _⟩ => ⟨S1x1024, .f32⟩
  | .local _ .vmem, ⟨7, _⟩ => ⟨S1024x91, .bf16⟩
  | .local _ .vmem, ⟨8, _⟩ => ⟨S1x91, .f32⟩
  | .local _ .vmem, ⟨9, _⟩ => ⟨S1024x364, .bf16⟩
  | .local _ .vmem, ⟨10, _⟩ => ⟨S1x364, .f32⟩
  | .local _ .vmem, ⟨11, _⟩ => ⟨S1000x91, .f32⟩
  | .local _ .vmem, ⟨12, _⟩ => ⟨S1000x91, .f32⟩
  | .local _ .vmem, ⟨13, _⟩ => ⟨S1000x364, .f32⟩
  | .local _ .vmem, ⟨14, _⟩ => ⟨S1000x364, .f32⟩
  | .local _ .vmem, ⟨15, _⟩ => ⟨S1000x1024, .f32⟩
  | .local _ .vmem, ⟨16, _⟩ => ⟨S12544x1024, .bf16⟩
  | _, _ => ⟨S5000x12544, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![5, 14], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c896_i32_10 : BitVec 32 := 896#32
  let v20 : BitVec 32 := Scalar.muli arg1 c896_i32_10
  let v21 : Index := Scalar.indexCast v20
  let c0_11 : Index := 0#32
  ![v21.toNat, 0]
def k0_off2 (i : grid0.Coords) : Fin 2 → Nat :=
  let arg1 : BitVec 32 := BitVec.ofNat 32 (i 1).val
  let c896_i32 : BitVec 32 := 896#32
  let v3 : BitVec 32 := Scalar.muli arg1 c896_i32
  let v4 : Index := Scalar.indexCast v3
  let c0 : Index := 0#32
  ![v4.toNat, 0]
def k0_cond4 (i : grid0.Coords) : BitVec 1 :=
  let arg1 : BitVec 32 := BitVec.ofNat 32 (i 1).val
  let c13_i32 : BitVec 32 := 13#32
  let v15 : BitVec 1 := Scalar.cmpi .eq arg1 c13_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1000x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S896x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x91 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x91 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x364 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x364 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1000x91 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1000x364 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  shapeCasts_S1024_S1x1024 : S1024.ShapeCasts S1x1024
  shapeCasts_S91_S1x91 : S91.ShapeCasts S1x91
  shapeCasts_S364_S1x364 : S364.ShapeCasts S1x364
  bitsLt_bf16_f32 : FTy.bits .bf16 < FTy.bits .f32
  inb_S896x1024_S896x1024_0_0 : ∀ a, (![0, 0] : Fin 2 → Nat) a + S896x1024.size a ≤ S896x1024.size a
  h_S896x1024 : 0 < S896x1024.numel
  shapeCasts_S896x1024_S896x1024 : S896x1024.ShapeCasts S896x1024
  inb_S1000x896_S1000x896_0_0 : ∀ a, (![0, 0] : Fin 2 → Nat) a + S1000x896.size a ≤ S1000x896.size a
  h_S1000x896 : 0 < S1000x896.numel
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1000x1024 : S1x1024.Broadcasts S1000x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x91_S1024x91_0_0 : ∀ a, (![0, 0] : Fin 2 → Nat) a + S1024x91.size a ≤ S1024x91.size a
  h_S1024x91 : 0 < S1024x91.numel
  shapeCasts_S1024x91_S1024x91 : S1024x91.ShapeCasts S1024x91
  inb_S1x91_S1x91_0_0 : ∀ a, (![0, 0] : Fin 2 → Nat) a + S1x91.size a ≤ S1x91.size a
  h_S1x91 : 0 < S1x91.numel
  shapeCasts_S1x91_S1x91 : S1x91.ShapeCasts S1x91
  broadcasts_S1x91_S1000x91 : S1x91.Broadcasts S1000x91
  inb_S1000x91_S1000x91_0_0 : ∀ a, (![0, 0] : Fin 2 → Nat) a + S1000x91.size a ≤ S1000x91.size a
  h_S1000x91 : 0 < S1000x91.numel
  inb_S1024x364_S1024x364_0_0 : ∀ a, (![0, 0] : Fin 2 → Nat) a + S1024x364.size a ≤ S1024x364.size a
  h_S1024x364 : 0 < S1024x364.numel
  shapeCasts_S1024x364_S1024x364 : S1024x364.ShapeCasts S1024x364
  inb_S1x364_S1x364_0_0 : ∀ a, (![0, 0] : Fin 2 → Nat) a + S1x364.size a ≤ S1x364.size a
  h_S1x364 : 0 < S1x364.numel
  shapeCasts_S1x364_S1x364 : S1x364.ShapeCasts S1x364
  broadcasts_S1x364_S1000x364 : S1x364.Broadcasts S1000x364
  inb_S1000x364_S1000x364_0_0 : ∀ a, (![0, 0] : Fin 2 → Nat) a + S1000x364.size a ≤ S1000x364.size a
  h_S1000x364 : 0 < S1000x364.numel
  dot_S1000x896_S896x1024_S1000x1024_1_0_0_1_n_n_wf : DotDims.WF S1000x896 S896x1024 S1000x1024 [1] [0] [0] [1] [] []
  dot_S1000x1024_S1024x1024_S1000x1024_1_0_0_1_n_n_wf : DotDims.WF S1000x1024 S1024x1024 S1000x1024 [1] [0] [0] [1] [] []
  dot_S1000x1024_S1024x91_S1000x91_1_0_0_1_n_n_wf : DotDims.WF S1000x1024 S1024x91 S1000x91 [1] [0] [0] [1] [] []
  dot_S1000x1024_S1024x364_S1000x364_1_0_0_1_n_n_wf : DotDims.WF S1000x1024 S1024x364 S1000x364 [1] [0] [0] [1] [] []
  hrank0 : 0 < grid0.rank
  k0_off1_inb : ∀ i : grid0.Coords, ∀ (k0_h1 : k0_cond1 i = 1#1), ∀ a, (k0_off1 i) a + S896x1024.size a ≤ S12544x1024.size a
  k0_off1_packedbf16 : ∀ i : grid0.Coords, ∀ (k0_h1 : k0_cond1 i = 1#1), (Rect.unit (s := S12544x1024) (k0_off1 i) S896x1024.size (k0_off1_inb i k0_h1)).PackedRows (EltTy.packing .bf16)
  k0_off2_inb : ∀ i : grid0.Coords, ∀ a, (k0_off2 i) a + S896x1024.size a ≤ S12544x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x896.size a ≤ S5000x12544.size a
  hwx0_0 : ∀ i : grid0.Coords, EltTy.bits .f32 = 32 ∨ (Rect.block (s := S5000x12544) S1000x896.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S896x1024.size a ≤ S12544x1024.size a
  hwx0_1 : ∀ i : grid0.Coords, EltTy.bits .f32 = 32 ∨ (Rect.block (s := S12544x1024) S896x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x91.size a ≤ S1024x91.size a
  hwx0_5 : ∀ i : grid0.Coords, EltTy.bits .bf16 = 32 ∨ (Rect.block (s := S1024x91) S1024x91.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x91.size a ≤ S1x91.size a
  hwx0_6 : ∀ i : grid0.Coords, EltTy.bits .f32 = 32 ∨ (Rect.block (s := S1x91) S1x91.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x364.size a ≤ S1024x364.size a
  hwx0_7 : ∀ i : grid0.Coords, EltTy.bits .bf16 = 32 ∨ (Rect.block (s := S1024x364) S1024x364.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x364.size a ≤ S1x364.size a
  hwx0_8 : ∀ i : grid0.Coords, EltTy.bits .f32 = 32 ∨ (Rect.block (s := S1x364) S1x364.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x91.size a ≤ S5000x91.size a
  hwx0_9 : ∀ i : grid0.Coords, EltTy.bits .f32 = 32 ∨ (Rect.block (s := S5000x91) S1000x91.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x364.size a ≤ S5000x364.size a
  hwx0_10 : ∀ i : grid0.Coords, EltTy.bits .f32 = 32 ∨ (Rect.block (s := S5000x364) S1000x364.size (cc0_transform_10 i) (hinb0_10 i)).WholeWords (EltTy.packing .f32)

variable [Facts₀]

def dot_S1000x896_S896x1024_S1000x1024_1_0_0_1_n_n : DotDims S1000x896 S896x1024 S1000x1024 where
  lhsContracting := [1]
  rhsContracting := [0]
  lhsNonContracting := [0]
  rhsNonContracting := [1]
  lhsBatch := []
  rhsBatch := []
  wf := dot_S1000x896_S896x1024_S1000x1024_1_0_0_1_n_n_wf
def dot_S1000x1024_S1024x1024_S1000x1024_1_0_0_1_n_n : DotDims S1000x1024 S1024x1024 S1000x1024 where
  lhsContracting := [1]
  rhsContracting := [0]
  lhsNonContracting := [0]
  rhsNonContracting := [1]
  lhsBatch := []
  rhsBatch := []
  wf := dot_S1000x1024_S1024x1024_S1000x1024_1_0_0_1_n_n_wf
def dot_S1000x1024_S1024x91_S1000x91_1_0_0_1_n_n : DotDims S1000x1024 S1024x91 S1000x91 where
  lhsContracting := [1]
  rhsContracting := [0]
  lhsNonContracting := [0]
  rhsNonContracting := [1]
  lhsBatch := []
  rhsBatch := []
  wf := dot_S1000x1024_S1024x91_S1000x91_1_0_0_1_n_n_wf
def dot_S1000x1024_S1024x364_S1000x364_1_0_0_1_n_n : DotDims S1000x1024 S1024x364 S1000x364 where
  lhsContracting := [1]
  rhsContracting := [0]
  lhsNonContracting := [0]
  rhsNonContracting := [1]
  lhsBatch := []
  rhsBatch := []
  wf := dot_S1000x1024_S1024x364_S1000x364_1_0_0_1_n_n_wf

abbrev win0_0 : Pipeline.Window sig grid0 :=
  Pipeline.Window.ofSpec (Memref.whole main_arg0) S1000x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S896x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x91.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x91.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x364.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x364.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7_0) S1000x91.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7_1) S1000x364.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond4 i == 1#1) | 10 => fun i => !(k0_cond4 i == 1#1) | ⟨_ + 11, h⟩ => absurd h (Nat.not_lt.2 (Nat.le_add_left _ _))

class Facts : Prop extends Facts₀ where

variable [Facts]
-- ==== ReferenceIdeal.lean ====
abbrev S5000x12544 : Shape := ⟨2, ![5000, 12544]⟩
abbrev S12544x1024 : Shape := ⟨2, ![12544, 1024]⟩
abbrev S1024 : Shape := ⟨1, ![1024]⟩
abbrev S1024x1024 : Shape := ⟨2, ![1024, 1024]⟩
abbrev S1024x91 : Shape := ⟨2, ![1024, 91]⟩
abbrev S91 : Shape := ⟨1, ![91]⟩
abbrev S1024x364 : Shape := ⟨2, ![1024, 364]⟩
abbrev S364 : Shape := ⟨1, ![364]⟩
abbrev S5000x1024 : Shape := ⟨2, ![5000, 1024]⟩
abbrev S1x1024 : Shape := ⟨2, ![1, 1024]⟩
abbrev S_ : Shape := ⟨0, ![]⟩
abbrev S5000x91 : Shape := ⟨2, ![5000, 91]⟩
abbrev S1x91 : Shape := ⟨2, ![1, 91]⟩
abbrev S5000x364 : Shape := ⟨2, ![5000, 364]⟩
abbrev S1x364 : Shape := ⟨2, ![1, 364]⟩

abbrev nBuf : Space → Nat
  | .hbm => 31
  | .vmem => 0
  | .smem => 0
  | _ => 0

abbrev bufTy : (tb : Table) → Fin (tcTables nBuf tb) → BufTy
  | .hbm, ⟨0, _⟩ => ⟨S5000x12544, .f32⟩
  | .hbm, ⟨1, _⟩ => ⟨S12544x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x91, .f32⟩
  | .hbm, ⟨6, _⟩ => ⟨S91, .f32⟩
  | .hbm, ⟨7, _⟩ => ⟨S1024x364, .f32⟩
  | .hbm, ⟨8, _⟩ => ⟨S364, .f32⟩
  | .hbm, ⟨9, _⟩ => ⟨S5000x1024, .f32⟩
  | .hbm, ⟨10, _⟩ => ⟨S1x1024, .f32⟩
  | .hbm, ⟨11, _⟩ => ⟨S5000x1024, .f32⟩
  | .hbm, ⟨12, _⟩ => ⟨S5000x1024, .f32⟩
  | .hbm, ⟨13, _⟩ => ⟨S_, .f32⟩
  | .hbm, ⟨14, _⟩ => ⟨S5000x1024, .f32⟩
  | .hbm, ⟨15, _⟩ => ⟨S5000x1024, .f32⟩
  | .hbm, ⟨16, _⟩ => ⟨S5000x1024, .f32⟩
  | .hbm, ⟨17, _⟩ => ⟨S1x1024, .f32⟩
  | .hbm, ⟨18, _⟩ => ⟨S5000x1024, .f32⟩
  | .hbm, ⟨19, _⟩ => ⟨S5000x1024, .f32⟩
  | .hbm, ⟨20, _⟩ => ⟨S_, .f32⟩
  | .hbm, ⟨21, _⟩ => ⟨S5000x1024, .f32⟩
  | .hbm, ⟨22, _⟩ => ⟨S5000x1024, .f32⟩
  | .hbm, ⟨23, _⟩ => ⟨S5000x91, .f32⟩
  | .hbm, ⟨24, _⟩ => ⟨S1x91, .f32⟩
  | .hbm, ⟨25, _⟩ => ⟨S5000x91, .f32⟩
  | .hbm, ⟨26, _⟩ => ⟨S5000x91, .f32⟩
  | .hbm, ⟨27, _⟩ => ⟨S5000x364, .f32⟩
  | .hbm, ⟨28, _⟩ => ⟨S1x364, .f32⟩
  | .hbm, ⟨29, _⟩ => ⟨S5000x364, .f32⟩
  | .hbm, ⟨30, _⟩ => ⟨S5000x364, .f32⟩
  | _, _ => ⟨S5000x12544, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_cst : Ref sig .tc := ⟨.hbm, 20, rfl⟩
abbrev main_call1_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S5000x1024_0_1 : S1x1024.BroadcastsInDim S5000x1024 (![0, 1] : Fin 2 → Fin S5000x1024.rank)
  bcast_S_S5000x1024 : S_.BroadcastsInDim S5000x1024 (![] : Fin 0 → Fin S5000x1024.rank)
  bcast_S91_S1x91_1 : S91.BroadcastsInDim S1x91 (![1] : Fin 1 → Fin S1x91.rank)
  bcast_S1x91_S5000x91_0_1 : S1x91.BroadcastsInDim S5000x91 (![0, 1] : Fin 2 → Fin S5000x91.rank)
  bcast_S364_S1x364_1 : S364.BroadcastsInDim S1x364 (![1] : Fin 1 → Fin S1x364.rank)
  bcast_S1x364_S5000x364_0_1 : S1x364.BroadcastsInDim S5000x364 (![0, 1] : Fin 2 → Fin S5000x364.rank)
  dot_S5000x12544_S12544x1024_S5000x1024_1_0_0_1_n_n_wf : DotDims.WF S5000x12544 S12544x1024 S5000x1024 [1] [0] [0] [1] [] []
  dot_S5000x1024_S1024x1024_S5000x1024_1_0_0_1_n_n_wf : DotDims.WF S5000x1024 S1024x1024 S5000x1024 [1] [0] [0] [1] [] []
  dot_S5000x1024_S1024x91_S5000x91_1_0_0_1_n_n_wf : DotDims.WF S5000x1024 S1024x91 S5000x91 [1] [0] [0] [1] [] []
  dot_S5000x1024_S1024x364_S5000x364_1_0_0_1_n_n_wf : DotDims.WF S5000x1024 S1024x364 S5000x364 [1] [0] [0] [1] [] []

variable [Facts₀]

def dot_S5000x12544_S12544x1024_S5000x1024_1_0_0_1_n_n : DotDims S5000x12544 S12544x1024 S5000x1024 where
  lhsContracting := [1]
  rhsContracting := [0]
  lhsNonContracting := [0]
  rhsNonContracting := [1]
  lhsBatch := []
  rhsBatch := []
  wf := dot_S5000x12544_S12544x1024_S5000x1024_1_0_0_1_n_n_wf
def dot_S5000x1024_S1024x1024_S5000x1024_1_0_0_1_n_n : DotDims S5000x1024 S1024x1024 S5000x1024 where
  lhsContracting := [1]
  rhsContracting := [0]
  lhsNonContracting := [0]
  rhsNonContracting := [1]
  lhsBatch := []
  rhsBatch := []
  wf := dot_S5000x1024_S1024x1024_S5000x1024_1_0_0_1_n_n_wf
def dot_S5000x1024_S1024x91_S5000x91_1_0_0_1_n_n : DotDims S5000x1024 S1024x91 S5000x91 where
  lhsContracting := [1]
  rhsContracting := [0]
  lhsNonContracting := [0]
  rhsNonContracting := [1]
  lhsBatch := []
  rhsBatch := []
  wf := dot_S5000x1024_S1024x91_S5000x91_1_0_0_1_n_n_wf
def dot_S5000x1024_S1024x364_S5000x364_1_0_0_1_n_n : DotDims S5000x1024 S1024x364 S5000x364 where
  lhsContracting := [1]
  rhsContracting := [0]
  lhsNonContracting := [0]
  rhsNonContracting := [1]
  lhsBatch := []
  rhsBatch := []
  wf := dot_S5000x1024_S1024x364_S5000x364_1_0_0_1_n_n_wf

class Facts : Prop extends Facts₀ where

variable [Facts]
-- ==== Proof.HeadSpec.lean ====
/-
  The box head as ONE function of its nine argument arrays, index by index, on the extended reals:

    h1[r, c]    = max (sum_j x[r, j] * W1[j, c] + b1[c]) 0          (j over 12544)
    h2[r, c]    = max (sum_j h1[r, j] * W2[j, c] + b2[c]) 0         (j over 1024)
    score[r, c] = sum_j h2[r, j] * Wc[j, c] + bc[c]                 (c over 91)
    bbox[r, c]  = sum_j h2[r, j] * Wb[j, c] + bb[c]                 (c over 364)

  The zero of the two rectifiers is the value of the f32 zero word. Both programs are shown to compute
  `scoreArr` and `bboxArr`; no program is imported here.
-/
import Idealize.ShloMosaic.PureOps.Ideal
import Idealize.ShloMosaic.Lib.ValueIdx

noncomputable section

open scoped BigOperators

namespace Cert.BoxHead

open Idealize.ShloMosaic Idealize.ShloMosaic.ValueIdx

/-- A real-or-infinite matrix of `r` rows and `c` columns. -/
abbrev Mat (r c : Nat) : Type := FVec Ideal (⟨2, ![r, c]⟩ : Shape) .f32
/-- A real-or-infinite vector of `n` entries. -/
abbrev Row (n : Nat) : Type := FVec Ideal (⟨1, ![n]⟩ : Shape) .f32

/-- The rectifiers' threshold: the value of the f32 zero word. -/
abbrev zero : Ideal .f32 := Ideal.ofBits .f32 0x00000000#32

/-- First hidden layer: row `r` of `x` against column `c` of `W1`, plus the bias, rectified. -/
def hid1 (x : Mat 5000 12544) (w1 : Mat 12544 1024) (b1 : Row 1024) (r : Fin 5000) (c : Fin 1024) : Ideal .f32 :=
  max ((∑ j : Fin 12544, x (ix2 r j) * w1 (ix2 j c)) + b1 (ix1 c)) zero

/-- Second hidden layer, over the first. -/
def hid2 (x : Mat 5000 12544) (w1 : Mat 12544 1024) (b1 : Row 1024) (w2 : Mat 1024 1024) (b2 : Row 1024)
    (r : Fin 5000) (c : Fin 1024) : Ideal .f32 :=
  max ((∑ j : Fin 1024, hid1 x w1 b1 r j * w2 (ix2 j c)) + b2 (ix1 c)) zero

/-- Class scores: the second layer against `Wc`, plus `bc`. -/
def score (x : Mat 5000 12544) (w1 : Mat 12544 1024) (b1 : Row 1024) (w2 : Mat 1024 1024) (b2 : Row 1024)
    (wc : Mat 1024 91) (bc : Row 91) (r : Fin 5000) (c : Fin 91) : Ideal .f32 :=
  (∑ j : Fin 1024, hid2 x w1 b1 w2 b2 r j * wc (ix2 j c)) + bc (ix1 c)

/-- Box regression: the second layer against `Wb`, plus `bb`. -/
def bbox (x : Mat 5000 12544) (w1 : Mat 12544 1024) (b1 : Row 1024) (w2 : Mat 1024 1024) (b2 : Row 1024)
    (wb : Mat 1024 364) (bb : Row 364) (r : Fin 5000) (c : Fin 364) : Ideal .f32 :=
  (∑ j : Fin 1024, hid2 x w1 b1 w2 b2 r j * wb (ix2 j c)) + bb (ix1 c)

/-- The score array, whole. -/
def scoreArr (x : Mat 5000 12544) (w1 : Mat 12544 1024) (b1 : Row 1024) (w2 : Mat 1024 1024) (b2 : Row 1024)
    (wc : Mat 1024 91) (bc : Row 91) : Mat 5000 91 :=
  fun i => score x w1 b1 w2 b2 wc bc (i 0) (i 1)

/-- The box array, whole. -/
def bboxArr (x : Mat 5000 12544) (w1 : Mat 12544 1024) (b1 : Row 1024) (w2 : Mat 1024 1024) (b2 : Row 1024)
    (wb : Mat 1024 364) (bb : Row 364) : Mat 5000 364 :=
  fun i => bbox x w1 b1 w2 b2 wb bb (i 0) (i 1)

end Cert.BoxHead

end
-- ==== Proof.RefHead.lean ====
/-
  The reference program computes the box head's two arrays.

  Read at a row r and a column c, the reference's stages are

    stage 4  [r, c] = max (sum_j x[r, j] * W1[j, c] + b1[c]) 0            -- the first hidden layer
    stage 9  [r, c] = max (sum_j stage4[r, j] * W2[j, c] + b2[c]) 0       -- the second hidden layer
    stage 13 [r, c] = sum_j stage9[r, j] * Wc[j, c] + bc[c]               -- the class scores
    stage 17 [r, c] = sum_j stage9[r, j] * Wb[j, c] + bb[c]               -- the box regression

  A product of matrices read at (r, c) is the sum over the contracted axis of the left factor at (r, j) times
  the right factor at (j, c). A bias vector reaches the matrix it is added to in two broadcasts, [n] to [1, n]
  to [rows, n], so the entry added at (r, c) is the bias at c. A rectifier is the maximum against the f32 zero
  word broadcast to every entry. Stage by stage these are the specification's hid1, hid2, score and bbox, and
  since every index of a matrix is a pair of coordinates, stages 13 and 17 are its scoreArr and bboxArr.
-/
import proofs.«102008_g47519518163636_cont_8to1_c_297_11_alg».proof.Proof.Gen.ReferenceIdeal.Read
import proofs.«102008_g47519518163636_cont_8to1_c_297_11_alg».proof.Proof.HeadSpec

noncomputable section

open scoped BigOperators

namespace Cert.RefHead

open Cert.ReferenceIdeal Cert.ReferenceIdeal.Read Idealize.ShloMosaic Idealize.ShloMosaic.ValueIdx Idealize.ShloMosaic.TcCoe Idealize.SL.Sem Idealize.ShloMosaic.StableHlo

/-! ## The index functions of the four matrix products and of the four bias broadcasts, by coordinates -/

/-- First product, left factor: entry (r, c) reads row r at the contracted coordinate. -/
theorem lidx_v0 (r : Fin 5000) (c : Fin 1024) (k : Fin 12544) : lidx_main_v0 (ix2 r c) k = ix2 r k :=
  funext fun a => by match a with | ⟨0, _⟩ => rfl | ⟨1, _⟩ => rfl
/-- First product, right factor: entry (r, c) reads column c at the contracted coordinate. -/
theorem ridx_v0 (r : Fin 5000) (c : Fin 1024) (k : Fin 12544) : ridx_main_v0 (ix2 r c) k = ix2 k c :=
  funext fun a => by match a with | ⟨0, _⟩ => rfl | ⟨1, _⟩ => rfl
/-- Second product, left factor. -/
theorem lidx_v5 (r : Fin 5000) (c : Fin 1024) (k : Fin 1024) : lidx_main_v5 (ix2 r c) k = ix2 r k :=
  funext fun a => by match a with | ⟨0, _⟩ => rfl | ⟨1, _⟩ => rfl
/-- Second product, right factor. -/
theorem ridx_v5 (r : Fin 5000) (c : Fin 1024) (k : Fin 1024) : ridx_main_v5 (ix2 r c) k = ix2 k c :=
  funext fun a => by match a with | ⟨0, _⟩ => rfl | ⟨1, _⟩ => rfl
/-- Score product, left factor. -/
theorem lidx_v10 (r : Fin 5000) (c : Fin 91) (k : Fin 1024) : lidx_main_v10 (ix2 r c) k = ix2 r k :=
  funext fun a => by match a with | ⟨0, _⟩ => rfl | ⟨1, _⟩ => rfl
/-- Score product, right factor. -/
theorem ridx_v10 (r : Fin 5000) (c : Fin 91) (k : Fin 1024) : ridx_main_v10 (ix2 r c) k = ix2 k c :=
  funext fun a => by match a with | ⟨0, _⟩ => rfl | ⟨1, _⟩ => rfl
/-- Box product, left factor. -/
theorem lidx_v14 (r : Fin 5000) (c : Fin 364) (k : Fin 1024) : lidx_main_v14 (ix2 r c) k = ix2 r k :=
  funext fun a => by match a with | ⟨0, _⟩ => rfl | ⟨1, _⟩ => rfl
/-- Box product, right factor. -/
theorem ridx_v14 (r : Fin 5000) (c : Fin 364) (k : Fin 1024) : ridx_main_v14 (ix2 r c) k = ix2 k c :=
  funext fun a => by match a with | ⟨0, _⟩ => rfl | ⟨1, _⟩ => rfl

/-- The first bias, through its two broadcasts: entry (r, c) reads the bias at c. -/
theorem bias_v2 (r : Fin 5000) (c : Fin 1024) : idx_main_v1 (idx_main_v2 (ix2 r c)) = ix1 c :=
  funext fun a => by match a with | ⟨0, _⟩ => rfl
/-- The second bias. -/
theorem bias_v7 (r : Fin 5000) (c : Fin 1024) : idx_main_v6 (idx_main_v7 (ix2 r c)) = ix1 c :=
  funext fun a => by match a with | ⟨0, _⟩ => rfl
/-- The score bias. -/
theorem bias_v12 (r : Fin 5000) (c : Fin 91) : idx_main_v11 (idx_main_v12 (ix2 r c)) = ix1 c :=
  funext fun a => by match a with | ⟨0, _⟩ => rfl
/-- The box bias. -/
theorem bias_v16 (r : Fin 5000) (c : Fin 364) : idx_main_v15 (idx_main_v16 (ix2 r c)) = ix1 c :=
  funext fun a => by match a with | ⟨0, _⟩ => rfl

/-! ## The stages at an index -/

/-- Stage 4 is the first hidden layer. -/
theorem stage4 (x0 : (⟨S5000x12544, .f32⟩ : BufTy).Contents (Elt Ideal)) (x1 : (⟨S12544x1024, .f32⟩ : BufTy).Contents (Elt Ideal)) (x2 : (⟨S1024, .f32⟩ : BufTy).Contents (Elt Ideal)) (r : Fin 5000) (c : Fin 1024) :
    val_main_v4 (F := Ideal) x0 x1 x2 (ix2 r c) = BoxHead.hid1 x0 x1 x2 r c := by
  rw [val_main_v4_apply, val_main_v3_apply, val_main_v0_apply, val_main_v2_apply, val_main_v1_apply,
    val_main_call0_v0_apply, val_main_call0_cst_apply]
  simp only [lidx_v0, ridx_v0, bias_v2, Ideal.maximumf_def, Ideal.addf_def, Ideal.ofBits_def]
  rfl

/-- Stage 9 is the second hidden layer: its product runs over stage 4's row r. -/
theorem stage9 (x0 : (⟨S5000x12544, .f32⟩ : BufTy).Contents (Elt Ideal)) (x1 : (⟨S12544x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (r : Fin 5000) (c : Fin 1024) :
    val_main_v9 (F := Ideal) x0 x1 x2 x3 x4 (ix2 r c) = BoxHead.hid2 x0 x1 x2 x3 x4 r c := by
  rw [val_main_v9_apply, val_main_v8_apply, val_main_v5_apply, val_main_v7_apply, val_main_v6_apply,
    val_main_call1_v0_apply, val_main_call1_cst_apply]
  simp only [lidx_v5, ridx_v5, bias_v7, stage4, Ideal.maximumf_def, Ideal.addf_def, Ideal.ofBits_def]
  rfl

/-- Stage 13 is the class score: its product runs over stage 9's row r. -/
theorem stage13 (x0 : (⟨S5000x12544, .f32⟩ : BufTy).Contents (Elt Ideal)) (x1 : (⟨S12544x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x91, .f32⟩ : BufTy).Contents (Elt Ideal)) (x6 : (⟨S91, .f32⟩ : BufTy).Contents (Elt Ideal)) (r : Fin 5000) (c : Fin 91) :
    val_main_v13 (F := Ideal) x0 x1 x2 x3 x4 x5 x6 (ix2 r c) = BoxHead.score x0 x1 x2 x3 x4 x5 x6 r c := by
  rw [val_main_v13_apply, val_main_v10_apply, val_main_v12_apply, val_main_v11_apply]
  simp only [lidx_v10, ridx_v10, bias_v12, stage9, Ideal.addf_def]
  rfl

/-- Stage 17 is the box regression: its product runs over stage 9's row r. -/
theorem stage17 (x0 : (⟨S5000x12544, .f32⟩ : BufTy).Contents (Elt Ideal)) (x1 : (⟨S12544x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x7 : (⟨S1024x364, .f32⟩ : BufTy).Contents (Elt Ideal)) (x8 : (⟨S364, .f32⟩ : BufTy).Contents (Elt Ideal)) (r : Fin 5000) (c : Fin 364) :
    val_main_v17 (F := Ideal) x0 x1 x2 x3 x4 x7 x8 (ix2 r c) = BoxHead.bbox x0 x1 x2 x3 x4 x7 x8 r c := by
  rw [val_main_v17_apply, val_main_v14_apply, val_main_v16_apply, val_main_v15_apply]
  simp only [lidx_v14, ridx_v14, bias_v16, stage9, Ideal.addf_def]
  rfl

/-! ## The two result arrays, whole -/

/-- Stage 13 is the score array: every index is a pair of coordinates. -/
theorem scoreArr_eq (x0 : (⟨S5000x12544, .f32⟩ : BufTy).Contents (Elt Ideal)) (x1 : (⟨S12544x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x91, .f32⟩ : BufTy).Contents (Elt Ideal)) (x6 : (⟨S91, .f32⟩ : BufTy).Contents (Elt Ideal)) :
    val_main_v13 (F := Ideal) x0 x1 x2 x3 x4 x5 x6 = BoxHead.scoreArr x0 x1 x2 x3 x4 x5 x6 := by
  funext i
  obtain ⟨r, c, rfl⟩ : ∃ (r : Fin 5000) (c : Fin 91), i = ix2 r c := ⟨i 0, i 1, eq_ix2 i⟩
  exact stage13 x0 x1 x2 x3 x4 x5 x6 r c

/-- Stage 17 is the box array. -/
theorem bboxArr_eq (x0 : (⟨S5000x12544, .f32⟩ : BufTy).Contents (Elt Ideal)) (x1 : (⟨S12544x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x7 : (⟨S1024x364, .f32⟩ : BufTy).Contents (Elt Ideal)) (x8 : (⟨S364, .f32⟩ : BufTy).Contents (Elt Ideal)) :
    val_main_v17 (F := Ideal) x0 x1 x2 x3 x4 x7 x8 = BoxHead.bboxArr x0 x1 x2 x3 x4 x7 x8 := by
  funext i
  obtain ⟨r, c, rfl⟩ : ∃ (r : Fin 5000) (c : Fin 364), i = ix2 r c := ⟨i 0, i 1, eq_ix2 i⟩
  exact stage17 x0 x1 x2 x3 x4 x7 x8 r c

/-! ## The run -/

/-- Every weakly fair execution of the reference terminates with its first result the score array and its second
    the box array of the nine argument arrays as launched, and those nine unchanged. -/
theorem run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v13) = Cert.BoxHead.scoreArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_v17) = Cert.BoxHead.bboxArr (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)) :=
  (θ_run Cert.ReferenceIdeal.defs _ _).mono (fun _ h c =>
      ⟨(h c).1.trans ((val_main_v13_eq (F := Ideal) _ _ _ _ _ _ _).trans (scoreArr_eq _ _ _ _ _ _ _)),
       (h c).2.1.trans ((val_main_v17_eq (F := Ideal) _ _ _ _ _ _ _).trans (bboxArr_eq _ _ _ _ _ _ _)),
       (h c).2.2⟩)
    (Cert.ReferenceIdeal.Value.run (F := Ideal) m' ρ')

end Cert.RefHead

end
-- ==== Proof.CarriedI.lean ====
/-
  What the kernel carries from grid point to grid point, as pure functions of the argument blocks, at any
  float instance. The grid is 5 row tiles by 14 column tiles of the first product, the column tile innermost:
  point `n` is row tile `n / 14`, column tile `n % 14`.

  * `tile k`   — the reduced-precision copy of block `k` of the first weight matrix (896 of its rows), as the
                  first row sweep stores it in the second scratch buffer and every sweep reads it back;
  * `acc n`    — the first scratch buffer after point `n`: the partial product of the point's block of `x` with
                  `tile (n % 14)`, alone at a row tile's first column tile, added to what the point before left
                  otherwise;
  * `scoreAt n`, `bboxAt n` — what the epilogue computes from `acc n` and the point's blocks of the small
                  operands (stored into the two output windows at a row tile's last column tile);
  * `Cached n Z` — the second scratch buffer's contents `Z` agree with `tile k` on the rows of every tile
                  `k ≤ n` (from point 13 on: on every tile).
-/
import proofs.«102008_g47519518163636_cont_8to1_c_297_11_alg».proof.Proof.Gen.KernelIdeal.Frame
import proofs.«102008_g47519518163636_cont_8to1_c_297_11_alg».proof.Proof.Gen.KernelIdeal.Skeleton
import Idealize.ShloMosaic.Lib.ValueIdx

noncomputable section

namespace Cert.KernelIdeal.Carried

open Idealize.ShloMosaic Idealize.ShloMosaic.TcCoe Idealize.ShloMosaic.ValueIdx
open Idealize.SL.Sem
open Cert.KernelIdeal Cert.KernelIdeal.Gen

variable {F : FTy → Type} [FloatOps F]
variable (m : (ℓ : Loc nD τ sig) → Buf (Elt F) ℓ)

/-- The grid has 70 points. -/
theorem N70 : cfg0.N = 70 := N_0

/-- A column-tile number is a point of the first row sweep. -/
theorem tile_lt (k : ℕ) : k % 14 < cfg0.N := by rw [N70]; omega

/-- Block `k` of the first weight matrix in reduced precision: what point `k` (row tile 0, column tile `k`)
    stores into the second scratch buffer. -/
def tile (c : Dev nD) (k : ℕ) : Vec F S896x1024 .bf16 :=
  k0_pay1 (iblk m c 1 ⟨k % 14, tile_lt k⟩)

/-- The first scratch buffer after point `n`. -/
def acc (c : Dev nD) : (n : ℕ) → n < cfg0.N → Vec F S1000x1024 .f32
  | 0, hn => k0_pay3 (tile m c 0) (iblk m c 0 ⟨0, hn⟩)
  | n + 1, hn =>
    if (n + 1) % 14 = 0 then k0_pay3 (tile m c (n + 1)) (iblk m c 0 ⟨n + 1, hn⟩)
    else k0_pay4 (tile m c (n + 1)) (iblk m c 0 ⟨n + 1, hn⟩) (acc c n (Nat.lt_of_succ_lt hn))

/-- At a row tile's first column tile the accumulator is the point's partial product alone. -/
theorem acc_first (c : Dev nD) (t : Fin cfg0.N) (h : t.val % 14 = 0) :
    acc m c t.val t.isLt = k0_pay3 (tile m c t.val) (iblk m c 0 t) := by
  obtain ⟨n, hn⟩ := t
  cases n with
  | zero => rfl
  | succ n => exact if_pos h

/-- Elsewhere it is the point's partial product added to what the point before left. -/
theorem acc_next (c : Dev nD) (t : Fin cfg0.N) (h : ¬ t.val % 14 = 0) :
    acc m c t.val t.isLt
      = k0_pay4 (tile m c t.val) (iblk m c 0 t) (acc m c (t.val - 1) (Nat.lt_of_le_of_lt (Nat.sub_le _ _) t.isLt)) := by
  obtain ⟨n, hn⟩ := t
  cases n with
  | zero => exact absurd (Nat.zero_mod _) h
  | succ n => exact if_neg h

/-- The class scores the epilogue computes at point `n`. -/
def scoreAt (c : Dev nD) (n : ℕ) (hn : n < cfg0.N) : Vec F S1000x91 .f32 :=
  k0_pay6 (acc m c n hn) (iblk m c 2 ⟨n, hn⟩) (iblk m c 3 ⟨n, hn⟩) (iblk m c 4 ⟨n, hn⟩) (iblk m c 5 ⟨n, hn⟩) (iblk m c 6 ⟨n, hn⟩)

/-- The box deltas the epilogue computes at point `n`. -/
def bboxAt (c : Dev nD) (n : ℕ) (hn : n < cfg0.N) : Vec F S1000x364 .f32 :=
  k0_pay7 (acc m c n hn) (iblk m c 2 ⟨n, hn⟩) (iblk m c 3 ⟨n, hn⟩) (iblk m c 4 ⟨n, hn⟩) (iblk m c 7 ⟨n, hn⟩) (iblk m c 8 ⟨n, hn⟩)

/-- Row `896 * k + a`, column `b` of the cached weight matrix. -/
def cell (k : ℕ) (hk : k < 14) (a : Fin 896) (b : Fin 1024) : S12544x1024.Idx :=
  ix2 (⟨896 * k + a.val, by omega⟩ : Fin 12544) b

/-- The cached weight matrix `Z` holds `tile k` on the rows of every column tile `k ≤ n`. -/
def Cached (c : Dev nD) (n : ℕ) (Z : Vec F S12544x1024 .bf16) : Prop :=
  ∀ (k : ℕ) (hk : k < 14), k ≤ n → ∀ (a : Fin 896) (b : Fin 1024), Z (cell k hk a b) = tile m c k (ix2 a b)

end Cert.KernelIdeal.Carried

end
-- ==== Proof.DatI.lean ====
import proofs.«102008_g47519518163636_cont_8to1_c_297_11_alg».proof.Proof.Gen.KernelIdeal.Frame
import proofs.«102008_g47519518163636_cont_8to1_c_297_11_alg».proof.Proof.Gen.KernelIdeal.Skeleton
import proofs.«102008_g47519518163636_cont_8to1_c_297_11_alg».proof.Proof.CarriedI
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Carried
open Idealize.ShloMosaic.ValueIdx (ix2)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four branch conditions, over the grid coordinates -/

/-- The point is in the first row sweep (row tile 0): the weight block is cached there. -/
abbrev sweep0 (i : grid0.Coords) : Prop := k0_cond1 i = 1#1
/-- The point is a row tile's first column tile: the accumulator is reset. -/
abbrev kfirst (i : grid0.Coords) : Prop :=
  (Scalar.cmpi .ne (Scalar.extui (Scalar.cmpi .eq (BitVec.ofNat 32 (i 1).val) 0#32)) 0#32) = 1#1
/-- The point is a later column tile: the accumulator is added to. -/
abbrev klater (i : grid0.Coords) : Prop :=
  (Scalar.cmpi .ne (Scalar.extui (Scalar.cmpi .sgt (BitVec.ofNat 32 (i 1).val) 0#32)) 0#32) = 1#1
/-- The point is a row tile's last column tile: the epilogue runs. -/
abbrev klast (i : grid0.Coords) : Prop := k0_cond4 i = 1#1

theorem hsweep0 : ∀ t : Fin cfg0.N, sweep0 (grid0.coords t) ↔ t.val < 14 :=
  (by decide +kernel : ∀ t : Fin grid0.N, sweep0 (grid0.coords t) ↔ t.val < 14)
theorem hkfirst : ∀ t : Fin cfg0.N, kfirst (grid0.coords t) ↔ t.val % 14 = 0 :=
  (by decide +kernel : ∀ t : Fin grid0.N, kfirst (grid0.coords t) ↔ t.val % 14 = 0)
theorem hklater : ∀ t : Fin cfg0.N, klater (grid0.coords t) ↔ ¬ t.val % 14 = 0 :=
  (by decide +kernel : ∀ t : Fin grid0.N, klater (grid0.coords t) ↔ ¬ t.val % 14 = 0)
theorem hklast : ∀ t : Fin cfg0.N, klast (grid0.coords t) ↔ t.val % 14 = 13 :=
  (by decide +kernel : ∀ t : Fin grid0.N, klast (grid0.coords t) ↔ t.val % 14 = 13)

/-- Where the first row sweep stores the weight block and where every point loads it back: rows
    `896 * (column tile)`, column 0. -/
theorem hoff1 : ∀ t : Fin cfg0.N, k0_off1 (grid0.coords t) = ![896 * (t.val % 14), 0] :=
  (by decide +kernel : ∀ t : Fin grid0.N, k0_off1 (grid0.coords t) = ![896 * (t.val % 14), 0])
theorem hoff2 : ∀ t : Fin cfg0.N, k0_off2 (grid0.coords t) = ![896 * (t.val % 14), 0] :=
  (by decide +kernel : ∀ t : Fin grid0.N, k0_off2 (grid0.coords t) = ![896 * (t.val % 14), 0])

/-! ## Where the windows are idle -/

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl
/-- Off a row tile's last column tile nothing is stored into the two outputs, and they are not written back. -/
theorem idle_9 : ∀ t : Fin cfg0.N, ¬ klast (grid0.coords t) → cfg0.idle 9 (grid0.coords t) = true := by decide +kernel
theorem idle_10 : ∀ t : Fin cfg0.N, ¬ klast (grid0.coords t) → cfg0.idle 10 (grid0.coords t) = true := by decide +kernel
theorem noFlush_9 : ∀ t : Fin cfg0.N, ¬ klast (grid0.coords t) → (cfg0.win 9).flush t = false := by decide +kernel
theorem noFlush_10 : ∀ t : Fin cfg0.N, ¬ klast (grid0.coords t) → (cfg0.win 10).flush t = false := by decide +kernel
/-- At a row tile's last column tile both outputs are stored. -/
theorem live_9 : ∀ t : Fin cfg0.N, klast (grid0.coords t) → cfg0.idle 9 (grid0.coords t) = false := by decide +kernel
theorem live_10 : ∀ t : Fin cfg0.N, klast (grid0.coords t) → cfg0.idle 10 (grid0.coords t) = false := by decide +kernel

/-! ## The staging and scratch memrefs -/

abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)
abbrev ms9 (t : Fin cfg0.N) := win0_9.stage (cfg0.slots t 9)
abbrev hs9 (t : Fin cfg0.N) : (ms9 t).IsWhole := hstage0_9 ((cfg0.slots t 9).cast nbuf0_9)
abbrev ms10 (t : Fin cfg0.N) := win0_10.stage (cfg0.slots t 10)
abbrev hs10 (t : Fin cfg0.N) : (ms10 t).IsWhole := hstage0_10 ((cfg0.slots t 10).cast nbuf0_10)
/-- The accumulator: the first scratch operand, a whole scoped buffer. -/
abbrev scA : Memref sig .tc .vmem S1000x1024 .f32 := Memref.whole cc0_scratch0
/-- The cached weight matrix: the second scratch operand. -/
abbrev scW : Memref sig .tc .vmem S12544x1024 .bf16 := Memref.whole cc0_scratch1

/-- The class invariant with the two scratch operands as memrefs owned at some contents. -/
theorem PhiA_eq (c : Dev nD) :
    (Pipeline.ΦA spec0 c : sProp 𝕄)
      = iprop(iprop((∃ d, owns (c : Thread nD τ) scA fullShare d) ∗ (∃ d, owns (c : Thread nD τ) scW fullShare d)) ∗ (∃ r, prngReg c r)) := by
  unfold Pipeline.ΦA; rw [scopedRest0_eq]; simp only [scA, scW, owns_whole]; try rfl

/-! ## The invariant -/

/-- Before the first point the class invariant (both scratch buffers at anything); after point `n` the accumulator
    at `acc n`, the cached weight matrix at contents that hold every tile cached so far, the generator register
    at some state. -/
def Phi (c : Dev nD) : (n : ℕ) → n ≤ cfg0.N → sProp 𝕄
  | 0, _ => Pipeline.ΦA spec0 c
  | n + 1, hn => iprop(iprop(owns (c : Thread nD τ) scA fullShare (acc m c n hn)
      ∗ (∃ Z, owns (c : Thread nD τ) scW fullShare Z ∗ ⌜Cached m c n Z⌝)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) scA fullShare (acc m c n hn)
      ∗ (∃ Z, owns (c : Thread nD τ) scW fullShare Z ∗ ⌜Cached m c n Z⌝)) ∗ (∃ r, prngReg c r)) := rfl

theorem Phi_pos (c : Dev nD) (n : ℕ) (h : n ≤ cfg0.N) (hz : n ≠ 0) :
    Phi m c n h = iprop(iprop(owns (c : Thread nD τ) scA fullShare (acc m c (n - 1) (by omega))
      ∗ (∃ Z, owns (c : Thread nD τ) scW fullShare Z ∗ ⌜Cached m c (n - 1) Z⌝)) ∗ (∃ r, prngReg c r)) := by
  cases n with
  | zero => exact absurd rfl hz
  | succ n => rfl

/-! ## The proof data -/

/-- The arrays as the region finds them; after the body each input's buffer at its block, the two outputs'
    at the epilogue's values; the invariant `Phi`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => scoreAt m c t.val t.isLt
    | ⟨10, _⟩ => bboxAt m c t.val t.isLt
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = scoreAt m c t.val t.isLt := by dsimp only [dats]
theorem after_10 (c : Dev nD) (t : Fin cfg0.N) : (dats m 0 c).after 10 t = bboxAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

end Cert.KernelIdeal.Body

end
-- ==== Proof.ArraysI.lean ====
/-
  From blocks to whole arrays, for the kernel's two outputs on the extended reals.

  The grid is 5 row tiles by 14 column tiles, the column tile innermost: point `t` is row tile `t / 14`. Each output
  window has blocks of 1000 rows and all of the array's columns, its block at point `t` is the row tile's, and it is
  written back exactly at a row tile's last point, `t % 14 = 13`. So if what such a point leaves in the window,
  entry (p, q), is entry (1000 * (t / 14) + p, q) of one whole-array function, then the five blocks written back —
  rows 0–999, 1000–1999, …, 4000–4999 — tile the 5000 rows, and the array after the run is that function.
-/
import proofs.«102008_g47519518163636_cont_8to1_c_297_11_alg».proof.Proof.DatI
import proofs.«102008_g47519518163636_cont_8to1_c_297_11_alg».proof.Proof.HeadSpec
import Idealize.ShloMosaic.Lib.Pipeline.Value

noncomputable section

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx (ix2)

variable (m : (ℓ : Loc nD τ sig) → Buf (Elt Ideal) ℓ)

/-! ## The score array (output window 9) -/

/-- The window's index map over the grid: the block of point `t` is row tile `t / 14`, column block 0. -/
theorem idx9 : ∀ t : Fin cfg0.N, win0_9.index t (0 : Fin 2) = t.val / 14 ∧ win0_9.index t (1 : Fin 2) = 0 :=
  (by decide +kernel : ∀ t : Fin grid0.N, win0_9.index t (0 : Fin 2) = t.val / 14 ∧ win0_9.index t (1 : Fin 2) = 0)

/-- What a row tile's last point writes back is that row tile's block of `S`: entry (p, q) of the block is
    entry (1000 * (row tile) + p, q) of the array. -/
theorem flushed9_eq (c : Dev nD) (S : BoxHead.Mat 5000 91)
    (hS : ∀ (t : Fin cfg0.N), t.val % 14 = 13 → ∀ (p : Fin 1000) (q : Fin 91),
        Carried.scoreAt (F := Ideal) m c t.val t.isLt (ix2 p q)
          = S (ix2 ⟨1000 * (t.val / 14) + p.val, by have h1 : t.val < 70 := Nat.lt_of_lt_of_eq t.isLt Carried.N70; have h2 := p.isLt; omega⟩ q))
    (t : Fin cfg0.N) (hf : (cfg0.win 9).flush t = true) :
    (Body.dats (F := Ideal) m 0 c).flushed 9 t = ((cfg0.win 9).blk t).view.read (Elt Ideal) S := by
  have h13 : t.val % 14 = 13 := (flush0_9 t).mp hf
  obtain ⟨e0, e1⟩ := idx9 t
  show (cfg0.win 9).cut (grid0.coords t) ((Body.dats (F := Ideal) m 0 c).after 9 t) = _
  rw [Body.after_9]
  funext j
  have hp : (j 0).val < 1000 := (j 0).isLt
  have hq : (j 1).val < 91 := (j 1).isLt
  have ej : (cfg0.win 9).xinj (grid0.coords t) j = ix2 (⟨(j 0).val, hp⟩ : Fin 1000) (⟨(j 1).val, hq⟩ : Fin 91) :=
    funext fun a => by match a with | ⟨0, _⟩ => rfl | ⟨1, _⟩ => rfl
  show Carried.scoreAt (F := Ideal) m c t.val t.isLt ((cfg0.win 9).xinj (grid0.coords t) j) = S (((cfg0.win 9).blk t).view.emb j)
  refine (congrArg (Carried.scoreAt (F := Ideal) m c t.val t.isLt) ej).trans ((hS t h13 _ _).trans (congrArg S ?_))
  funext a; apply Fin.ext
  match a with
  | ⟨0, _⟩ => show 1000 * (t.val / 14) + (j 0).val = win0_9.index t (0 : Fin 2) * 1000 + 1 * (j 0).val; omega
  | ⟨1, _⟩ => show (j 1).val = win0_9.index t (1 : Fin 2) * 91 + 1 * (j 1).val; omega

/-- An index of the array lies in point `t`'s block exactly when each coordinate lies in the block's range. -/
theorem mem_blk9 (t : Fin cfg0.N) (i : S5000x91.Idx) :
    i ∈ ((cfg0.win 9).blk t).view.set ↔ ∀ a : Fin 2, win0_9.index t a * S1000x91.size a ≤ (i a).val ∧ (i a).val < win0_9.index t a * S1000x91.size a + S1000x91.size a := by
  show i ∈ ((View.whole main_v7_0).slice (win0_9.rect t)).set ↔ _
  rw [View.set_slice_whole, Rect.mem_set_unit]
  exact Iff.rfl

/-- Every index of the array lies in a block that is written back: row `r` is in row tile `r / 1000`, whose last
    point is `14 * (r / 1000) + 13`. -/
theorem cover9 (i : S5000x91.Idx) :
    ∃ t : Fin cfg0.N, (cfg0.win 9).flush t = true ∧ i ∈ ((cfg0.win 9).blk t).view.set := by
  have hr : (i 0).val < 5000 := (i 0).isLt
  have hc : (i 1).val < 91 := (i 1).isLt
  obtain ⟨t, ht⟩ : ∃ t : Fin cfg0.N, t.val = 14 * ((i 0).val / 1000) + 13 :=
    ⟨⟨14 * ((i 0).val / 1000) + 13, by rw [Carried.N70]; omega⟩, rfl⟩
  obtain ⟨e0, e1⟩ := idx9 t
  refine ⟨t, (flush0_9 t).mpr (by omega), ?_⟩
  rw [mem_blk9]
  intro a
  match a with
  | ⟨0, _⟩ => show win0_9.index t (0 : Fin 2) * 1000 ≤ (i 0).val ∧ (i 0).val < win0_9.index t (0 : Fin 2) * 1000 + 1000; omega
  | ⟨1, _⟩ => show win0_9.index t (1 : Fin 2) * 91 ≤ (i 1).val ∧ (i 1).val < win0_9.index t (1 : Fin 2) * 91 + 91; omega

/-- The array after the run is `S`. -/
theorem score_final (c : Dev nD) (S : BoxHead.Mat 5000 91)
    (hS : ∀ (t : Fin cfg0.N), t.val % 14 = 13 → ∀ (p : Fin 1000) (q : Fin 91),
        Carried.scoreAt (F := Ideal) m c t.val t.isLt (ix2 p q)
          = S (ix2 ⟨1000 * (t.val / 14) + p.val, by have h1 : t.val < 70 := Nat.lt_of_lt_of_eq t.isLt Carried.N70; have h2 := p.isLt; omega⟩ q)) :
    (Body.dats (F := Ideal) m 0 c).arrAt 9 cfg0.N = S :=
  (Body.dats (F := Ideal) m 0 c).arrAt_eq_of_cover 9 S (fun t hf => flushed9_eq m c S hS t hf) cover9

/-! ## The bbox array (output window 10) -/

/-- The window's index map over the grid: the block of point `t` is row tile `t / 14`, column block 0. -/
theorem idx10 : ∀ t : Fin cfg0.N, win0_10.index t (0 : Fin 2) = t.val / 14 ∧ win0_10.index t (1 : Fin 2) = 0 :=
  (by decide +kernel : ∀ t : Fin grid0.N, win0_10.index t (0 : Fin 2) = t.val / 14 ∧ win0_10.index t (1 : Fin 2) = 0)

/-- What a row tile's last point writes back is that row tile's block of `B`: entry (p, q) of the block is
    entry (1000 * (row tile) + p, q) of the array. -/
theorem flushed10_eq (c : Dev nD) (B : BoxHead.Mat 5000 364)
    (hB : ∀ (t : Fin cfg0.N), t.val % 14 = 13 → ∀ (p : Fin 1000) (q : Fin 364),
        Carried.bboxAt (F := Ideal) m c t.val t.isLt (ix2 p q)
          = B (ix2 ⟨1000 * (t.val / 14) + p.val, by have h1 : t.val < 70 := Nat.lt_of_lt_of_eq t.isLt Carried.N70; have h2 := p.isLt; omega⟩ q))
    (t : Fin cfg0.N) (hf : (cfg0.win 10).flush t = true) :
    (Body.dats (F := Ideal) m 0 c).flushed 10 t = ((cfg0.win 10).blk t).view.read (Elt Ideal) B := by
  have h13 : t.val % 14 = 13 := (flush0_10 t).mp hf
  obtain ⟨e0, e1⟩ := idx10 t
  show (cfg0.win 10).cut (grid0.coords t) ((Body.dats (F := Ideal) m 0 c).after 10 t) = _
  rw [Body.after_10]
  funext j
  have hp : (j 0).val < 1000 := (j 0).isLt
  have hq : (j 1).val < 364 := (j 1).isLt
  have ej : (cfg0.win 10).xinj (grid0.coords t) j = ix2 (⟨(j 0).val, hp⟩ : Fin 1000) (⟨(j 1).val, hq⟩ : Fin 364) :=
    funext fun a => by match a with | ⟨0, _⟩ => rfl | ⟨1, _⟩ => rfl
  show Carried.bboxAt (F := Ideal) m c t.val t.isLt ((cfg0.win 10).xinj (grid0.coords t) j) = B (((cfg0.win 10).blk t).view.emb j)
  refine (congrArg (Carried.bboxAt (F := Ideal) m c t.val t.isLt) ej).trans ((hB t h13 _ _).trans (congrArg B ?_))
  funext a; apply Fin.ext
  match a with
  | ⟨0, _⟩ => show 1000 * (t.val / 14) + (j 0).val = win0_10.index t (0 : Fin 2) * 1000 + 1 * (j 0).val; omega
  | ⟨1, _⟩ => show (j 1).val = win0_10.index t (1 : Fin 2) * 364 + 1 * (j 1).val; omega

/-- An index of the array lies in point `t`'s block exactly when each coordinate lies in the block's range. -/
theorem mem_blk10 (t : Fin cfg0.N) (i : S5000x364.Idx) :
    i ∈ ((cfg0.win 10).blk t).view.set ↔ ∀ a : Fin 2, win0_10.index t a * S1000x364.size a ≤ (i a).val ∧ (i a).val < win0_10.index t a * S1000x364.size a + S1000x364.size a := by
  show i ∈ ((View.whole main_v7_1).slice (win0_10.rect t)).set ↔ _
  rw [View.set_slice_whole, Rect.mem_set_unit]
  exact Iff.rfl

/-- Every index of the array lies in a block that is written back: row `r` is in row tile `r / 1000`, whose last
    point is `14 * (r / 1000) + 13`. -/
theorem cover10 (i : S5000x364.Idx) :
    ∃ t : Fin cfg0.N, (cfg0.win 10).flush t = true ∧ i ∈ ((cfg0.win 10).blk t).view.set := by
  have hr : (i 0).val < 5000 := (i 0).isLt
  have hc : (i 1).val < 364 := (i 1).isLt
  obtain ⟨t, ht⟩ : ∃ t : Fin cfg0.N, t.val = 14 * ((i 0).val / 1000) + 13 :=
    ⟨⟨14 * ((i 0).val / 1000) + 13, by rw [Carried.N70]; omega⟩, rfl⟩
  obtain ⟨e0, e1⟩ := idx10 t
  refine ⟨t, (flush0_10 t).mpr (by omega), ?_⟩
  rw [mem_blk10]
  intro a
  match a with
  | ⟨0, _⟩ => show win0_10.index t (0 : Fin 2) * 1000 ≤ (i 0).val ∧ (i 0).val < win0_10.index t (0 : Fin 2) * 1000 + 1000; omega
  | ⟨1, _⟩ => show win0_10.index t (1 : Fin 2) * 364 ≤ (i 1).val ∧ (i 1).val < win0_10.index t (1 : Fin 2) * 364 + 364; omega

/-- The array after the run is `B`. -/
theorem bbox_final (c : Dev nD) (B : BoxHead.Mat 5000 364)
    (hB : ∀ (t : Fin cfg0.N), t.val % 14 = 13 → ∀ (p : Fin 1000) (q : Fin 364),
        Carried.bboxAt (F := Ideal) m c t.val t.isLt (ix2 p q)
          = B (ix2 ⟨1000 * (t.val / 14) + p.val, by have h1 : t.val < 70 := Nat.lt_of_lt_of_eq t.isLt Carried.N70; have h2 := p.isLt; omega⟩ q)) :
    (Body.dats (F := Ideal) m 0 c).arrAt 10 cfg0.N = B :=
  (Body.dats (F := Ideal) m 0 c).arrAt_eq_of_cover 10 B (fun t hf => flushed10_eq m c B hB t hf) cover10

end Cert.KernelIdeal.Arrays

end
-- ==== Proof.CarriedBlocks.lean ====
/-
  The kernel's input blocks, read at an index, are the argument arrays at the global index.

  The grid has 5 row tiles of 1000 rows and, innermost, 14 column tiles of 896 contracted positions: point `t` is row
  tile `t / 14`, column tile `t % 14`. Entry `(p, j)` of the activations' block at point `t` is the activations at
  row `1000 * (t / 14) + p`, position `896 * (t % 14) + j`. In the first row sweep (points 0 to 13) entry `(a, b)` of
  the first weight matrix's block at point `t` is that matrix at row `896 * t + a`, column `b`. The seven small
  operands are fetched whole at every point; before the kernel starts the host has written the four bias vectors as
  one-row matrices and the three later weight matrices in reduced precision, and on the extended reals a change of
  precision is the identity: so their blocks read the bias at the column, and the weight matrix at the same index.
-/
import proofs.«102008_g47519518163636_cont_8to1_c_297_11_alg».proof.Proof.CarriedI
import proofs.«102008_g47519518163636_cont_8to1_c_297_11_alg».proof.Proof.HeadSpec
import Idealize.ShloMosaic.Lib.ValueLayout

noncomputable section

namespace Cert.KernelIdeal.CarriedValue

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

/-- Row `1000 * (row tile) + p` of the activations is one of its 5000 rows. -/
theorem row_lt (t : Fin cfg0.N) (p : Fin 1000) : 1000 * (t.val / 14) + p.val < 5000 := by
  have h : t.val < 70 := lt_of_lt_of_eq t.isLt Carried.N70
  have := p.isLt; omega
/-- Position `896 * (column tile) + j` is one of the 12544 contracted positions. -/
theorem col_lt (k : ℕ) (j : Fin 896) : 896 * (k % 14) + j.val < 12544 := by have := j.isLt; omega

/-! ## The index maps, decided once over the 70 grid points -/

/-- The activations' block at point `t` is row tile `t / 14`, column tile `t % 14`. -/
theorem idx0 : ∀ t : Fin cfg0.N, win0_0.index t (0 : Fin 2) = t.val / 14 ∧ win0_0.index t (1 : Fin 2) = t.val % 14 :=
  (by decide +kernel : ∀ t : Fin grid0.N, _)
/-- In the first row sweep the first weight matrix's block at point `t` is row block `t`. -/
theorem idx1 : ∀ t : Fin cfg0.N, t.val < 14 → win0_1.index t (0 : Fin 2) = t.val ∧ win0_1.index t (1 : Fin 2) = 0 :=
  (by decide +kernel : ∀ t : Fin grid0.N, _)
/-- The seven small operands are fetched whole at every point. -/
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)

/-! ## The arrays the host wrote before the region -/

/-- The first bias as a one-row matrix. -/
theorem V_v0 (c : Dev nD) : (V m c main_v0 : (⟨S1x1024, .f32⟩ : BufTy).Contents (Elt Ideal))
    = shapeCast S1x1024 (m ((c : Thread nD τ).loc main_arg2)) shapeCasts_S1024_S1x1024 := by
  dsimp only [Gen.V, Gen.hostOps0]; after_results; rfl
/-- The second bias as a one-row matrix. -/
theorem V_v1 (c : Dev nD) : (V m c main_v1 : (⟨S1x1024, .f32⟩ : BufTy).Contents (Elt Ideal))
    = shapeCast S1x1024 (m ((c : Thread nD τ).loc main_arg4)) shapeCasts_S1024_S1x1024 := by
  dsimp only [Gen.V, Gen.hostOps0]; after_results; rfl
/-- The score bias as a one-row matrix. -/
theorem V_v2 (c : Dev nD) : (V m c main_v2 : (⟨S1x91, .f32⟩ : BufTy).Contents (Elt Ideal))
    = shapeCast S1x91 (m ((c : Thread nD τ).loc main_arg6)) shapeCasts_S91_S1x91 := by
  dsimp only [Gen.V, Gen.hostOps0]; after_results; rfl
/-- The box bias as a one-row matrix. -/
theorem V_v3 (c : Dev nD) : (V m c main_v3 : (⟨S1x364, .f32⟩ : BufTy).Contents (Elt Ideal))
    = shapeCast S1x364 (m ((c : Thread nD τ).loc main_arg8)) shapeCasts_S364_S1x364 := by
  dsimp only [Gen.V, Gen.hostOps0]; after_results; rfl
/-- The second weight matrix in reduced precision. -/
theorem V_v4 (c : Dev nD) : (V m c main_v4 : (⟨S1024x1024, .bf16⟩ : BufTy).Contents (Elt Ideal))
    = truncf (F := Ideal) (s := S1024x1024) (φ := .f32) .bf16 (m ((c : Thread nD τ).loc main_arg3)) bitsLt_bf16_f32 := by
  dsimp only [Gen.V, Gen.hostOps0]; after_results
/-- The score weights in reduced precision. -/
theorem V_v5 (c : Dev nD) : (V m c main_v5 : (⟨S1024x91, .bf16⟩ : BufTy).Contents (Elt Ideal))
    = truncf (F := Ideal) (s := S1024x91) (φ := .f32) .bf16 (m ((c : Thread nD τ).loc main_arg5)) bitsLt_bf16_f32 := by
  dsimp only [Gen.V, Gen.hostOps0]; after_results
/-- The box weights in reduced precision. -/
theorem V_v6 (c : Dev nD) : (V m c main_v6 : (⟨S1024x364, .bf16⟩ : BufTy).Contents (Elt Ideal))
    = truncf (F := Ideal) (s := S1024x364) (φ := .f32) .bf16 (m ((c : Thread nD τ).loc main_arg7)) bitsLt_bf16_f32 := by
  dsimp only [Gen.V, Gen.hostOps0]; after_results

/-! ## Each input block read at an index is the argument array at the global index -/

/-- The activations' block at point `t`: rows of row tile `t / 14`, columns of column tile `t % 14`. -/
theorem blk0 (c : Dev nD) (t : Fin cfg0.N) (p : Fin 1000) (j : Fin 896) (r : Fin 5000) (hr : r.val = 1000 * (t.val / 14) + p.val)
    (s : Fin 12544) (hs : s.val = 896 * (t.val % 14) + j.val) :
    iblk m c 0 t (ix2 p j) = (m ((c : Thread nD τ).loc main_arg0)) (ix2 r s) := by
  unfold iblk
  show V m c main_arg0 (((cfg0.win 0).blk t).view.emb (ix2 p j)) = _
  rw [V_main_arg0]
  obtain ⟨e0, e1⟩ := idx0 t
  refine congrArg _ (funext fun a => Fin.ext ?_)
  match a with
  | ⟨0, _⟩ => show win0_0.index t (0 : Fin 2) * 1000 + 1 * p.val = r.val; omega
  | ⟨1, _⟩ => show win0_0.index t (1 : Fin 2) * 896 + 1 * j.val = s.val; omega

/-- The first weight matrix's block at a point `t` of the first row sweep: its rows `896 * t + a`. -/
theorem blk1 (c : Dev nD) (t : Fin cfg0.N) (ht : t.val < 14) (a : Fin 896) (b : Fin 1024) (s : Fin 12544) (hs : s.val = 896 * t.val + a.val) :
    iblk m c 1 t (ix2 a b) = (m ((c : Thread nD τ).loc main_arg1)) (ix2 s b) := by
  unfold iblk
  show V m c main_arg1 (((cfg0.win 1).blk t).view.emb (ix2 a b)) = _
  rw [V_main_arg1]
  obtain ⟨e0, e1⟩ := idx1 t ht
  refine congrArg _ (funext fun d => Fin.ext ?_)
  match d with
  | ⟨0, _⟩ => show win0_1.index t (0 : Fin 2) * 896 + 1 * a.val = s.val; omega
  | ⟨1, _⟩ => show win0_1.index t (1 : Fin 2) * 1024 + 1 * b.val = b.val; omega

/-- The first bias, fetched whole: the one row of its block is the bias. -/
theorem blk2 (c : Dev nD) (t : Fin cfg0.N) (u : Fin 1) (j : Fin 1024) : iblk m c 2 t (ix2 u j) = (m ((c : Thread nD τ).loc main_arg2)) (ix1 j) := by
  unfold iblk
  show V m c main_v0 (((cfg0.win 2).blk t).view.emb (ix2 u j)) = _
  obtain ⟨e0, e1⟩ := idx2 t
  have e : ((cfg0.win 2).blk t).view.emb (ix2 u j) = ix2 u j := funext fun d => Fin.ext (by
    match d with
    | ⟨0, _⟩ => show win0_2.index t (0 : Fin 2) * 1 + 1 * u.val = u.val; omega
    | ⟨1, _⟩ => show win0_2.index t (1 : Fin 2) * 1024 + 1 * j.val = j.val; omega)
  rw [e, V_v0]
  exact shapeCast_a_1a_apply _ _ u j

/-- The second weight matrix, fetched whole. -/
theorem blk3 (c : Dev nD) (t : Fin cfg0.N) (a : Fin 1024) (b : Fin 1024) : iblk m c 3 t (ix2 a b) = (m ((c : Thread nD τ).loc main_arg3)) (ix2 a b) := by
  unfold iblk
  show V m c main_v4 (((cfg0.win 3).blk t).view.emb (ix2 a b)) = _
  obtain ⟨e0, e1⟩ := idx3 t
  have e : ((cfg0.win 3).blk t).view.emb (ix2 a b) = ix2 a b := funext fun d => Fin.ext (by
    match d with
    | ⟨0, _⟩ => show win0_3.index t (0 : Fin 2) * 1024 + 1 * a.val = a.val; omega
    | ⟨1, _⟩ => show win0_3.index t (1 : Fin 2) * 1024 + 1 * b.val = b.val; omega)
  rw [e, V_v4]
  rfl

/-- The second bias, fetched whole. -/
theorem blk4 (c : Dev nD) (t : Fin cfg0.N) (u : Fin 1) (j : Fin 1024) : iblk m c 4 t (ix2 u j) = (m ((c : Thread nD τ).loc main_arg4)) (ix1 j) := by
  unfold iblk
  show V m c main_v1 (((cfg0.win 4).blk t).view.emb (ix2 u j)) = _
  obtain ⟨e0, e1⟩ := idx4 t
  have e : ((cfg0.win 4).blk t).view.emb (ix2 u j) = ix2 u j := funext fun d => Fin.ext (by
    match d with
    | ⟨0, _⟩ => show win0_4.index t (0 : Fin 2) * 1 + 1 * u.val = u.val; omega
    | ⟨1, _⟩ => show win0_4.index t (1 : Fin 2) * 1024 + 1 * j.val = j.val; omega)
  rw [e, V_v1]
  exact shapeCast_a_1a_apply _ _ u j

/-- The score weights, fetched whole. -/
theorem blk5 (c : Dev nD) (t : Fin cfg0.N) (a : Fin 1024) (b : Fin 91) : iblk m c 5 t (ix2 a b) = (m ((c : Thread nD τ).loc main_arg5)) (ix2 a b) := by
  unfold iblk
  show V m c main_v5 (((cfg0.win 5).blk t).view.emb (ix2 a b)) = _
  obtain ⟨e0, e1⟩ := idx5 t
  have e : ((cfg0.win 5).blk t).view.emb (ix2 a b) = ix2 a b := funext fun d => Fin.ext (by
    match d with
    | ⟨0, _⟩ => show win0_5.index t (0 : Fin 2) * 1024 + 1 * a.val = a.val; omega
    | ⟨1, _⟩ => show win0_5.index t (1 : Fin 2) * 91 + 1 * b.val = b.val; omega)
  rw [e, V_v5]
  rfl

/-- The score bias, fetched whole. -/
theorem blk6 (c : Dev nD) (t : Fin cfg0.N) (u : Fin 1) (j : Fin 91) : iblk m c 6 t (ix2 u j) = (m ((c : Thread nD τ).loc main_arg6)) (ix1 j) := by
  unfold iblk
  show V m c main_v2 (((cfg0.win 6).blk t).view.emb (ix2 u j)) = _
  obtain ⟨e0, e1⟩ := idx6 t
  have e : ((cfg0.win 6).blk t).view.emb (ix2 u j) = ix2 u j := funext fun d => Fin.ext (by
    match d with
    | ⟨0, _⟩ => show win0_6.index t (0 : Fin 2) * 1 + 1 * u.val = u.val; omega
    | ⟨1, _⟩ => show win0_6.index t (1 : Fin 2) * 91 + 1 * j.val = j.val; omega)
  rw [e, V_v2]
  exact shapeCast_a_1a_apply _ _ u j

/-- The box weights, fetched whole. -/
theorem blk7 (c : Dev nD) (t : Fin cfg0.N) (a : Fin 1024) (b : Fin 364) : iblk m c 7 t (ix2 a b) = (m ((c : Thread nD τ).loc main_arg7)) (ix2 a b) := by
  unfold iblk
  show V m c main_v6 (((cfg0.win 7).blk t).view.emb (ix2 a b)) = _
  obtain ⟨e0, e1⟩ := idx7 t
  have e : ((cfg0.win 7).blk t).view.emb (ix2 a b) = ix2 a b := funext fun d => Fin.ext (by
    match d with
    | ⟨0, _⟩ => show win0_7.index t (0 : Fin 2) * 1024 + 1 * a.val = a.val; omega
    | ⟨1, _⟩ => show win0_7.index t (1 : Fin 2) * 364 + 1 * b.val = b.val; omega)
  rw [e, V_v6]
  rfl

/-- The box bias, fetched whole. -/
theorem blk8 (c : Dev nD) (t : Fin cfg0.N) (u : Fin 1) (j : Fin 364) : iblk m c 8 t (ix2 u j) = (m ((c : Thread nD τ).loc main_arg8)) (ix1 j) := by
  unfold iblk
  show V m c main_v3 (((cfg0.win 8).blk t).view.emb (ix2 u j)) = _
  obtain ⟨e0, e1⟩ := idx8 t
  have e : ((cfg0.win 8).blk t).view.emb (ix2 u j) = ix2 u j := funext fun d => Fin.ext (by
    match d with
    | ⟨0, _⟩ => show win0_8.index t (0 : Fin 2) * 1 + 1 * u.val = u.val; omega
    | ⟨1, _⟩ => show win0_8.index t (1 : Fin 2) * 364 + 1 * j.val = j.val; omega)
  rw [e, V_v3]
  exact shapeCast_a_1a_apply _ _ u j

end Cert.KernelIdeal.CarriedValue

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«102008_g47519518163636_cont_8to1_c_297_11_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.CarriedPayload.lean ====
/-
  The kernel body's arithmetic, read at an index on the extended reals.

  Every change of precision is the identity and a reshape to the same shape does nothing, so what is left is:
  a point's partial product — entry `(p, q)` is the sum over the block's 896 contracted positions `u` of the
  activations' block at `(p, u)` times the weight block at `(u, q)` —, stored alone at a row tile's first column
  tile and added to the accumulator at every later one; and the epilogue — the accumulator plus the first bias,
  rectified; that against the second weight matrix plus the second bias, rectified; that against the score weights
  plus the score bias, and against the box weights plus the box bias. A matrix product into the zero accumulator
  read at `(p, q)` is the sum over the contracted position `j` of left `(p, j)` times right `(j, q)`; a one-row
  bias broadcast down the rows reads the bias at the column; a rectifier is the maximum against the value of the f32
  zero word.
-/
import proofs.«102008_g47519518163636_cont_8to1_c_297_11_alg».proof.Proof.Gen.KernelIdeal.Skeleton
import proofs.«102008_g47519518163636_cont_8to1_c_297_11_alg».proof.Proof.HeadSpec
import proofs.«102008_g47519518163636_cont_8to1_c_297_11_alg».proof.Proof.LibRowsTimes
import Idealize.ShloMosaic.Lib.ValueLayout

noncomputable section

open scoped BigOperators

namespace Cert.KernelIdeal.CarriedValue

open Idealize.ShloMosaic Idealize.ShloMosaic.ValueIdx
open Idealize.SL.Sem
open Cert.KernelIdeal Cert.KernelIdeal.Gen

/-! ## The payloads read at an index, over any loaded values -/

/-- The cached copy of a weight block is the block: the change of format is the identity on extended reals. -/
theorem pay1_apply (v18 : Vec Ideal S896x1024 .f32) (i : S896x1024.Idx) : k0_pay1 v18 i = v18 i := by
  unfold k0_pay1
  rw [shapeCast_self]
  rfl

/-- A point's partial product: the activations' block against the weight block, contracted over the block's 896
    positions. -/
theorem pay2_apply (v5 : Vec Ideal S896x1024 .bf16) (v6 : Vec Ideal S1000x896 .f32) (p : Fin 1000) (q : Fin 1024) :
    k0_pay2 v5 v6 (ix2 p q) = ∑ u : Fin 896, v6 (ix2 p u) * v5 (ix2 u q) := by
  unfold k0_pay2
  exact RowsTimes.matmul_zero_apply dot_S1000x896_S896x1024_S1000x1024_1_0_0_1_n_n rfl rfl rfl rfl rfl rfl rfl rfl none
    (truncf .bf16 v6 bitsLt_bf16_f32) v5 p q

/-- At a row tile's first column tile the accumulator is set to the partial product. -/
theorem pay3_apply (v5 : Vec Ideal S896x1024 .bf16) (v6 : Vec Ideal S1000x896 .f32) (p : Fin 1000) (q : Fin 1024) :
    k0_pay3 v5 v6 (ix2 p q) = ∑ u : Fin 896, v6 (ix2 p u) * v5 (ix2 u q) := by
  unfold k0_pay3
  rw [shapeCast_self]
  exact pay2_apply v5 v6 p q

/-- At every later column tile the partial product is added to it. -/
theorem pay4_apply (v5 : Vec Ideal S896x1024 .bf16) (v6 : Vec Ideal S1000x896 .f32) (v18 : Vec Ideal S1000x1024 .f32)
    (p : Fin 1000) (q : Fin 1024) :
    k0_pay4 v5 v6 v18 (ix2 p q) = v18 (ix2 p q) + ∑ u : Fin 896, v6 (ix2 p u) * v5 (ix2 u q) := by
  unfold k0_pay4
  rw [shapeCast_self, addf_apply, pay2_apply]

/-- The second hidden layer as the epilogue computes it from the finished accumulator `v18`: the first layer is the
    accumulator plus the first bias, rectified; the second its product with the second weight matrix plus the second
    bias, rectified. A one-row bias reaches every row; the rectifier's threshold is the value of the f32 zero word. -/
theorem pay5_apply (v18 : Vec Ideal S1000x1024 .f32) (v19 : Vec Ideal S1x1024 .f32) (v26 : Vec Ideal S1024x1024 .bf16)
    (v29 : Vec Ideal S1x1024 .f32) (p : Fin 1000) (q : Fin 1024) :
    k0_pay5 v18 v19 v26 v29 (ix2 p q)
      = max ((∑ j : Fin 1024, max (v18 (ix2 p j) + v19 (ix2 (0 : Fin 1) j)) Cert.BoxHead.zero * v26 (ix2 j q))
          + v29 (ix2 (0 : Fin 1) q)) Cert.BoxHead.zero := by
  unfold k0_pay5
  rw [shapeCast_self, shapeCast_self, shapeCast_self]
  rw [truncf_apply, maximumf_apply, addf_apply, broadcast_apply, broadcastTo_1b_ab_apply]
  refine congrArg₂ max (congrArg (· + v29 (ix2 (0 : Fin 1) q)) ?_) rfl
  refine (RowsTimes.matmul_zero_apply (φ₁ := .bf16) (φ₂ := .bf16) dot_S1000x1024_S1024x1024_S1000x1024_1_0_0_1_n_n rfl rfl rfl rfl rfl rfl rfl rfl none
    _ v26 p q).trans ?_
  refine Finset.sum_congr rfl fun j _ => congrArg (· * v26 (ix2 j q)) ?_
  rw [truncf_apply, maximumf_apply, addf_apply, broadcast_apply, broadcastTo_1b_ab_apply]
  rfl

/-- The class scores the epilogue computes: the second hidden layer against the score weights, plus the score bias. -/
theorem pay6_apply (v18 : Vec Ideal S1000x1024 .f32) (v19 : Vec Ideal S1x1024 .f32) (v26 : Vec Ideal S1024x1024 .bf16)
    (v29 : Vec Ideal S1x1024 .f32) (v36 : Vec Ideal S1024x91 .bf16) (v39 : Vec Ideal S1x91 .f32) (p : Fin 1000) (q : Fin 91) :
    k0_pay6 v18 v19 v26 v29 v36 v39 (ix2 p q)
      = (∑ j : Fin 1024, k0_pay5 v18 v19 v26 v29 (ix2 p j) * v36 (ix2 j q)) + v39 (ix2 (0 : Fin 1) q) := by
  unfold k0_pay6
  rw [shapeCast_self, shapeCast_self]
  rw [addf_apply, broadcastTo_1b_ab_apply]
  refine congrArg (· + v39 (ix2 (0 : Fin 1) q)) ?_
  exact RowsTimes.matmul_zero_apply dot_S1000x1024_S1024x91_S1000x91_1_0_0_1_n_n rfl rfl rfl rfl rfl rfl rfl rfl none
    (k0_pay5 v18 v19 v26 v29) v36 p q

/-- The box deltas the epilogue computes: the second hidden layer against the box weights, plus the box bias. -/
theorem pay7_apply (v18 : Vec Ideal S1000x1024 .f32) (v19 : Vec Ideal S1x1024 .f32) (v26 : Vec Ideal S1024x1024 .bf16)
    (v29 : Vec Ideal S1x1024 .f32) (v44 : Vec Ideal S1024x364 .bf16) (v47 : Vec Ideal S1x364 .f32) (p : Fin 1000) (q : Fin 364) :
    k0_pay7 v18 v19 v26 v29 v44 v47 (ix2 p q)
      = (∑ j : Fin 1024, k0_pay5 v18 v19 v26 v29 (ix2 p j) * v44 (ix2 j q)) + v47 (ix2 (0 : Fin 1) q) := by
  unfold k0_pay7
  rw [shapeCast_self, shapeCast_self]
  rw [addf_apply, broadcastTo_1b_ab_apply]
  refine congrArg (· + v47 (ix2 (0 : Fin 1) q)) ?_
  exact RowsTimes.matmul_zero_apply dot_S1000x1024_S1024x364_S1000x364_1_0_0_1_n_n rfl rfl rfl rfl rfl rfl rfl rfl none
    (k0_pay5 v18 v19 v26 v29) v44 p q

end Cert.KernelIdeal.CarriedValue

end
-- ==== Proof.LibTileSum.lean ====
import Mathlib.Algebra.BigOperators.Fin
import Mathlib.Algebra.BigOperators.Intervals

/-!
# Sums over consecutive indices, grouped into tiles of equal width

A sum over `K * W` consecutive natural indices equals the sum, over the `K` tiles, of the
sums over the `W` indices of each tile; tile `k` holds the indices `W * k + u`, `u < W`.
-/

namespace Cert.TileSum

/-- A sum over the first `K * W` naturals is the sum, tile by tile, of the sums over each
tile `{W * k + u | u < W}` of width `W` (both sides written over `Finset.range`). -/
theorem sum_range_tiles {M : Type*} [AddCommMonoid M] (K W : ℕ) (g : ℕ → M) :
    ∑ i ∈ Finset.range (K * W), g i
      = ∑ k ∈ Finset.range K, ∑ u ∈ Finset.range W, g (W * k + u) := by
  induction K with
  | zero => simp
  | succ K ih =>
    rw [Nat.succ_mul, Finset.sum_range_add, ih, Finset.sum_range_succ, Nat.mul_comm K W]

/-- A sum over `K * W` consecutive indices is the sum, tile by tile, of the sums over each
tile of width `W`: index `t < K * W` is `W * k + u` for a unique tile `k < K` and offset
`u < W`. -/
theorem sum_tiles {M : Type*} [AddCommMonoid M] (K W : ℕ) (g : ℕ → M) :
    ∑ t : Fin (K * W), g t.val
      = ∑ k ∈ Finset.range K, ∑ u : Fin W, g (W * k + u.val) := by
  rw [Fin.sum_univ_eq_sum_range (fun i => g i) (K * W), sum_range_tiles]
  refine Finset.sum_congr rfl fun k _ => ?_
  exact (Fin.sum_univ_eq_sum_range (fun u => g (W * k + u)) W).symm

/-- The tiled form of a sum of a function on `Fin N` with `N = K * W`: the summand at tile
`k` and offset `u` is `f` at the index `W * k + u` (which is always below `N`; the
`else` branch is never taken and is there only to make the expression total). -/
theorem sum_fin_tiles {M : Type*} [AddCommMonoid M] (K W N : ℕ) (hN : N = K * W)
    (f : Fin N → M) :
    ∑ t : Fin N, f t
      = ∑ k ∈ Finset.range K, ∑ u : Fin W,
          (if h : W * k + u.val < N then f ⟨W * k + u.val, h⟩ else 0) := by
  subst hN
  have h1 : ∑ t : Fin (K * W), f t
      = ∑ t : Fin (K * W), (fun n : ℕ => if h : n < K * W then f ⟨n, h⟩ else 0) t.val :=
    Finset.sum_congr rfl fun t _ => by simp [t.isLt]
  rw [h1, sum_tiles K W (fun n : ℕ => if h : n < K * W then f ⟨n, h⟩ else 0)]

end Cert.TileSum
-- ==== Proof.CarriedAcc.lean ====
/-
  The accumulator in closed form.

  Inside a row tile the first product is accumulated over the 14 column tiles: the first stores its partial product,
  each later one adds its own. Column tile `k`'s partial product at `(p, q)` is the sum over the tile's 896 contracted
  positions `896 * k + u` of the activations at `(row, 896 * k + u)` times the first weight matrix at
  `(896 * k + u, q)` — the activations' block at that point supplies the first factor, the cached copy of weight block
  `k` the second. By induction on the column tile the accumulator after tile `k` is the sum of the shares of tiles
  `0` to `k`; after the last tile it is the sum of all fourteen, which is the whole contraction over the
  12544 = 14 * 896 positions, regrouped tile by tile. Only the associativity and commutativity of the sum are used,
  which hold on the extended reals without any finiteness.
-/
import proofs.«102008_g47519518163636_cont_8to1_c_297_11_alg».proof.Proof.CarriedBlocks
import proofs.«102008_g47519518163636_cont_8to1_c_297_11_alg».proof.Proof.CarriedPayload
import proofs.«102008_g47519518163636_cont_8to1_c_297_11_alg».proof.Proof.LibTileSum

noncomputable section

open scoped BigOperators

namespace Cert.KernelIdeal.CarriedValue

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

/-! ## One column tile's share of the first product -/

/-- Column tile `k`'s share of entry `(r, q)` of the first product: the sum, over the tile's 896 contracted positions
    `896 * k + u`, of the activations at `(r, 896 * k + u)` times the first weight matrix at `(896 * k + u, q)`. (For
    `k` below 14 every such position is below 12544; the other branch only makes the expression total.) -/
def share (x : Cert.BoxHead.Mat 5000 12544) (w1 : Cert.BoxHead.Mat 12544 1024) (r : Fin 5000) (q : Fin 1024) (k : ℕ) :
    Ideal .f32 :=
  ∑ u : Fin 896, if h : 896 * k + u.val < 12544 then (fun j : Fin 12544 => x (ix2 r j) * w1 (ix2 j q)) ⟨896 * k + u.val, h⟩ else 0

/-- The fourteen shares add up to the whole contraction over the 12544 = 14 * 896 positions. -/
theorem sum_share (x : Cert.BoxHead.Mat 5000 12544) (w1 : Cert.BoxHead.Mat 12544 1024) (r : Fin 5000) (q : Fin 1024) :
    ∑ k ∈ Finset.range 14, share x w1 r q k = ∑ j : Fin 12544, x (ix2 r j) * w1 (ix2 j q) := by
  unfold share
  exact (Cert.TileSum.sum_fin_tiles 14 896 12544 rfl (fun j : Fin 12544 => x (ix2 r j) * w1 (ix2 j q))).symm

/-- A partial product of two blocks that hold column tile `k`'s entries of row `r` and of column `q` is that tile's
    share. -/
theorem partial_of (x : Cert.BoxHead.Mat 5000 12544) (w1 : Cert.BoxHead.Mat 12544 1024) (r : Fin 5000) (q : Fin 1024)
    (k : ℕ) (hk : k < 14) (v6 : Vec Ideal S1000x896 .f32) (v5 : Vec Ideal S896x1024 .bf16) (p : Fin 1000)
    (h6 : ∀ (u : Fin 896) (s : Fin 12544), s.val = 896 * k + u.val → v6 (ix2 p u) = x (ix2 r s))
    (h5 : ∀ (u : Fin 896) (s : Fin 12544), s.val = 896 * k + u.val → v5 (ix2 u q) = w1 (ix2 s q)) :
    ∑ u : Fin 896, v6 (ix2 p u) * v5 (ix2 u q) = share x w1 r q k := by
  unfold share
  refine Finset.sum_congr rfl fun u _ => ?_
  have hlt : 896 * k + u.val < 12544 := by have := u.isLt; omega
  rw [dif_pos hlt, h6 u ⟨_, hlt⟩ rfl, h5 u ⟨_, hlt⟩ rfl]

/-- Entry `(r, q)` of the first product: row `r` of the activations against column `q` of the first weight matrix. -/
def prod1 (x : Cert.BoxHead.Mat 5000 12544) (w1 : Cert.BoxHead.Mat 12544 1024) (r : Fin 5000) (q : Fin 1024) : Ideal .f32 :=
  ∑ j : Fin 12544, x (ix2 r j) * w1 (ix2 j q)

/-! ## The cached weight block and a point's partial product -/

/-- The cached copy of weight block `k` read at `(a, b)`: the first weight matrix at row `896 * (k % 14) + a`. -/
theorem tile_apply (c : Dev nD) (k : ℕ) (a : Fin 896) (b : Fin 1024) (s : Fin 12544) (hs : s.val = 896 * (k % 14) + a.val) :
    Carried.tile m c k (ix2 a b) = (m ((c : Thread nD τ).loc main_arg1)) (ix2 s b) := by
  unfold Carried.tile
  exact (pay1_apply (iblk m c 1 ⟨k % 14, Carried.tile_lt k⟩) (ix2 a b)).trans
    (blk1 m c ⟨k % 14, Carried.tile_lt k⟩ (Nat.mod_lt _ (by decide)) a b s hs)

/-- The partial product at point `t` is column tile `t % 14`'s share of the entry at row `1000 * (t / 14) + p`. -/
theorem partial_at (c : Dev nD) (t : Fin cfg0.N) (p : Fin 1000) (q : Fin 1024) (r : Fin 5000)
    (hr : r.val = 1000 * (t.val / 14) + p.val) :
    k0_pay2 (Carried.tile m c t.val) (iblk m c 0 t) (ix2 p q)
      = share (m ((c : Thread nD τ).loc main_arg0)) (m ((c : Thread nD τ).loc main_arg1)) r q (t.val % 14) :=
  (pay2_apply (Carried.tile m c t.val) (iblk m c 0 t) p q).trans
    (partial_of (m ((c : Thread nD τ).loc main_arg0)) (m ((c : Thread nD τ).loc main_arg1)) r q (t.val % 14) (Nat.mod_lt _ (by decide)) (iblk m c 0 t) (Carried.tile m c t.val) p
      (fun u s hs => blk0 m c t p u r hr s hs) (fun u s hs => tile_apply m c t.val u q s hs))

/-! ## The accumulator in closed form -/

/-- After column tile `k` of a row tile the accumulator holds, at `(p, q)`, the shares of column tiles `0` to `k`: by
    induction on the column tile, the first one storing its share alone and each later one adding its own. Only the
    associativity of the sum is used. -/
theorem acc_apply (c : Dev nD) (r : Fin 5000) (p : Fin 1000) (q : Fin 1024) :
    ∀ (k : ℕ) (t : Fin cfg0.N), t.val % 14 = k → r.val = 1000 * (t.val / 14) + p.val →
      Carried.acc m c t.val t.isLt (ix2 p q)
        = ∑ k' ∈ Finset.range (k + 1), share (m ((c : Thread nD τ).loc main_arg0)) (m ((c : Thread nD τ).loc main_arg1)) r q k'
  | 0, t, hk, hr => by
    rw [Carried.acc_first m c t hk]
    refine ((pay3_apply (Carried.tile m c t.val) (iblk m c 0 t) p q).trans
      (pay2_apply (Carried.tile m c t.val) (iblk m c 0 t) p q).symm).trans ((partial_at m c t p q r hr).trans ?_)
    rw [hk, Finset.sum_range_one]
  | k + 1, t, hk, hr => by
    have h14 : ¬ t.val % 14 = 0 := by omega
    have hlt : t.val - 1 < cfg0.N := Nat.lt_of_le_of_lt (Nat.sub_le _ _) t.isLt
    have ih := acc_apply c r p q k ⟨t.val - 1, hlt⟩ (by show (t.val - 1) % 14 = k; omega)
      (by show r.val = 1000 * ((t.val - 1) / 14) + p.val; omega)
    rw [Carried.acc_next m c t h14]
    refine (pay4_apply (Carried.tile m c t.val) (iblk m c 0 t) (Carried.acc m c (t.val - 1) hlt) p q).trans ?_
    rw [Finset.sum_range_succ _ (k + 1)]
    exact congrArg₂ (· + ·) ih
      ((pay2_apply (Carried.tile m c t.val) (iblk m c 0 t) p q).symm.trans ((partial_at m c t p q r hr).trans (by rw [hk])))

/-- At a row tile's last column tile the accumulator is the whole first product. -/
theorem acc_full (c : Dev nD) (t : Fin cfg0.N) (ht : t.val % 14 = 13) (p : Fin 1000) (q : Fin 1024) (r : Fin 5000)
    (hr : r.val = 1000 * (t.val / 14) + p.val) :
    Carried.acc m c t.val t.isLt (ix2 p q)
      = prod1 (m ((c : Thread nD τ).loc main_arg0)) (m ((c : Thread nD τ).loc main_arg1)) r q :=
  (acc_apply m c r p q 13 t ht hr).trans (sum_share _ _ r q)

end Cert.KernelIdeal.CarriedValue

end
-- ==== Proof.CarriedValue.lean ====
/-
  What the kernel's epilogue computes at a row tile's last column tile.

  There the accumulator holds the whole first product of the row tile's 1000 rows (the accumulator in closed
  form), and the seven small blocks hold the four biases and the three later weight matrices. The epilogue's
  arithmetic read at an index is then, term by term, the specification's: the first hidden layer is the first product
  plus the first bias, rectified; the second hidden layer that against the second weight matrix plus the second bias,
  rectified; the scores and the box deltas the second layer against their weights plus their biases. So the scores
  at `(p, q)` are the specification's scores at row `1000 * (row tile) + p`, column `q`, and likewise the box deltas.
-/
import proofs.«102008_g47519518163636_cont_8to1_c_297_11_alg».proof.Proof.CarriedAcc

noncomputable section

open scoped BigOperators

namespace Cert.KernelIdeal.CarriedValue

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

/-! ## The epilogue over blocks that hold the finished first product and the small operands -/

/-- The second hidden layer: when the accumulator's row `p` holds row `r` of the first product and the four small
    blocks hold the two biases and the second weight matrix, the epilogue's second layer at `(p, j)` is the
    specification's at `(r, j)`. -/
theorem hid2_of (x : Cert.BoxHead.Mat 5000 12544) (w1 : Cert.BoxHead.Mat 12544 1024) (b1 : Cert.BoxHead.Row 1024) (w2 : Cert.BoxHead.Mat 1024 1024) (b2 : Cert.BoxHead.Row 1024)
    (r : Fin 5000) (v18 : Vec Ideal S1000x1024 .f32) (v19 : Vec Ideal S1x1024 .f32) (v26 : Vec Ideal S1024x1024 .bf16)
    (v29 : Vec Ideal S1x1024 .f32) (p : Fin 1000)
    (h18 : ∀ j : Fin 1024, v18 (ix2 p j) = prod1 x w1 r j)
    (h19 : ∀ j : Fin 1024, v19 (ix2 (0 : Fin 1) j) = b1 (ix1 j))
    (h26 : ∀ a b : Fin 1024, v26 (ix2 a b) = w2 (ix2 a b))
    (h29 : ∀ j : Fin 1024, v29 (ix2 (0 : Fin 1) j) = b2 (ix1 j)) (j : Fin 1024) :
    k0_pay5 v18 v19 v26 v29 (ix2 p j) = Cert.BoxHead.hid2 x w1 b1 w2 b2 r j := by
  rw [pay5_apply]
  unfold Cert.BoxHead.hid2 Cert.BoxHead.hid1
  rw [h29]
  refine congrArg₂ max (congrArg (· + b2 (ix1 j)) (Finset.sum_congr rfl fun i _ => ?_)) rfl
  rw [h18, h19, h26, prod1]

/-- The class scores. -/
theorem score_of (x : Cert.BoxHead.Mat 5000 12544) (w1 : Cert.BoxHead.Mat 12544 1024) (b1 : Cert.BoxHead.Row 1024) (w2 : Cert.BoxHead.Mat 1024 1024) (b2 : Cert.BoxHead.Row 1024)
    (wc : Cert.BoxHead.Mat 1024 91) (bc : Cert.BoxHead.Row 91)
    (r : Fin 5000) (v18 : Vec Ideal S1000x1024 .f32) (v19 : Vec Ideal S1x1024 .f32) (v26 : Vec Ideal S1024x1024 .bf16)
    (v29 : Vec Ideal S1x1024 .f32) (v36 : Vec Ideal S1024x91 .bf16) (v39 : Vec Ideal S1x91 .f32) (p : Fin 1000) (q : Fin 91)
    (h18 : ∀ j : Fin 1024, v18 (ix2 p j) = prod1 x w1 r j)
    (h19 : ∀ j : Fin 1024, v19 (ix2 (0 : Fin 1) j) = b1 (ix1 j))
    (h26 : ∀ a b : Fin 1024, v26 (ix2 a b) = w2 (ix2 a b))
    (h29 : ∀ j : Fin 1024, v29 (ix2 (0 : Fin 1) j) = b2 (ix1 j))
    (h36 : ∀ (a : Fin 1024) (b : Fin 91), v36 (ix2 a b) = wc (ix2 a b))
    (h39 : ∀ j : Fin 91, v39 (ix2 (0 : Fin 1) j) = bc (ix1 j)) :
    k0_pay6 v18 v19 v26 v29 v36 v39 (ix2 p q) = Cert.BoxHead.score x w1 b1 w2 b2 wc bc r q := by
  rw [pay6_apply]
  unfold Cert.BoxHead.score
  rw [h39]
  refine congrArg (· + bc (ix1 q)) (Finset.sum_congr rfl fun j _ => ?_)
  rw [hid2_of x w1 b1 w2 b2 r v18 v19 v26 v29 p h18 h19 h26 h29 j, h36]

/-- The box deltas. -/
theorem bbox_of (x : Cert.BoxHead.Mat 5000 12544) (w1 : Cert.BoxHead.Mat 12544 1024) (b1 : Cert.BoxHead.Row 1024) (w2 : Cert.BoxHead.Mat 1024 1024) (b2 : Cert.BoxHead.Row 1024)
    (wb : Cert.BoxHead.Mat 1024 364) (bb : Cert.BoxHead.Row 364)
    (r : Fin 5000) (v18 : Vec Ideal S1000x1024 .f32) (v19 : Vec Ideal S1x1024 .f32) (v26 : Vec Ideal S1024x1024 .bf16)
    (v29 : Vec Ideal S1x1024 .f32) (v44 : Vec Ideal S1024x364 .bf16) (v47 : Vec Ideal S1x364 .f32) (p : Fin 1000) (q : Fin 364)
    (h18 : ∀ j : Fin 1024, v18 (ix2 p j) = prod1 x w1 r j)
    (h19 : ∀ j : Fin 1024, v19 (ix2 (0 : Fin 1) j) = b1 (ix1 j))
    (h26 : ∀ a b : Fin 1024, v26 (ix2 a b) = w2 (ix2 a b))
    (h29 : ∀ j : Fin 1024, v29 (ix2 (0 : Fin 1) j) = b2 (ix1 j))
    (h44 : ∀ (a : Fin 1024) (b : Fin 364), v44 (ix2 a b) = wb (ix2 a b))
    (h47 : ∀ j : Fin 364, v47 (ix2 (0 : Fin 1) j) = bb (ix1 j)) :
    k0_pay7 v18 v19 v26 v29 v44 v47 (ix2 p q) = Cert.BoxHead.bbox x w1 b1 w2 b2 wb bb r q := by
  rw [pay7_apply]
  unfold Cert.BoxHead.bbox
  rw [h47]
  refine congrArg (· + bb (ix1 q)) (Finset.sum_congr rfl fun j _ => ?_)
  rw [hid2_of x w1 b1 w2 b2 r v18 v19 v26 v29 p h18 h19 h26 h29 j, h44]

/-! ## What the epilogue computes at a row tile's last column tile -/

/-- At a row tile's last column tile the epilogue's scores at `(p, q)` are the specification's at row
    `1000 * (row tile) + p`, column `q`. -/
theorem scoreAt_apply (c : Dev nD) (t : Fin cfg0.N) (ht : t.val % 14 = 13) (p : Fin 1000) (q : Fin 91) :
    Carried.scoreAt (F := Ideal) m c t.val t.isLt (ix2 p q)
      = Cert.BoxHead.score (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
          (⟨1000 * (t.val / 14) + p.val, row_lt t p⟩ : Fin 5000) q := by
  unfold Carried.scoreAt
  exact score_of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ⟨1000 * (t.val / 14) + p.val, row_lt t p⟩ (Carried.acc m c t.val t.isLt) (iblk m c 2 t) (iblk m c 3 t) (iblk m c 4 t)
    (iblk m c 5 t) (iblk m c 6 t) p q
    (fun j => acc_full m c t ht p j ⟨1000 * (t.val / 14) + p.val, row_lt t p⟩ rfl)
    (fun j => blk2 m c t 0 j) (fun a b => blk3 m c t a b) (fun j => blk4 m c t 0 j)
    (fun a b => blk5 m c t a b) (fun j => blk6 m c t 0 j)

/-- And its box deltas the specification's. -/
theorem bboxAt_apply (c : Dev nD) (t : Fin cfg0.N) (ht : t.val % 14 = 13) (p : Fin 1000) (q : Fin 364) :
    Carried.bboxAt (F := Ideal) m c t.val t.isLt (ix2 p q)
      = Cert.BoxHead.bbox (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))
          (⟨1000 * (t.val / 14) + p.val, row_lt t p⟩ : Fin 5000) q := by
  unfold Carried.bboxAt
  exact bbox_of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8))
    ⟨1000 * (t.val / 14) + p.val, row_lt t p⟩ (Carried.acc m c t.val t.isLt) (iblk m c 2 t) (iblk m c 3 t) (iblk m c 4 t)
    (iblk m c 7 t) (iblk m c 8 t) p q
    (fun j => acc_full m c t ht p j ⟨1000 * (t.val / 14) + p.val, row_lt t p⟩ rfl)
    (fun j => blk2 m c t 0 j) (fun a b => blk3 m c t a b) (fun j => blk4 m c t 0 j)
    (fun a b => blk7 m c t a b) (fun j => blk8 m c t 0 j)

end Cert.KernelIdeal.CarriedValue

end
-- ==== Proof.LibStoreReads.lean ====
/-
  What ONE store through the whole-shape rectangle leaves, stated over an abstract view and abstract prior
  contents: the store's payload. (A store through the rectangle at zero offsets whose sizes are the buffer's own
  covers every index, so what was there before does not matter.) Stated once over variables so that a proof about a
  buffer of production extents rewrites by it without ever deciding membership in a literal rectangle.
-/
import Idealize.ShloMosaic.Lib.Pipeline.FrameBody
import Idealize.ShloMosaic.Lib.Pipeline.Value

namespace Cert.StoreReads

open Idealize.ShloMosaic

variable {sig : RefSig} {κ : Kind} {sp : Space} {S : Shape} {e : EltTy} {Val : EltTy → Type} [∀ e, Nonempty (Val e)]

/-- One store through the whole-shape rectangle at zero offsets (however the zeros are spelt) reads back as its
    payload, whatever the view and whatever the buffer held. -/
theorem read_store_whole (v : View sig κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f [(⟨Rect.unit off S.size inb, w⟩ : View.Piece Val S e)]
      (fun y => ⟨_, List.mem_singleton_self _, View.mem_set_unit_zero h inb y⟩),
    View.canon_unit_zero h]

end Cert.StoreReads
-- ==== Proof.RunsIn.lean ====
/-
  The kernel body's triple at the points of the LATER row sweeps (row tiles 1 to 4), one theorem per control case:
  the weight block is read from the cached copy; the accumulator is reset at the first column tile and added to
  afterwards; the epilogue runs at the last column tile. Each theorem runs the body's memory operations symbolically
  on whole staging and scratch memrefs at named contents and reads what every store left as an explicit function of
  those contents.
-/
import proofs.«102008_g47519518163636_cont_8to1_c_297_11_alg».proof.Proof.DatI
import proofs.«102008_g47519518163636_cont_8to1_c_297_11_alg».proof.Proof.LibStoreReads
import Idealize.ShloMosaic.Lib.Pipeline.FrameBody
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Carried

variable {F : FTy → Type} [FloatOps F]

local notation "𝕄" => MT nD τ sig Unit (Elt F) ℕ (UR sig nD τ) ℕ

set_option maxHeartbeats 1000000 in
/-- The body at a point of a later row sweep, first column tile: on whole staging and scratch memrefs at the
    stated contents it runs to the continuation, the inputs as they were, the accumulator at the point's partial product,
    the cached weight matrix as it was, the two outputs untouched. -/
theorem run_SnF (c : Dev nD) (i : grid0.Coords) (arg2 : Memref sig .tc .vmem S1000x896 .f32) (harg2 : arg2.IsWhole) (arg3 : Memref sig .tc .vmem S896x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x91 .bf16) (harg7 : arg7.IsWhole) (arg8 : Memref sig .tc .vmem S1x91 .f32) (harg8 : arg8.IsWhole) (arg9 : Memref sig .tc .vmem S1024x364 .bf16) (harg9 : arg9.IsWhole) (arg10 : Memref sig .tc .vmem S1x364 .f32) (harg10 : arg10.IsWhole) (arg11 : Memref sig .tc .vmem S1000x91 .f32) (harg11 : arg11.IsWhole) (arg12 : Memref sig .tc .vmem S1000x364 .f32) (harg12 : arg12.IsWhole) (arg13 : Memref sig .tc .vmem S1000x1024 .f32) (harg13 : arg13.IsWhole) (arg14 : Memref sig .tc .vmem S12544x1024 .bf16) (harg14 : arg14.IsWhole)
    (h1 : ¬ sweep0 i) (h2 : kfirst i) (h3 : ¬ klater i) (h4 : ¬ klast i)
    (x2 : Vec F S1000x896 .f32) (x3 : Vec F S896x1024 .f32) (x4 : Vec F S1x1024 .f32) (x5 : Vec F S1024x1024 .bf16) (x6 : Vec F S1x1024 .f32) (x7 : Vec F S1024x91 .bf16) (x8 : Vec F S1x91 .f32) (x9 : Vec F S1024x364 .bf16) (x10 : Vec F S1x364 .f32) (xs13 : Vec F S1000x1024 .f32) (xs14 : Vec F S12544x1024 .bf16)
    (y11 : Vec F S1000x91 .f32) (y12 : Vec F S1000x364 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y11 ∗ owns (c : Thread nD τ) arg12 fullShare y12 ∗ owns (c : Thread nD τ) arg13 fullShare xs13 ∗ owns (c : Thread nD τ) arg14 fullShare xs14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y11 ∗ owns (c : Thread nD τ) arg12 fullShare y12
            ∗ owns (c : Thread nD τ) arg13 fullShare (k0_pay3 (View.ld xs14 (Rect.unit (s := S12544x1024) (k0_off2 i) S896x1024.size (k0_off2_inb i))) x2)
            ∗ owns (c : Thread nD τ) arg14 fullShare xs14) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → ℕ) = fun _ => 0 := by funext a; fin_cases a <;> rfl
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact h1 | exact h2 | exact h3 | exact h4)
  sl_step
  sl_unfold_words
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    · ipureintro; exact harg10.read_unread _
    iexact H10
  isplitl [H11]
  · iexists _; isplitr
    · ipureintro; exact harg11.read_unread _
    iexact H11
  isplitl [H12]
  · iexists _; isplitr
    · ipureintro; exact harg12.read_unread _
    iexact H12
  isplitl [H13]
  · iexists _; isplitr
    swap; · iexact H13
    ipureintro
    refine (Cert.StoreReads.read_store_whole _ _ hz (fun a => by fin_cases a <;> simp) _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1000x896) hz, View.ld_unit_zero (S := S896x1024) hz, View.ld_unit_zero (S := S1000x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz, View.readCov_unit_zero (S := S1000x1024) _ hz]
    all_goals rfl
  iexists _; isplitr
  · ipureintro; exact harg14.read_unread _
  iexact H14

set_option maxHeartbeats 1000000 in
/-- The body at a point of a later row sweep, a middle column tile: on whole staging and scratch memrefs at the
    stated contents it runs to the continuation, the inputs as they were, the accumulator at the point's partial product added to what it held,
    the cached weight matrix as it was, the two outputs untouched. -/
theorem run_SnM (c : Dev nD) (i : grid0.Coords) (arg2 : Memref sig .tc .vmem S1000x896 .f32) (harg2 : arg2.IsWhole) (arg3 : Memref sig .tc .vmem S896x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x91 .bf16) (harg7 : arg7.IsWhole) (arg8 : Memref sig .tc .vmem S1x91 .f32) (harg8 : arg8.IsWhole) (arg9 : Memref sig .tc .vmem S1024x364 .bf16) (harg9 : arg9.IsWhole) (arg10 : Memref sig .tc .vmem S1x364 .f32) (harg10 : arg10.IsWhole) (arg11 : Memref sig .tc .vmem S1000x91 .f32) (harg11 : arg11.IsWhole) (arg12 : Memref sig .tc .vmem S1000x364 .f32) (harg12 : arg12.IsWhole) (arg13 : Memref sig .tc .vmem S1000x1024 .f32) (harg13 : arg13.IsWhole) (arg14 : Memref sig .tc .vmem S12544x1024 .bf16) (harg14 : arg14.IsWhole)
    (h1 : ¬ sweep0 i) (h2 : ¬ kfirst i) (h3 : klater i) (h4 : ¬ klast i)
    (x2 : Vec F S1000x896 .f32) (x3 : Vec F S896x1024 .f32) (x4 : Vec F S1x1024 .f32) (x5 : Vec F S1024x1024 .bf16) (x6 : Vec F S1x1024 .f32) (x7 : Vec F S1024x91 .bf16) (x8 : Vec F S1x91 .f32) (x9 : Vec F S1024x364 .bf16) (x10 : Vec F S1x364 .f32) (xs13 : Vec F S1000x1024 .f32) (xs14 : Vec F S12544x1024 .bf16)
    (y11 : Vec F S1000x91 .f32) (y12 : Vec F S1000x364 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y11 ∗ owns (c : Thread nD τ) arg12 fullShare y12 ∗ owns (c : Thread nD τ) arg13 fullShare xs13 ∗ owns (c : Thread nD τ) arg14 fullShare xs14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y11 ∗ owns (c : Thread nD τ) arg12 fullShare y12
            ∗ owns (c : Thread nD τ) arg13 fullShare (k0_pay4 (View.ld xs14 (Rect.unit (s := S12544x1024) (k0_off2 i) S896x1024.size (k0_off2_inb i))) x2 xs13)
            ∗ owns (c : Thread nD τ) arg14 fullShare xs14) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → ℕ) = fun _ => 0 := by funext a; fin_cases a <;> rfl
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact h1 | exact h2 | exact h3 | exact h4)
  sl_step
  sl_unfold_words
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    · ipureintro; exact harg10.read_unread _
    iexact H10
  isplitl [H11]
  · iexists _; isplitr
    · ipureintro; exact harg11.read_unread _
    iexact H11
  isplitl [H12]
  · iexists _; isplitr
    · ipureintro; exact harg12.read_unread _
    iexact H12
  isplitl [H13]
  · iexists _; isplitr
    swap; · iexact H13
    ipureintro
    refine (Cert.StoreReads.read_store_whole _ _ hz (fun a => by fin_cases a <;> simp) _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1000x896) hz, View.ld_unit_zero (S := S896x1024) hz, View.ld_unit_zero (S := S1000x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz, View.readCov_unit_zero (S := S1000x1024) _ hz]
    all_goals rfl
  iexists _; isplitr
  · ipureintro; exact harg14.read_unread _
  iexact H14

set_option maxHeartbeats 1000000 in
/-- The body at a point of a later row sweep, last column tile: on whole staging and scratch memrefs at the
    stated contents it runs to the continuation, the inputs as they were, the accumulator at the point's partial product added to what it held,
    the cached weight matrix as it was, the two outputs at the epilogue's values. -/
theorem run_SnL (c : Dev nD) (i : grid0.Coords) (arg2 : Memref sig .tc .vmem S1000x896 .f32) (harg2 : arg2.IsWhole) (arg3 : Memref sig .tc .vmem S896x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x91 .bf16) (harg7 : arg7.IsWhole) (arg8 : Memref sig .tc .vmem S1x91 .f32) (harg8 : arg8.IsWhole) (arg9 : Memref sig .tc .vmem S1024x364 .bf16) (harg9 : arg9.IsWhole) (arg10 : Memref sig .tc .vmem S1x364 .f32) (harg10 : arg10.IsWhole) (arg11 : Memref sig .tc .vmem S1000x91 .f32) (harg11 : arg11.IsWhole) (arg12 : Memref sig .tc .vmem S1000x364 .f32) (harg12 : arg12.IsWhole) (arg13 : Memref sig .tc .vmem S1000x1024 .f32) (harg13 : arg13.IsWhole) (arg14 : Memref sig .tc .vmem S12544x1024 .bf16) (harg14 : arg14.IsWhole)
    (h1 : ¬ sweep0 i) (h2 : ¬ kfirst i) (h3 : klater i) (h4 : klast i)
    (x2 : Vec F S1000x896 .f32) (x3 : Vec F S896x1024 .f32) (x4 : Vec F S1x1024 .f32) (x5 : Vec F S1024x1024 .bf16) (x6 : Vec F S1x1024 .f32) (x7 : Vec F S1024x91 .bf16) (x8 : Vec F S1x91 .f32) (x9 : Vec F S1024x364 .bf16) (x10 : Vec F S1x364 .f32) (xs13 : Vec F S1000x1024 .f32) (xs14 : Vec F S12544x1024 .bf16)
    (y11 : Vec F S1000x91 .f32) (y12 : Vec F S1000x364 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y11 ∗ owns (c : Thread nD τ) arg12 fullShare y12 ∗ owns (c : Thread nD τ) arg13 fullShare xs13 ∗ owns (c : Thread nD τ) arg14 fullShare xs14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (k0_pay6 (k0_pay4 (View.ld xs14 (Rect.unit (s := S12544x1024) (k0_off2 i) S896x1024.size (k0_off2_inb i))) x2 xs13) x4 x5 x6 x7 x8) ∗ owns (c : Thread nD τ) arg12 fullShare (k0_pay7 (k0_pay4 (View.ld xs14 (Rect.unit (s := S12544x1024) (k0_off2 i) S896x1024.size (k0_off2_inb i))) x2 xs13) x4 x5 x6 x9 x10)
            ∗ owns (c : Thread nD τ) arg13 fullShare (k0_pay4 (View.ld xs14 (Rect.unit (s := S12544x1024) (k0_off2 i) S896x1024.size (k0_off2_inb i))) x2 xs13)
            ∗ owns (c : Thread nD τ) arg14 fullShare xs14) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → ℕ) = fun _ => 0 := by funext a; fin_cases a <;> rfl
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact h1 | exact h2 | exact h3 | exact h4)
  sl_step
  sl_unfold_words
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    · ipureintro; exact harg10.read_unread _
    iexact H10
  isplitl [H11]
  · iexists _; isplitr
    swap; · iexact H11
    ipureintro
    refine (Cert.StoreReads.read_store_whole _ _ hz (fun a => by fin_cases a <;> simp) _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1000x896) hz, View.ld_unit_zero (S := S896x1024) hz, View.ld_unit_zero (S := S1000x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz, View.readCov_unit_zero (S := S1000x1024) _ hz]
    all_goals rfl
  isplitl [H12]
  · iexists _; isplitr
    swap; · iexact H12
    ipureintro
    refine (Cert.StoreReads.read_store_whole _ _ hz (fun a => by fin_cases a <;> simp) _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1000x896) hz, View.ld_unit_zero (S := S896x1024) hz, View.ld_unit_zero (S := S1000x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz, View.readCov_unit_zero (S := S1000x1024) _ hz]
    all_goals rfl
  isplitl [H13]
  · iexists _; isplitr
    swap; · iexact H13
    ipureintro
    refine (Cert.StoreReads.read_store_whole _ _ hz (fun a => by fin_cases a <;> simp) _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1000x896) hz, View.ld_unit_zero (S := S896x1024) hz, View.ld_unit_zero (S := S1000x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz, View.readCov_unit_zero (S := S1000x1024) _ hz]
    all_goals rfl
  iexists _; isplitr
  · ipureintro; exact harg14.read_unread _
  iexact H14

end Cert.KernelIdeal.Body

end
-- ==== Proof.RunsI0.lean ====
/-
  The kernel body's triple at the points of the FIRST row sweep (row tile 0), one theorem per control case: the
  point's block of the weight matrix is copied, in reduced precision, onto its 896 rows of the cache and read straight
  back; the accumulator is reset at the first column tile and added to afterwards; the epilogue runs at the last
  column tile.
-/
import proofs.«102008_g47519518163636_cont_8to1_c_297_11_alg».proof.Proof.DatI
import proofs.«102008_g47519518163636_cont_8to1_c_297_11_alg».proof.Proof.LibStoreReads
import Idealize.ShloMosaic.Lib.Pipeline.FrameBody
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Carried

variable {F : FTy → Type} [FloatOps F]

local notation "𝕄" => MT nD τ sig Unit (Elt F) ℕ (UR sig nD τ) ℕ

set_option maxHeartbeats 1000000 in
/-- The body at a point of the first row sweep, first column tile: on whole staging and scratch memrefs at the
    stated contents it runs to the continuation, the inputs as they were, the accumulator at the point's partial product,
    the cached weight matrix overwritten on this tile's rows by the block's copy, the two outputs untouched. -/
theorem run_S0F (c : Dev nD) (i : grid0.Coords) (arg2 : Memref sig .tc .vmem S1000x896 .f32) (harg2 : arg2.IsWhole) (arg3 : Memref sig .tc .vmem S896x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x91 .bf16) (harg7 : arg7.IsWhole) (arg8 : Memref sig .tc .vmem S1x91 .f32) (harg8 : arg8.IsWhole) (arg9 : Memref sig .tc .vmem S1024x364 .bf16) (harg9 : arg9.IsWhole) (arg10 : Memref sig .tc .vmem S1x364 .f32) (harg10 : arg10.IsWhole) (arg11 : Memref sig .tc .vmem S1000x91 .f32) (harg11 : arg11.IsWhole) (arg12 : Memref sig .tc .vmem S1000x364 .f32) (harg12 : arg12.IsWhole) (arg13 : Memref sig .tc .vmem S1000x1024 .f32) (harg13 : arg13.IsWhole) (arg14 : Memref sig .tc .vmem S12544x1024 .bf16) (harg14 : arg14.IsWhole)
    (h1 : sweep0 i) (h2 : kfirst i) (h3 : ¬ klater i) (h4 : ¬ klast i)
    (x2 : Vec F S1000x896 .f32) (x3 : Vec F S896x1024 .f32) (x4 : Vec F S1x1024 .f32) (x5 : Vec F S1024x1024 .bf16) (x6 : Vec F S1x1024 .f32) (x7 : Vec F S1024x91 .bf16) (x8 : Vec F S1x91 .f32) (x9 : Vec F S1024x364 .bf16) (x10 : Vec F S1x364 .f32) (xs13 : Vec F S1000x1024 .f32) (xs14 : Vec F S12544x1024 .bf16)
    (y11 : Vec F S1000x91 .f32) (y12 : Vec F S1000x364 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y11 ∗ owns (c : Thread nD τ) arg12 fullShare y12 ∗ owns (c : Thread nD τ) arg13 fullShare xs13 ∗ owns (c : Thread nD τ) arg14 fullShare xs14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y11 ∗ owns (c : Thread nD τ) arg12 fullShare y12
            ∗ owns (c : Thread nD τ) arg13 fullShare (k0_pay3 (k0_pay1 x3) x2)
            ∗ owns (c : Thread nD τ) arg14 fullShare (arg14.view.read (Elt F) (arg14.view.writes (Elt F) (harg14.unread xs14) [(⟨Rect.unit (s := S12544x1024) (k0_off1 i) S896x1024.size (k0_off1_inb i h1), k0_pay1 x3⟩ : View.Piece (Elt F) S12544x1024 .bf16)]))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → ℕ) = fun _ => 0 := by funext a; fin_cases a <;> rfl
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact h1 | exact h2 | exact h3 | exact h4)
  sl_step
  sl_unfold_words
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    · ipureintro; exact harg10.read_unread _
    iexact H10
  isplitl [H11]
  · iexists _; isplitr
    · ipureintro; exact harg11.read_unread _
    iexact H11
  isplitl [H12]
  · iexists _; isplitr
    · ipureintro; exact harg12.read_unread _
    iexact H12
  isplitl [H13]
  · iexists _; isplitr
    swap; · iexact H13
    ipureintro
    refine (Cert.StoreReads.read_store_whole _ _ hz (fun a => by fin_cases a <;> simp) _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1000x896) hz, View.ld_unit_zero (S := S896x1024) hz, View.ld_unit_zero (S := S1000x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz, View.readCov_unit_zero (S := S1000x1024) _ hz, View.readCov_cons_toLoadRect]
    all_goals rfl
  iexists _; isplitr
  swap; · iexact H14
  ipureintro
  simp only [View.readAt_eq_ld, harg3.read_unread, View.ld_unit_zero (S := S896x1024) hz, k0_off1]
  all_goals rfl

set_option maxHeartbeats 1000000 in
/-- The body at a point of the first row sweep, a middle column tile: on whole staging and scratch memrefs at the
    stated contents it runs to the continuation, the inputs as they were, the accumulator at the point's partial product added to what it held,
    the cached weight matrix overwritten on this tile's rows by the block's copy, the two outputs untouched. -/
theorem run_S0M (c : Dev nD) (i : grid0.Coords) (arg2 : Memref sig .tc .vmem S1000x896 .f32) (harg2 : arg2.IsWhole) (arg3 : Memref sig .tc .vmem S896x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x91 .bf16) (harg7 : arg7.IsWhole) (arg8 : Memref sig .tc .vmem S1x91 .f32) (harg8 : arg8.IsWhole) (arg9 : Memref sig .tc .vmem S1024x364 .bf16) (harg9 : arg9.IsWhole) (arg10 : Memref sig .tc .vmem S1x364 .f32) (harg10 : arg10.IsWhole) (arg11 : Memref sig .tc .vmem S1000x91 .f32) (harg11 : arg11.IsWhole) (arg12 : Memref sig .tc .vmem S1000x364 .f32) (harg12 : arg12.IsWhole) (arg13 : Memref sig .tc .vmem S1000x1024 .f32) (harg13 : arg13.IsWhole) (arg14 : Memref sig .tc .vmem S12544x1024 .bf16) (harg14 : arg14.IsWhole)
    (h1 : sweep0 i) (h2 : ¬ kfirst i) (h3 : klater i) (h4 : ¬ klast i)
    (x2 : Vec F S1000x896 .f32) (x3 : Vec F S896x1024 .f32) (x4 : Vec F S1x1024 .f32) (x5 : Vec F S1024x1024 .bf16) (x6 : Vec F S1x1024 .f32) (x7 : Vec F S1024x91 .bf16) (x8 : Vec F S1x91 .f32) (x9 : Vec F S1024x364 .bf16) (x10 : Vec F S1x364 .f32) (xs13 : Vec F S1000x1024 .f32) (xs14 : Vec F S12544x1024 .bf16)
    (y11 : Vec F S1000x91 .f32) (y12 : Vec F S1000x364 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y11 ∗ owns (c : Thread nD τ) arg12 fullShare y12 ∗ owns (c : Thread nD τ) arg13 fullShare xs13 ∗ owns (c : Thread nD τ) arg14 fullShare xs14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y11 ∗ owns (c : Thread nD τ) arg12 fullShare y12
            ∗ owns (c : Thread nD τ) arg13 fullShare (k0_pay4 (k0_pay1 x3) x2 xs13)
            ∗ owns (c : Thread nD τ) arg14 fullShare (arg14.view.read (Elt F) (arg14.view.writes (Elt F) (harg14.unread xs14) [(⟨Rect.unit (s := S12544x1024) (k0_off1 i) S896x1024.size (k0_off1_inb i h1), k0_pay1 x3⟩ : View.Piece (Elt F) S12544x1024 .bf16)]))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → ℕ) = fun _ => 0 := by funext a; fin_cases a <;> rfl
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact h1 | exact h2 | exact h3 | exact h4)
  sl_step
  sl_unfold_words
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    · ipureintro; exact harg10.read_unread _
    iexact H10
  isplitl [H11]
  · iexists _; isplitr
    · ipureintro; exact harg11.read_unread _
    iexact H11
  isplitl [H12]
  · iexists _; isplitr
    · ipureintro; exact harg12.read_unread _
    iexact H12
  isplitl [H13]
  · iexists _; isplitr
    swap; · iexact H13
    ipureintro
    refine (Cert.StoreReads.read_store_whole _ _ hz (fun a => by fin_cases a <;> simp) _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1000x896) hz, View.ld_unit_zero (S := S896x1024) hz, View.ld_unit_zero (S := S1000x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz, View.readCov_unit_zero (S := S1000x1024) _ hz, View.readCov_cons_toLoadRect]
    all_goals rfl
  iexists _; isplitr
  swap; · iexact H14
  ipureintro
  simp only [View.readAt_eq_ld, harg3.read_unread, View.ld_unit_zero (S := S896x1024) hz, k0_off1]
  all_goals rfl

set_option maxHeartbeats 1000000 in
/-- The body at a point of the first row sweep, last column tile: on whole staging and scratch memrefs at the
    stated contents it runs to the continuation, the inputs as they were, the accumulator at the point's partial product added to what it held,
    the cached weight matrix overwritten on this tile's rows by the block's copy, the two outputs at the epilogue's values. -/
theorem run_S0L (c : Dev nD) (i : grid0.Coords) (arg2 : Memref sig .tc .vmem S1000x896 .f32) (harg2 : arg2.IsWhole) (arg3 : Memref sig .tc .vmem S896x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x91 .bf16) (harg7 : arg7.IsWhole) (arg8 : Memref sig .tc .vmem S1x91 .f32) (harg8 : arg8.IsWhole) (arg9 : Memref sig .tc .vmem S1024x364 .bf16) (harg9 : arg9.IsWhole) (arg10 : Memref sig .tc .vmem S1x364 .f32) (harg10 : arg10.IsWhole) (arg11 : Memref sig .tc .vmem S1000x91 .f32) (harg11 : arg11.IsWhole) (arg12 : Memref sig .tc .vmem S1000x364 .f32) (harg12 : arg12.IsWhole) (arg13 : Memref sig .tc .vmem S1000x1024 .f32) (harg13 : arg13.IsWhole) (arg14 : Memref sig .tc .vmem S12544x1024 .bf16) (harg14 : arg14.IsWhole)
    (h1 : sweep0 i) (h2 : ¬ kfirst i) (h3 : klater i) (h4 : klast i)
    (x2 : Vec F S1000x896 .f32) (x3 : Vec F S896x1024 .f32) (x4 : Vec F S1x1024 .f32) (x5 : Vec F S1024x1024 .bf16) (x6 : Vec F S1x1024 .f32) (x7 : Vec F S1024x91 .bf16) (x8 : Vec F S1x91 .f32) (x9 : Vec F S1024x364 .bf16) (x10 : Vec F S1x364 .f32) (xs13 : Vec F S1000x1024 .f32) (xs14 : Vec F S12544x1024 .bf16)
    (y11 : Vec F S1000x91 .f32) (y12 : Vec F S1000x364 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y11 ∗ owns (c : Thread nD τ) arg12 fullShare y12 ∗ owns (c : Thread nD τ) arg13 fullShare xs13 ∗ owns (c : Thread nD τ) arg14 fullShare xs14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (k0_pay6 (k0_pay4 (k0_pay1 x3) x2 xs13) x4 x5 x6 x7 x8) ∗ owns (c : Thread nD τ) arg12 fullShare (k0_pay7 (k0_pay4 (k0_pay1 x3) x2 xs13) x4 x5 x6 x9 x10)
            ∗ owns (c : Thread nD τ) arg13 fullShare (k0_pay4 (k0_pay1 x3) x2 xs13)
            ∗ owns (c : Thread nD τ) arg14 fullShare (arg14.view.read (Elt F) (arg14.view.writes (Elt F) (harg14.unread xs14) [(⟨Rect.unit (s := S12544x1024) (k0_off1 i) S896x1024.size (k0_off1_inb i h1), k0_pay1 x3⟩ : View.Piece (Elt F) S12544x1024 .bf16)]))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → ℕ) = fun _ => 0 := by funext a; fin_cases a <;> rfl
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact h1 | exact h2 | exact h3 | exact h4)
  sl_step
  sl_unfold_words
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    · ipureintro; exact harg10.read_unread _
    iexact H10
  isplitl [H11]
  · iexists _; isplitr
    swap; · iexact H11
    ipureintro
    refine (Cert.StoreReads.read_store_whole _ _ hz (fun a => by fin_cases a <;> simp) _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1000x896) hz, View.ld_unit_zero (S := S896x1024) hz, View.ld_unit_zero (S := S1000x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz, View.readCov_unit_zero (S := S1000x1024) _ hz, View.readCov_cons_toLoadRect]
    all_goals rfl
  isplitl [H12]
  · iexists _; isplitr
    swap; · iexact H12
    ipureintro
    refine (Cert.StoreReads.read_store_whole _ _ hz (fun a => by fin_cases a <;> simp) _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1000x896) hz, View.ld_unit_zero (S := S896x1024) hz, View.ld_unit_zero (S := S1000x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz, View.readCov_unit_zero (S := S1000x1024) _ hz, View.readCov_cons_toLoadRect]
    all_goals rfl
  isplitl [H13]
  · iexists _; isplitr
    swap; · iexact H13
    ipureintro
    refine (Cert.StoreReads.read_store_whole _ _ hz (fun a => by fin_cases a <;> simp) _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1000x896) hz, View.ld_unit_zero (S := S896x1024) hz, View.ld_unit_zero (S := S1000x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz, View.readCov_unit_zero (S := S1000x1024) _ hz, View.readCov_cons_toLoadRect]
    all_goals rfl
  iexists _; isplitr
  swap; · iexact H14
  ipureintro
  simp only [View.readAt_eq_ld, harg3.read_unread, View.ld_unit_zero (S := S896x1024) hz, k0_off1]
  all_goals rfl

end Cert.KernelIdeal.Body

end
-- ==== Proof.RunsI.lean ====
/-
  The six control cases of the kernel body (first row sweep or later × first / middle / last column tile), gathered:
  the later sweeps' in RunsIn, the first sweep's in RunsI0.
-/
import proofs.«102008_g47519518163636_cont_8to1_c_297_11_alg».proof.Proof.RunsIn
import proofs.«102008_g47519518163636_cont_8to1_c_297_11_alg».proof.Proof.RunsI0
-- ==== Proof.CachedI.lean ====
/-
  The cached weight matrix and the tiles it holds.

  The first row sweep (points 0 to 13) stores, at point `k`, the reduced-precision copy of block `k` of the first
  weight matrix into rows `896 * k` to `896 * k + 895` of the second scratch buffer; every later point reads the tile
  of its own column tile back from those rows. Here:

  * in the first sweep the copy made at point `t` is `tile t` (the point of tile `t` is `t` itself), and `tile`
    depends on its number only through the column tile, `tile (k % 14) = tile k`;
  * a store of that copy over rows `896 * t …` keeps what the buffer held on the rows of the earlier tiles and holds
    `tile t` on its own rows, so "the tiles up to `t - 1` are cached" becomes "the tiles up to `t` are cached";
  * once all fourteen tiles are cached (after point 13) they are cached at every later point;
  * a load of rows `896 * (t % 14) …` of a buffer that has tile `t % 14` cached reads `tile t`.
-/
import proofs.«102008_g47519518163636_cont_8to1_c_297_11_alg».proof.Proof.CarriedI
import Idealize.ShloMosaic.Lib.Pipeline.FrameBody
import Idealize.ShloMosaic.Lib.WritesUnit

noncomputable section

namespace Cert.KernelIdeal.Tiles

open Idealize.ShloMosaic Idealize.ShloMosaic.TcCoe Idealize.ShloMosaic.ValueIdx
open Idealize.SL.Sem
open Cert.KernelIdeal Cert.KernelIdeal.Gen Cert.KernelIdeal.Carried

variable {F : FTy → Type} [FloatOps F]
variable (m : (ℓ : Loc nD τ sig) → Buf (Elt F) ℓ)

/-- In the first row sweep the point of tile `t` is `t`: the copy made there is `tile t`. -/
theorem tile_of_first_sweep (c : Dev nD) (t : Fin cfg0.N) (ht : t.val < 14) :
    k0_pay1 (iblk m c 1 t) = tile m c t.val :=
  congrArg (fun x : Fin cfg0.N => k0_pay1 (iblk m c 1 x))
    (Fin.ext (Nat.mod_eq_of_lt ht).symm : t = ⟨t.val % 14, tile_lt t.val⟩)

/-- A tile depends on its number through the column tile only. -/
theorem tile_mod (c : Dev nD) (k : ℕ) : tile m c (k % 14) = tile m c k :=
  congrArg (fun x : Fin cfg0.N => k0_pay1 (iblk m c 1 x))
    (Fin.ext (Nat.mod_mod k 14) : (⟨k % 14 % 14, tile_lt (k % 14)⟩ : Fin cfg0.N) = ⟨k % 14, tile_lt k⟩)

/-- The store of the first sweep's point `t`: over any contents `f` that hold the tiles up to `t - 1` (none, at
    `t = 0`), writing the point's copy over rows `896 * t` onwards leaves the tiles up to `t`. -/
theorem cached_store (c : Dev nD) {κ : Kind} {sp : Space} (v : View sig κ sp S12544x1024 .bf16) (f : v.ty.Contents (Elt F))
    (t : Fin cfg0.N) (ht : t.val < 14) (off : Fin 2 → ℕ) (inb : ∀ a, off a + S896x1024.size a ≤ S12544x1024.size a)
    (hoff : off = ![896 * (t.val % 14), 0])
    (hprev : t.val ≠ 0 → Cached m c (t.val - 1) (v.read (Elt F) f)) :
    Cached m c t.val (v.read (Elt F) (v.writes (Elt F) f
      [(⟨Rect.unit (s := S12544x1024) off S896x1024.size inb, k0_pay1 (iblk m c 1 t)⟩ : View.Piece (Elt F) S12544x1024 .bf16)])) := by
  intro k hk hkt a b
  have hmod : t.val % 14 = t.val := Nat.mod_eq_of_lt ht
  by_cases hkeq : k = t.val
  · subst hkeq
    refine (View.read_writes_cons_rows_of_mem v f inb (k0_pay1 (iblk m c 1 t)) [] (cell t.val hk a b) (ix2 a b) hoff ?_ ?_).trans ?_
    · show 896 * t.val + a.val = 896 * (t.val % 14) + a.val
      rw [hmod]
    · rfl
    · exact congrFun (tile_of_first_sweep m c t ht) (ix2 a b)
  · have hlt : k < t.val := by omega
    have ha : a.val < 896 := a.isLt
    refine (View.read_writes_cons_rows_of_not_mem (W := 896) v f inb (k0_pay1 (iblk m c 1 t)) [] (cell k hk a b) hoff rfl (Or.inl ?_)).trans ?_
    · show 896 * k + a.val < 896 * (t.val % 14)
      rw [hmod]; omega
    · exact hprev (by omega) k hk (by omega) a b

/-- Every tile number is at most 13: contents that hold the tiles up to some `n ≥ 13` hold them up to any number. -/
theorem cached_of_full (c : Dev nD) (n n' : ℕ) (hn : 13 ≤ n) (Z : Vec F S12544x1024 .bf16) (h : Cached m c n Z) :
    Cached m c n' Z :=
  fun k hk _ a b => h k hk (by omega) a b

/-- A load of rows `896 * (t % 14)` onwards, all columns, of contents that hold tile `t % 14` reads `tile t`. -/
theorem cached_load (c : Dev nD) (t : Fin cfg0.N) (Z : Vec F S12544x1024 .bf16) (n : ℕ) (hn : t.val % 14 ≤ n) (hZ : Cached m c n Z)
    (off : Fin 2 → ℕ) (inb : ∀ a, off a + S896x1024.size a ≤ S12544x1024.size a) (hoff : off = ![896 * (t.val % 14), 0]) :
    View.ld Z (Rect.unit (s := S12544x1024) off S896x1024.size inb) = tile m c t.val := by
  subst hoff
  funext j
  obtain ⟨a, b, rfl⟩ : ∃ (a : Fin 896) (b : Fin 1024), j = ix2 a b := ⟨j 0, j 1, eq_ix2 j⟩
  have hk : t.val % 14 < 14 := Nat.mod_lt _ (by decide)
  have e : (Rect.unit (s := S12544x1024) ![896 * (t.val % 14), 0] S896x1024.size inb).idx (ix2 a b) = cell (t.val % 14) hk a b :=
    funext fun d => Fin.ext (by
      match d with
      | ⟨0, _⟩ => show 896 * (t.val % 14) + 1 * a.val = 896 * (t.val % 14) + a.val; omega
      | ⟨1, _⟩ => show 0 + 1 * b.val = b.val; omega)
  exact (congrArg Z e).trans ((hZ (t.val % 14) hk hn a b).trans (congrFun (tile_mod m c t.val) (ix2 a b)))

end Cert.KernelIdeal.Tiles

end
-- ==== Proof.ObligI.lean ====
/-
  The body obligation at every grid point, and the frame run.

  The grid is 5 row tiles by 14 column tiles, the column tile innermost; a point is in one of six cases, the first
  row sweep or a later one, times the first, a middle or the last column tile of its row tile:

  * in the first row sweep the point stores its reduced-precision tile of the first weight matrix into the cached
    matrix, beside the tiles the earlier points stored, and multiplies with that tile; in a later sweep the cached
    matrix holds all fourteen tiles and the point multiplies with the tile it reads back, which is the same tile;
  * at a row tile's first column tile the accumulator is set to the point's partial product, elsewhere the partial
    product is added to what the point before left: in every case the accumulator ends at `acc` of the point;
  * at a row tile's last column tile the epilogue stores the two outputs computed from the finished accumulator,
    `scoreAt` and `bboxAt` of the point; elsewhere the two output buffers are left as they were.

  So the invariant after a point — the accumulator at `acc`, the cached matrix holding every tile stored so far —
  is kept from point to point; before the first point both scratch buffers hold anything, and after the last point
  their contents are forgotten again. The frame run then follows from the pipeline's launch theorem.
-/
import proofs.«102008_g47519518163636_cont_8to1_c_297_11_alg».proof.Proof.DatI
import proofs.«102008_g47519518163636_cont_8to1_c_297_11_alg».proof.Proof.RunsI
import proofs.«102008_g47519518163636_cont_8to1_c_297_11_alg».proof.Proof.CachedI
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Carried Cert.KernelIdeal.Tiles

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, the core's debt, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- What it returns: the invariant at the next point, the same debt, and each staging buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-! ## The six cases -/

set_option maxHeartbeats 1600000 in
/-- First row sweep, first column tile: the first point. The scratch buffers come at anything; the accumulator is set to the point's partial product and the point's tile is stored. -/
theorem sound_S0F (c : Dev nD) (t : Fin cfg0.N) (hlt : t.val < 14) (hf : t.val % 14 = 0) :
    bodyPre m c t ⊢ wp frame (wpE (defs₀ (F := F)) Variants.none c none) Set.univ (bodyAt0 t) (fun _ => bodyPost m c t) := by
  have h0 : t.val = 0 := by omega
  have c1 : sweep0 (grid0.coords t) := (hsweep0 t).mpr hlt
  have c2 : kfirst (grid0.coords t) := (hkfirst t).mpr hf
  have c3 : ¬ klater (grid0.coords t) := fun h => (hklater t).mp h hf
  have c4 : ¬ klast (grid0.coords t) := fun h => by have := (hklast t).mp h; omega
  have hacc : acc m c t.val t.isLt = k0_pay3 (k0_pay1 (iblk m c 1 t)) (iblk m c 0 t) := by
    rw [acc_first m c t hf, tile_of_first_sweep m c t hlt]
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  rw [show (dats m 0 c).leavesExact 7 t = owns (c : Thread nD τ) (ms7 t) fullShare ((dats m 0 c).after 7 t) from by
    unfold Dat.leavesExact; rw [live_7 t], after_7]
  rw [show (dats m 0 c).leavesExact 8 t = owns (c : Thread nD τ) (ms8 t) fullShare ((dats m 0 c).after 8 t) from by
    unfold Dat.leavesExact; rw [live_8 t], after_8]
  rw [Dat.leavesExact_idle (dats m 0 c) 9 t (idle_9 t c4) (noFlush_9 t c4), Dat.leavesExact_idle (dats m 0 c) 10 t (idle_10 t c4) (noFlush_10 t c4)]
  rw [Phi_castSucc m c t, Phi_zero m c _ _ h0, PhiA_eq]
  rw [hacc]
  iintro ⟨⟨⟨⟨%dA, HA⟩, ⟨%dW, HW⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_S0F c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scA (Memref.isWhole_whole _) scW (Memref.isWhole_whole _) c1 c2 c3 c4 (iblk m c 0 t) (iblk m c 1 t) (iblk m c 2 t) (iblk m c 3 t) (iblk m c 4 t) (iblk m c 5 t) (iblk m c 6 t) (iblk m c 7 t) (iblk m c 8 t) dA dW ((dats m 0 c).before 9 t d9) ((dats m 0 c).before 10 t d10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HW]; · iexact HW
  iintro ⟨H0, H1, H2, H3, H4, H5, H6, H7, H8, H9, H10, HA, HW⟩
  isplitl [HA HW Hg]
  · isplitl [HA HW]
    · isplitl [HA]; · iexact HA
      iexists _; isplitl [HW]; · iexact HW
      ipureintro
      exact cached_store m c scW.view _ t hlt (k0_off1 (grid0.coords t)) (k0_off1_inb (grid0.coords t) c1) (hoff1 t) (fun hne => absurd h0 hne)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

set_option maxHeartbeats 1600000 in
/-- First row sweep, a middle column tile: the point's partial product is added to the accumulator and the point's tile is stored beside the earlier ones. -/
theorem sound_S0M (c : Dev nD) (t : Fin cfg0.N) (hlt : t.val < 14) (hnf : ¬ t.val % 14 = 0) (hnl : ¬ t.val % 14 = 13) :
    bodyPre m c t ⊢ wp frame (wpE (defs₀ (F := F)) Variants.none c none) Set.univ (bodyAt0 t) (fun _ => bodyPost m c t) := by
  have hz : t.val ≠ 0 := by omega
  have c1 : sweep0 (grid0.coords t) := (hsweep0 t).mpr hlt
  have c2 : ¬ kfirst (grid0.coords t) := fun h => hnf ((hkfirst t).mp h)
  have c3 : klater (grid0.coords t) := (hklater t).mpr hnf
  have c4 : ¬ klast (grid0.coords t) := fun h => hnl ((hklast t).mp h)
  have hacc : acc m c t.val t.isLt = k0_pay4 (k0_pay1 (iblk m c 1 t)) (iblk m c 0 t) (acc m c (t.val - 1) (Nat.lt_of_le_of_lt (Nat.sub_le _ _) t.isLt)) := by
    rw [acc_next m c t hnf, tile_of_first_sweep m c t hlt]
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  rw [show (dats m 0 c).leavesExact 7 t = owns (c : Thread nD τ) (ms7 t) fullShare ((dats m 0 c).after 7 t) from by
    unfold Dat.leavesExact; rw [live_7 t], after_7]
  rw [show (dats m 0 c).leavesExact 8 t = owns (c : Thread nD τ) (ms8 t) fullShare ((dats m 0 c).after 8 t) from by
    unfold Dat.leavesExact; rw [live_8 t], after_8]
  rw [Dat.leavesExact_idle (dats m 0 c) 9 t (idle_9 t c4) (noFlush_9 t c4), Dat.leavesExact_idle (dats m 0 c) 10 t (idle_10 t c4) (noFlush_10 t c4)]
  rw [Phi_castSucc m c t, Phi_pos m c _ _ hz]
  rw [hacc]
  iintro ⟨⟨⟨HA, ⟨%Z, HW, %hZ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_S0M c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scA (Memref.isWhole_whole _) scW (Memref.isWhole_whole _) c1 c2 c3 c4 (iblk m c 0 t) (iblk m c 1 t) (iblk m c 2 t) (iblk m c 3 t) (iblk m c 4 t) (iblk m c 5 t) (iblk m c 6 t) (iblk m c 7 t) (iblk m c 8 t) (acc m c (t.val - 1) (Nat.lt_of_le_of_lt (Nat.sub_le _ _) t.isLt)) Z ((dats m 0 c).before 9 t d9) ((dats m 0 c).before 10 t d10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HW]; · iexact HW
  iintro ⟨H0, H1, H2, H3, H4, H5, H6, H7, H8, H9, H10, HA, HW⟩
  isplitl [HA HW Hg]
  · isplitl [HA HW]
    · isplitl [HA]; · iexact HA
      iexists _; isplitl [HW]; · iexact HW
      ipureintro
      exact cached_store m c scW.view _ t hlt (k0_off1 (grid0.coords t)) (k0_off1_inb (grid0.coords t) c1) (hoff1 t) (fun _ => by rw [Memref.IsWhole.read_unread]; exact hZ)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

set_option maxHeartbeats 1600000 in
/-- First row sweep, last column tile: as at a middle tile, and the epilogue stores the two outputs computed from the finished accumulator. -/
theorem sound_S0L (c : Dev nD) (t : Fin cfg0.N) (hlt : t.val < 14) (hl : t.val % 14 = 13) :
    bodyPre m c t ⊢ wp frame (wpE (defs₀ (F := F)) Variants.none c none) Set.univ (bodyAt0 t) (fun _ => bodyPost m c t) := by
  have hz : t.val ≠ 0 := by omega
  have c1 : sweep0 (grid0.coords t) := (hsweep0 t).mpr hlt
  have hnf : ¬ t.val % 14 = 0 := by omega
  have c2 : ¬ kfirst (grid0.coords t) := fun h => hnf ((hkfirst t).mp h)
  have c3 : klater (grid0.coords t) := (hklater t).mpr hnf
  have c4 : klast (grid0.coords t) := (hklast t).mpr hl
  have hacc : acc m c t.val t.isLt = k0_pay4 (k0_pay1 (iblk m c 1 t)) (iblk m c 0 t) (acc m c (t.val - 1) (Nat.lt_of_le_of_lt (Nat.sub_le _ _) t.isLt)) := by
    rw [acc_next m c t hnf, tile_of_first_sweep m c t hlt]
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  rw [show (dats m 0 c).leavesExact 7 t = owns (c : Thread nD τ) (ms7 t) fullShare ((dats m 0 c).after 7 t) from by
    unfold Dat.leavesExact; rw [live_7 t], after_7]
  rw [show (dats m 0 c).leavesExact 8 t = owns (c : Thread nD τ) (ms8 t) fullShare ((dats m 0 c).after 8 t) from by
    unfold Dat.leavesExact; rw [live_8 t], after_8]
  rw [show (dats m 0 c).leavesExact 9 t = owns (c : Thread nD τ) (ms9 t) fullShare ((dats m 0 c).after 9 t) from by
    unfold Dat.leavesExact; rw [live_9 t c4], after_9]
  rw [show (dats m 0 c).leavesExact 10 t = owns (c : Thread nD τ) (ms10 t) fullShare ((dats m 0 c).after 10 t) from by
    unfold Dat.leavesExact; rw [live_10 t c4], after_10]
  unfold scoreAt bboxAt
  rw [Phi_castSucc m c t, Phi_pos m c _ _ hz]
  rw [hacc]
  iintro ⟨⟨⟨HA, ⟨%Z, HW, %hZ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_S0L c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scA (Memref.isWhole_whole _) scW (Memref.isWhole_whole _) c1 c2 c3 c4 (iblk m c 0 t) (iblk m c 1 t) (iblk m c 2 t) (iblk m c 3 t) (iblk m c 4 t) (iblk m c 5 t) (iblk m c 6 t) (iblk m c 7 t) (iblk m c 8 t) (acc m c (t.val - 1) (Nat.lt_of_le_of_lt (Nat.sub_le _ _) t.isLt)) Z ((dats m 0 c).before 9 t d9) ((dats m 0 c).before 10 t d10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HW]; · iexact HW
  iintro ⟨H0, H1, H2, H3, H4, H5, H6, H7, H8, H9, H10, HA, HW⟩
  isplitl [HA HW Hg]
  · isplitl [HA HW]
    · isplitl [HA]; · iexact HA
      iexists _; isplitl [HW]; · iexact HW
      ipureintro
      exact cached_store m c scW.view _ t hlt (k0_off1 (grid0.coords t)) (k0_off1_inb (grid0.coords t) c1) (hoff1 t) (fun _ => by rw [Memref.IsWhole.read_unread]; exact hZ)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 1600000 in
/-- A later row sweep, first column tile: the accumulator is set to the partial product with the tile read back from the cached matrix, which holds every tile. -/
theorem sound_SnF (c : Dev nD) (t : Fin cfg0.N) (hge : ¬ t.val < 14) (hf : t.val % 14 = 0) :
    bodyPre m c t ⊢ wp frame (wpE (defs₀ (F := F)) Variants.none c none) Set.univ (bodyAt0 t) (fun _ => bodyPost m c t) := by
  have c1 : ¬ sweep0 (grid0.coords t) := fun h => hge ((hsweep0 t).mp h)
  have hz : t.val ≠ 0 := by omega
  have c2 : kfirst (grid0.coords t) := (hkfirst t).mpr hf
  have c3 : ¬ klater (grid0.coords t) := fun h => (hklater t).mp h hf
  have c4 : ¬ klast (grid0.coords t) := fun h => by have := (hklast t).mp h; omega
  have hacc : acc m c t.val t.isLt = k0_pay3 (tile m c t.val) (iblk m c 0 t) := acc_first m c t hf
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  rw [show (dats m 0 c).leavesExact 7 t = owns (c : Thread nD τ) (ms7 t) fullShare ((dats m 0 c).after 7 t) from by
    unfold Dat.leavesExact; rw [live_7 t], after_7]
  rw [show (dats m 0 c).leavesExact 8 t = owns (c : Thread nD τ) (ms8 t) fullShare ((dats m 0 c).after 8 t) from by
    unfold Dat.leavesExact; rw [live_8 t], after_8]
  rw [Dat.leavesExact_idle (dats m 0 c) 9 t (idle_9 t c4) (noFlush_9 t c4), Dat.leavesExact_idle (dats m 0 c) 10 t (idle_10 t c4) (noFlush_10 t c4)]
  rw [Phi_castSucc m c t, Phi_pos m c _ _ hz]
  rw [hacc]
  iintro ⟨⟨⟨HA, ⟨%Z, HW, %hZ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hload : (View.ld Z (Rect.unit (s := S12544x1024) (k0_off2 (grid0.coords t)) S896x1024.size (k0_off2_inb (grid0.coords t)))) = tile m c t.val :=
    cached_load m c t Z (t.val - 1) (by omega) hZ (k0_off2 (grid0.coords t)) (k0_off2_inb (grid0.coords t)) (hoff2 t)
  rw [← hload]
  iapply (run_SnF c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scA (Memref.isWhole_whole _) scW (Memref.isWhole_whole _) c1 c2 c3 c4 (iblk m c 0 t) (iblk m c 1 t) (iblk m c 2 t) (iblk m c 3 t) (iblk m c 4 t) (iblk m c 5 t) (iblk m c 6 t) (iblk m c 7 t) (iblk m c 8 t) (acc m c (t.val - 1) (Nat.lt_of_le_of_lt (Nat.sub_le _ _) t.isLt)) Z ((dats m 0 c).before 9 t d9) ((dats m 0 c).before 10 t d10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HW]; · iexact HW
  iintro ⟨H0, H1, H2, H3, H4, H5, H6, H7, H8, H9, H10, HA, HW⟩
  isplitl [HA HW Hg]
  · isplitl [HA HW]
    · isplitl [HA]; · iexact HA
      iexists Z; isplitl [HW]; · iexact HW
      ipureintro
      exact cached_of_full m c (t.val - 1) t.val (by omega) Z hZ
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

set_option maxHeartbeats 1600000 in
/-- A later row sweep, a middle column tile: the partial product with the cached tile is added to the accumulator. -/
theorem sound_SnM (c : Dev nD) (t : Fin cfg0.N) (hge : ¬ t.val < 14) (hnf : ¬ t.val % 14 = 0) (hnl : ¬ t.val % 14 = 13) :
    bodyPre m c t ⊢ wp frame (wpE (defs₀ (F := F)) Variants.none c none) Set.univ (bodyAt0 t) (fun _ => bodyPost m c t) := by
  have c1 : ¬ sweep0 (grid0.coords t) := fun h => hge ((hsweep0 t).mp h)
  have hz : t.val ≠ 0 := by omega
  have c2 : ¬ kfirst (grid0.coords t) := fun h => hnf ((hkfirst t).mp h)
  have c3 : klater (grid0.coords t) := (hklater t).mpr hnf
  have c4 : ¬ klast (grid0.coords t) := fun h => hnl ((hklast t).mp h)
  have hacc : acc m c t.val t.isLt = k0_pay4 (tile m c t.val) (iblk m c 0 t) (acc m c (t.val - 1) (Nat.lt_of_le_of_lt (Nat.sub_le _ _) t.isLt)) := acc_next m c t hnf
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  rw [show (dats m 0 c).leavesExact 7 t = owns (c : Thread nD τ) (ms7 t) fullShare ((dats m 0 c).after 7 t) from by
    unfold Dat.leavesExact; rw [live_7 t], after_7]
  rw [show (dats m 0 c).leavesExact 8 t = owns (c : Thread nD τ) (ms8 t) fullShare ((dats m 0 c).after 8 t) from by
    unfold Dat.leavesExact; rw [live_8 t], after_8]
  rw [Dat.leavesExact_idle (dats m 0 c) 9 t (idle_9 t c4) (noFlush_9 t c4), Dat.leavesExact_idle (dats m 0 c) 10 t (idle_10 t c4) (noFlush_10 t c4)]
  rw [Phi_castSucc m c t, Phi_pos m c _ _ hz]
  rw [hacc]
  iintro ⟨⟨⟨HA, ⟨%Z, HW, %hZ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hload : (View.ld Z (Rect.unit (s := S12544x1024) (k0_off2 (grid0.coords t)) S896x1024.size (k0_off2_inb (grid0.coords t)))) = tile m c t.val :=
    cached_load m c t Z (t.val - 1) (by omega) hZ (k0_off2 (grid0.coords t)) (k0_off2_inb (grid0.coords t)) (hoff2 t)
  rw [← hload]
  iapply (run_SnM c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scA (Memref.isWhole_whole _) scW (Memref.isWhole_whole _) c1 c2 c3 c4 (iblk m c 0 t) (iblk m c 1 t) (iblk m c 2 t) (iblk m c 3 t) (iblk m c 4 t) (iblk m c 5 t) (iblk m c 6 t) (iblk m c 7 t) (iblk m c 8 t) (acc m c (t.val - 1) (Nat.lt_of_le_of_lt (Nat.sub_le _ _) t.isLt)) Z ((dats m 0 c).before 9 t d9) ((dats m 0 c).before 10 t d10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HW]; · iexact HW
  iintro ⟨H0, H1, H2, H3, H4, H5, H6, H7, H8, H9, H10, HA, HW⟩
  isplitl [HA HW Hg]
  · isplitl [HA HW]
    · isplitl [HA]; · iexact HA
      iexists Z; isplitl [HW]; · iexact HW
      ipureintro
      exact cached_of_full m c (t.val - 1) t.val (by omega) Z hZ
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

set_option maxHeartbeats 1600000 in
/-- A later row sweep, last column tile: as at a middle tile, and the epilogue stores the two outputs. -/
theorem sound_SnL (c : Dev nD) (t : Fin cfg0.N) (hge : ¬ t.val < 14) (hl : t.val % 14 = 13) :
    bodyPre m c t ⊢ wp frame (wpE (defs₀ (F := F)) Variants.none c none) Set.univ (bodyAt0 t) (fun _ => bodyPost m c t) := by
  have c1 : ¬ sweep0 (grid0.coords t) := fun h => hge ((hsweep0 t).mp h)
  have hz : t.val ≠ 0 := by omega
  have hnf : ¬ t.val % 14 = 0 := by omega
  have c2 : ¬ kfirst (grid0.coords t) := fun h => hnf ((hkfirst t).mp h)
  have c3 : klater (grid0.coords t) := (hklater t).mpr hnf
  have c4 : klast (grid0.coords t) := (hklast t).mpr hl
  have hacc : acc m c t.val t.isLt = k0_pay4 (tile m c t.val) (iblk m c 0 t) (acc m c (t.val - 1) (Nat.lt_of_le_of_lt (Nat.sub_le _ _) t.isLt)) := acc_next m c t hnf
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  rw [show (dats m 0 c).leavesExact 7 t = owns (c : Thread nD τ) (ms7 t) fullShare ((dats m 0 c).after 7 t) from by
    unfold Dat.leavesExact; rw [live_7 t], after_7]
  rw [show (dats m 0 c).leavesExact 8 t = owns (c : Thread nD τ) (ms8 t) fullShare ((dats m 0 c).after 8 t) from by
    unfold Dat.leavesExact; rw [live_8 t], after_8]
  rw [show (dats m 0 c).leavesExact 9 t = owns (c : Thread nD τ) (ms9 t) fullShare ((dats m 0 c).after 9 t) from by
    unfold Dat.leavesExact; rw [live_9 t c4], after_9]
  rw [show (dats m 0 c).leavesExact 10 t = owns (c : Thread nD τ) (ms10 t) fullShare ((dats m 0 c).after 10 t) from by
    unfold Dat.leavesExact; rw [live_10 t c4], after_10]
  unfold scoreAt bboxAt
  rw [Phi_castSucc m c t, Phi_pos m c _ _ hz]
  rw [hacc]
  iintro ⟨⟨⟨HA, ⟨%Z, HW, %hZ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hload : (View.ld Z (Rect.unit (s := S12544x1024) (k0_off2 (grid0.coords t)) S896x1024.size (k0_off2_inb (grid0.coords t)))) = tile m c t.val :=
    cached_load m c t Z (t.val - 1) (by omega) hZ (k0_off2 (grid0.coords t)) (k0_off2_inb (grid0.coords t)) (hoff2 t)
  rw [← hload]
  iapply (run_SnL c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scA (Memref.isWhole_whole _) scW (Memref.isWhole_whole _) c1 c2 c3 c4 (iblk m c 0 t) (iblk m c 1 t) (iblk m c 2 t) (iblk m c 3 t) (iblk m c 4 t) (iblk m c 5 t) (iblk m c 6 t) (iblk m c 7 t) (iblk m c 8 t) (acc m c (t.val - 1) (Nat.lt_of_le_of_lt (Nat.sub_le _ _) t.isLt)) Z ((dats m 0 c).before 9 t d9) ((dats m 0 c).before 10 t d10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HW]; · iexact HW
  iintro ⟨H0, H1, H2, H3, H4, H5, H6, H7, H8, H9, H10, HA, HW⟩
  isplitl [HA HW Hg]
  · isplitl [HA HW]
    · isplitl [HA]; · iexact HA
      iexists Z; isplitl [HW]; · iexact HW
      ipureintro
      exact cached_of_full m c (t.val - 1) t.val (by omega) Z hZ
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ## The obligation -/

/-- The body at any point: the point is in exactly one of the six cases. -/
theorem sound_body (c : Dev nD) (t : Fin cfg0.N) :
    bodyPre m c t ⊢ wp frame (wpE (defs₀ (F := F)) Variants.none c none) Set.univ (bodyAt0 t) (fun _ => bodyPost m c t) := by
  by_cases hlt : t.val < 14
  · by_cases hf : t.val % 14 = 0
    · exact sound_S0F m c t hlt hf
    · by_cases hl : t.val % 14 = 13
      · exact sound_S0L m c t hlt hl
      · exact sound_S0M m c t hlt hf hl
  · by_cases hf : t.val % 14 = 0
    · exact sound_SnF m c t hlt hf
    · by_cases hl : t.val % 14 = 13
      · exact sound_SnL m c t hlt hl
      · exact sound_SnM m c t hlt hf hl

/-- The pipeline's body obligation, at every point: the windows conjoined one by one. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After any point the invariant gives the class's back: what the two scratch buffers hold is forgotten. -/
theorem Phi_out (c : Dev nD) (t : Fin (cfg0.N + 1)) (ht : t.val ≠ 0) : (dats m 0 c).Φ t ⊢ Pipeline.ΦA spec0 c := by
  rw [show (dats m 0 c).Φ t = Phi m c t.val (Nat.le_of_lt_succ t.isLt) from rfl, Phi_pos m c _ _ ht, PhiA_eq]
  iintro ⟨⟨HA, ⟨%Z, HW, %hZ⟩⟩, Hg⟩
  isplitl [HA HW]
  · isplitl [HA]
    · iexists _; iexact HA
    iexists _; iexact HW
  iexact Hg

/-- The same after the last point. -/
theorem hout (c : Dev nD) : (dats m 0 c).Φ (Fin.last cfg0.N) ⊢ Pipeline.ΦA spec0 c :=
  Phi_out m c _ (by rw [Fin.val_last]; have : cfg0.N = 70 := N_0; omega)

/-! ## The run and the frame -/

set_option backward.isDefEq.respectTransparency.types false in
/-- For any float values, from any memory with zero counters: every weakly fair execution of @main on the
    TensorCores terminates, every array of the pipeline at what the proof data says and every other unscoped
    buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the nine argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.KernelIdeal.Body

end
-- ==== Proof.CarriedK.lean ====
/-
  What the kernel carries from grid point to grid point, as pure functions of the argument blocks, at any
  float instance. The grid is 5 row tiles by 14 column tiles of the first product, the column tile innermost:
  point `n` is row tile `n / 14`, column tile `n % 14`.

  * `tile k`   — the reduced-precision copy of block `k` of the first weight matrix (896 of its rows), as the
                  first row sweep stores it in the second scratch buffer and every sweep reads it back;
  * `acc n`    — the first scratch buffer after point `n`: the partial product of the point's block of `x` with
                  `tile (n % 14)`, alone at a row tile's first column tile, added to what the point before left
                  otherwise;
  * `scoreAt n`, `bboxAt n` — what the epilogue computes from `acc n` and the point's blocks of the small
                  operands (stored into the two output windows at a row tile's last column tile);
  * `Cached n Z` — the second scratch buffer's contents `Z` agree with `tile k` on the rows of every tile
                  `k ≤ n` (from point 13 on: on every tile).
-/
import proofs.«102008_g47519518163636_cont_8to1_c_297_11_alg».proof.Proof.Gen.Kernel.Frame
import proofs.«102008_g47519518163636_cont_8to1_c_297_11_alg».proof.Proof.Gen.Kernel.Skeleton
import Idealize.ShloMosaic.Lib.ValueIdx

noncomputable section

namespace Cert.Kernel.Carried

open Idealize.ShloMosaic Idealize.ShloMosaic.TcCoe Idealize.ShloMosaic.ValueIdx
open Idealize.SL.Sem
open Cert.Kernel Cert.Kernel.Gen

variable {F : FTy → Type} [FloatOps F]
variable (m : (ℓ : Loc nD τ sig) → Buf (Elt F) ℓ)

/-- The grid has 70 points. -/
theorem N70 : cfg0.N = 70 := N_0

/-- A column-tile number is a point of the first row sweep. -/
theorem tile_lt (k : ℕ) : k % 14 < cfg0.N := by rw [N70]; omega

/-- Block `k` of the first weight matrix in reduced precision: what point `k` (row tile 0, column tile `k`)
    stores into the second scratch buffer. -/
def tile (c : Dev nD) (k : ℕ) : Vec F S896x1024 .bf16 :=
  k0_pay1 (iblk m c 1 ⟨k % 14, tile_lt k⟩)

/-- The first scratch buffer after point `n`. -/
def acc (c : Dev nD) : (n : ℕ) → n < cfg0.N → Vec F S1000x1024 .f32
  | 0, hn => k0_pay3 (tile m c 0) (iblk m c 0 ⟨0, hn⟩)
  | n + 1, hn =>
    if (n + 1) % 14 = 0 then k0_pay3 (tile m c (n + 1)) (iblk m c 0 ⟨n + 1, hn⟩)
    else k0_pay4 (tile m c (n + 1)) (iblk m c 0 ⟨n + 1, hn⟩) (acc c n (Nat.lt_of_succ_lt hn))

/-- At a row tile's first column tile the accumulator is the point's partial product alone. -/
theorem acc_first (c : Dev nD) (t : Fin cfg0.N) (h : t.val % 14 = 0) :
    acc m c t.val t.isLt = k0_pay3 (tile m c t.val) (iblk m c 0 t) := by
  obtain ⟨n, hn⟩ := t
  cases n with
  | zero => rfl
  | succ n => exact if_pos h

/-- Elsewhere it is the point's partial product added to what the point before left. -/
theorem acc_next (c : Dev nD) (t : Fin cfg0.N) (h : ¬ t.val % 14 = 0) :
    acc m c t.val t.isLt
      = k0_pay4 (tile m c t.val) (iblk m c 0 t) (acc m c (t.val - 1) (Nat.lt_of_le_of_lt (Nat.sub_le _ _) t.isLt)) := by
  obtain ⟨n, hn⟩ := t
  cases n with
  | zero => exact absurd (Nat.zero_mod _) h
  | succ n => exact if_neg h

/-- The class scores the epilogue computes at point `n`. -/
def scoreAt (c : Dev nD) (n : ℕ) (hn : n < cfg0.N) : Vec F S1000x91 .f32 :=
  k0_pay6 (acc m c n hn) (iblk m c 2 ⟨n, hn⟩) (iblk m c 3 ⟨n, hn⟩) (iblk m c 4 ⟨n, hn⟩) (iblk m c 5 ⟨n, hn⟩) (iblk m c 6 ⟨n, hn⟩)

/-- The box deltas the epilogue computes at point `n`. -/
def bboxAt (c : Dev nD) (n : ℕ) (hn : n < cfg0.N) : Vec F S1000x364 .f32 :=
  k0_pay7 (acc m c n hn) (iblk m c 2 ⟨n, hn⟩) (iblk m c 3 ⟨n, hn⟩) (iblk m c 4 ⟨n, hn⟩) (iblk m c 7 ⟨n, hn⟩) (iblk m c 8 ⟨n, hn⟩)

/-- Row `896 * k + a`, column `b` of the cached weight matrix. -/
def cell (k : ℕ) (hk : k < 14) (a : Fin 896) (b : Fin 1024) : S12544x1024.Idx :=
  ix2 (⟨896 * k + a.val, by omega⟩ : Fin 12544) b

/-- The cached weight matrix `Z` holds `tile k` on the rows of every column tile `k ≤ n`. -/
def Cached (c : Dev nD) (n : ℕ) (Z : Vec F S12544x1024 .bf16) : Prop :=
  ∀ (k : ℕ) (hk : k < 14), k ≤ n → ∀ (a : Fin 896) (b : Fin 1024), Z (cell k hk a b) = tile m c k (ix2 a b)

end Cert.Kernel.Carried

end
-- ==== Proof.DatK.lean ====
import proofs.«102008_g47519518163636_cont_8to1_c_297_11_alg».proof.Proof.Gen.Kernel.Frame
import proofs.«102008_g47519518163636_cont_8to1_c_297_11_alg».proof.Proof.Gen.Kernel.Skeleton
import proofs.«102008_g47519518163636_cont_8to1_c_297_11_alg».proof.Proof.CarriedK
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Carried
open Idealize.ShloMosaic.ValueIdx (ix2)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four branch conditions, over the grid coordinates -/

/-- The point is in the first row sweep (row tile 0): the weight block is cached there. -/
abbrev sweep0 (i : grid0.Coords) : Prop := k0_cond1 i = 1#1
/-- The point is a row tile's first column tile: the accumulator is reset. -/
abbrev kfirst (i : grid0.Coords) : Prop :=
  (Scalar.cmpi .ne (Scalar.extui (Scalar.cmpi .eq (BitVec.ofNat 32 (i 1).val) 0#32)) 0#32) = 1#1
/-- The point is a later column tile: the accumulator is added to. -/
abbrev klater (i : grid0.Coords) : Prop :=
  (Scalar.cmpi .ne (Scalar.extui (Scalar.cmpi .sgt (BitVec.ofNat 32 (i 1).val) 0#32)) 0#32) = 1#1
/-- The point is a row tile's last column tile: the epilogue runs. -/
abbrev klast (i : grid0.Coords) : Prop := k0_cond4 i = 1#1

theorem hsweep0 : ∀ t : Fin cfg0.N, sweep0 (grid0.coords t) ↔ t.val < 14 :=
  (by decide +kernel : ∀ t : Fin grid0.N, sweep0 (grid0.coords t) ↔ t.val < 14)
theorem hkfirst : ∀ t : Fin cfg0.N, kfirst (grid0.coords t) ↔ t.val % 14 = 0 :=
  (by decide +kernel : ∀ t : Fin grid0.N, kfirst (grid0.coords t) ↔ t.val % 14 = 0)
theorem hklater : ∀ t : Fin cfg0.N, klater (grid0.coords t) ↔ ¬ t.val % 14 = 0 :=
  (by decide +kernel : ∀ t : Fin grid0.N, klater (grid0.coords t) ↔ ¬ t.val % 14 = 0)
theorem hklast : ∀ t : Fin cfg0.N, klast (grid0.coords t) ↔ t.val % 14 = 13 :=
  (by decide +kernel : ∀ t : Fin grid0.N, klast (grid0.coords t) ↔ t.val % 14 = 13)

/-- Where the first row sweep stores the weight block and where every point loads it back: rows
    `896 * (column tile)`, column 0. -/
theorem hoff1 : ∀ t : Fin cfg0.N, k0_off1 (grid0.coords t) = ![896 * (t.val % 14), 0] :=
  (by decide +kernel : ∀ t : Fin grid0.N, k0_off1 (grid0.coords t) = ![896 * (t.val % 14), 0])
theorem hoff2 : ∀ t : Fin cfg0.N, k0_off2 (grid0.coords t) = ![896 * (t.val % 14), 0] :=
  (by decide +kernel : ∀ t : Fin grid0.N, k0_off2 (grid0.coords t) = ![896 * (t.val % 14), 0])

/-! ## Where the windows are idle -/

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl
/-- Off a row tile's last column tile nothing is stored into the two outputs, and they are not written back. -/
theorem idle_9 : ∀ t : Fin cfg0.N, ¬ klast (grid0.coords t) → cfg0.idle 9 (grid0.coords t) = true := by decide +kernel
theorem idle_10 : ∀ t : Fin cfg0.N, ¬ klast (grid0.coords t) → cfg0.idle 10 (grid0.coords t) = true := by decide +kernel
theorem noFlush_9 : ∀ t : Fin cfg0.N, ¬ klast (grid0.coords t) → (cfg0.win 9).flush t = false := by decide +kernel
theorem noFlush_10 : ∀ t : Fin cfg0.N, ¬ klast (grid0.coords t) → (cfg0.win 10).flush t = false := by decide +kernel
/-- At a row tile's last column tile both outputs are stored. -/
theorem live_9 : ∀ t : Fin cfg0.N, klast (grid0.coords t) → cfg0.idle 9 (grid0.coords t) = false := by decide +kernel
theorem live_10 : ∀ t : Fin cfg0.N, klast (grid0.coords t) → cfg0.idle 10 (grid0.coords t) = false := by decide +kernel

/-! ## The staging and scratch memrefs -/

abbrev ms0 (t : Fin cfg0.N) := win0_0.stage (cfg0.slots t 0)
abbrev hs0 (t : Fin cfg0.N) : (ms0 t).IsWhole := hstage0_0 ((cfg0.slots t 0).cast nbuf0_0)
abbrev ms1 (t : Fin cfg0.N) := win0_1.stage (cfg0.slots t 1)
abbrev hs1 (t : Fin cfg0.N) : (ms1 t).IsWhole := hstage0_1 ((cfg0.slots t 1).cast nbuf0_1)
abbrev ms2 (t : Fin cfg0.N) := win0_2.stage (cfg0.slots t 2)
abbrev hs2 (t : Fin cfg0.N) : (ms2 t).IsWhole := hstage0_2 ((cfg0.slots t 2).cast nbuf0_2)
abbrev ms3 (t : Fin cfg0.N) := win0_3.stage (cfg0.slots t 3)
abbrev hs3 (t : Fin cfg0.N) : (ms3 t).IsWhole := hstage0_3 ((cfg0.slots t 3).cast nbuf0_3)
abbrev ms4 (t : Fin cfg0.N) := win0_4.stage (cfg0.slots t 4)
abbrev hs4 (t : Fin cfg0.N) : (ms4 t).IsWhole := hstage0_4 ((cfg0.slots t 4).cast nbuf0_4)
abbrev ms5 (t : Fin cfg0.N) := win0_5.stage (cfg0.slots t 5)
abbrev hs5 (t : Fin cfg0.N) : (ms5 t).IsWhole := hstage0_5 ((cfg0.slots t 5).cast nbuf0_5)
abbrev ms6 (t : Fin cfg0.N) := win0_6.stage (cfg0.slots t 6)
abbrev hs6 (t : Fin cfg0.N) : (ms6 t).IsWhole := hstage0_6 ((cfg0.slots t 6).cast nbuf0_6)
abbrev ms7 (t : Fin cfg0.N) := win0_7.stage (cfg0.slots t 7)
abbrev hs7 (t : Fin cfg0.N) : (ms7 t).IsWhole := hstage0_7 ((cfg0.slots t 7).cast nbuf0_7)
abbrev ms8 (t : Fin cfg0.N) := win0_8.stage (cfg0.slots t 8)
abbrev hs8 (t : Fin cfg0.N) : (ms8 t).IsWhole := hstage0_8 ((cfg0.slots t 8).cast nbuf0_8)
abbrev ms9 (t : Fin cfg0.N) := win0_9.stage (cfg0.slots t 9)
abbrev hs9 (t : Fin cfg0.N) : (ms9 t).IsWhole := hstage0_9 ((cfg0.slots t 9).cast nbuf0_9)
abbrev ms10 (t : Fin cfg0.N) := win0_10.stage (cfg0.slots t 10)
abbrev hs10 (t : Fin cfg0.N) : (ms10 t).IsWhole := hstage0_10 ((cfg0.slots t 10).cast nbuf0_10)
/-- The accumulator: the first scratch operand, a whole scoped buffer. -/
abbrev scA : Memref sig .tc .vmem S1000x1024 .f32 := Memref.whole cc0_scratch0
/-- The cached weight matrix: the second scratch operand. -/
abbrev scW : Memref sig .tc .vmem S12544x1024 .bf16 := Memref.whole cc0_scratch1

/-- The class invariant with the two scratch operands as memrefs owned at some contents. -/
theorem PhiA_eq (c : Dev nD) :
    (Pipeline.ΦA spec0 c : sProp 𝕄)
      = iprop(iprop((∃ d, owns (c : Thread nD τ) scA fullShare d) ∗ (∃ d, owns (c : Thread nD τ) scW fullShare d)) ∗ (∃ r, prngReg c r)) := by
  unfold Pipeline.ΦA; rw [scopedRest0_eq]; simp only [scA, scW, owns_whole]; try rfl

/-! ## The invariant -/

/-- Before the first point the class invariant (both scratch buffers at anything); after point `n` the accumulator
    at `acc n`, the cached weight matrix at contents that hold every tile cached so far, the generator register
    at some state. -/
def Phi (c : Dev nD) : (n : ℕ) → n ≤ cfg0.N → sProp 𝕄
  | 0, _ => Pipeline.ΦA spec0 c
  | n + 1, hn => iprop(iprop(owns (c : Thread nD τ) scA fullShare (acc m c n hn)
      ∗ (∃ Z, owns (c : Thread nD τ) scW fullShare Z ∗ ⌜Cached m c n Z⌝)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) scA fullShare (acc m c n hn)
      ∗ (∃ Z, owns (c : Thread nD τ) scW fullShare Z ∗ ⌜Cached m c n Z⌝)) ∗ (∃ r, prngReg c r)) := rfl

theorem Phi_pos (c : Dev nD) (n : ℕ) (h : n ≤ cfg0.N) (hz : n ≠ 0) :
    Phi m c n h = iprop(iprop(owns (c : Thread nD τ) scA fullShare (acc m c (n - 1) (by omega))
      ∗ (∃ Z, owns (c : Thread nD τ) scW fullShare Z ∗ ⌜Cached m c (n - 1) Z⌝)) ∗ (∃ r, prngReg c r)) := by
  cases n with
  | zero => exact absurd rfl hz
  | succ n => rfl

/-! ## The proof data -/

/-- The arrays as the region finds them; after the body each input's buffer at its block, the two outputs'
    at the epilogue's values; the invariant `Phi`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => scoreAt m c t.val t.isLt
    | ⟨10, _⟩ => bboxAt m c t.val t.isLt
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = scoreAt m c t.val t.isLt := by dsimp only [dats]
theorem after_10 (c : Dev nD) (t : Fin cfg0.N) : (dats m 0 c).after 10 t = bboxAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

end Cert.Kernel.Body

end
-- ==== Proof.RunsKn.lean ====
/-
  The kernel body's triple at the points of the LATER row sweeps (row tiles 1 to 4), one theorem per control case:
  the weight block is read from the cached copy; the accumulator is reset at the first column tile and added to
  afterwards; the epilogue runs at the last column tile. Each theorem runs the body's memory operations symbolically
  on whole staging and scratch memrefs at named contents and reads what every store left as an explicit function of
  those contents.
-/
import proofs.«102008_g47519518163636_cont_8to1_c_297_11_alg».proof.Proof.DatK
import proofs.«102008_g47519518163636_cont_8to1_c_297_11_alg».proof.Proof.LibStoreReads
import Idealize.ShloMosaic.Lib.Pipeline.FrameBody
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Carried

variable {F : FTy → Type} [FloatOps F]

local notation "𝕄" => MT nD τ sig Unit (Elt F) ℕ (UR sig nD τ) ℕ

set_option maxHeartbeats 1000000 in
/-- The body at a point of a later row sweep, first column tile: on whole staging and scratch memrefs at the
    stated contents it runs to the continuation, the inputs as they were, the accumulator at the point's partial product,
    the cached weight matrix as it was, the two outputs untouched. -/
theorem run_SnF (c : Dev nD) (i : grid0.Coords) (arg2 : Memref sig .tc .vmem S1000x896 .f32) (harg2 : arg2.IsWhole) (arg3 : Memref sig .tc .vmem S896x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x91 .bf16) (harg7 : arg7.IsWhole) (arg8 : Memref sig .tc .vmem S1x91 .f32) (harg8 : arg8.IsWhole) (arg9 : Memref sig .tc .vmem S1024x364 .bf16) (harg9 : arg9.IsWhole) (arg10 : Memref sig .tc .vmem S1x364 .f32) (harg10 : arg10.IsWhole) (arg11 : Memref sig .tc .vmem S1000x91 .f32) (harg11 : arg11.IsWhole) (arg12 : Memref sig .tc .vmem S1000x364 .f32) (harg12 : arg12.IsWhole) (arg13 : Memref sig .tc .vmem S1000x1024 .f32) (harg13 : arg13.IsWhole) (arg14 : Memref sig .tc .vmem S12544x1024 .bf16) (harg14 : arg14.IsWhole)
    (h1 : ¬ sweep0 i) (h2 : kfirst i) (h3 : ¬ klater i) (h4 : ¬ klast i)
    (x2 : Vec F S1000x896 .f32) (x3 : Vec F S896x1024 .f32) (x4 : Vec F S1x1024 .f32) (x5 : Vec F S1024x1024 .bf16) (x6 : Vec F S1x1024 .f32) (x7 : Vec F S1024x91 .bf16) (x8 : Vec F S1x91 .f32) (x9 : Vec F S1024x364 .bf16) (x10 : Vec F S1x364 .f32) (xs13 : Vec F S1000x1024 .f32) (xs14 : Vec F S12544x1024 .bf16)
    (y11 : Vec F S1000x91 .f32) (y12 : Vec F S1000x364 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y11 ∗ owns (c : Thread nD τ) arg12 fullShare y12 ∗ owns (c : Thread nD τ) arg13 fullShare xs13 ∗ owns (c : Thread nD τ) arg14 fullShare xs14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y11 ∗ owns (c : Thread nD τ) arg12 fullShare y12
            ∗ owns (c : Thread nD τ) arg13 fullShare (k0_pay3 (View.ld xs14 (Rect.unit (s := S12544x1024) (k0_off2 i) S896x1024.size (k0_off2_inb i))) x2)
            ∗ owns (c : Thread nD τ) arg14 fullShare xs14) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → ℕ) = fun _ => 0 := by funext a; fin_cases a <;> rfl
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact h1 | exact h2 | exact h3 | exact h4)
  sl_step
  sl_unfold_words
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    · ipureintro; exact harg10.read_unread _
    iexact H10
  isplitl [H11]
  · iexists _; isplitr
    · ipureintro; exact harg11.read_unread _
    iexact H11
  isplitl [H12]
  · iexists _; isplitr
    · ipureintro; exact harg12.read_unread _
    iexact H12
  isplitl [H13]
  · iexists _; isplitr
    swap; · iexact H13
    ipureintro
    refine (Cert.StoreReads.read_store_whole _ _ hz (fun a => by fin_cases a <;> simp) _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1000x896) hz, View.ld_unit_zero (S := S896x1024) hz, View.ld_unit_zero (S := S1000x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz, View.readCov_unit_zero (S := S1000x1024) _ hz]
    all_goals rfl
  iexists _; isplitr
  · ipureintro; exact harg14.read_unread _
  iexact H14

set_option maxHeartbeats 1000000 in
/-- The body at a point of a later row sweep, a middle column tile: on whole staging and scratch memrefs at the
    stated contents it runs to the continuation, the inputs as they were, the accumulator at the point's partial product added to what it held,
    the cached weight matrix as it was, the two outputs untouched. -/
theorem run_SnM (c : Dev nD) (i : grid0.Coords) (arg2 : Memref sig .tc .vmem S1000x896 .f32) (harg2 : arg2.IsWhole) (arg3 : Memref sig .tc .vmem S896x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x91 .bf16) (harg7 : arg7.IsWhole) (arg8 : Memref sig .tc .vmem S1x91 .f32) (harg8 : arg8.IsWhole) (arg9 : Memref sig .tc .vmem S1024x364 .bf16) (harg9 : arg9.IsWhole) (arg10 : Memref sig .tc .vmem S1x364 .f32) (harg10 : arg10.IsWhole) (arg11 : Memref sig .tc .vmem S1000x91 .f32) (harg11 : arg11.IsWhole) (arg12 : Memref sig .tc .vmem S1000x364 .f32) (harg12 : arg12.IsWhole) (arg13 : Memref sig .tc .vmem S1000x1024 .f32) (harg13 : arg13.IsWhole) (arg14 : Memref sig .tc .vmem S12544x1024 .bf16) (harg14 : arg14.IsWhole)
    (h1 : ¬ sweep0 i) (h2 : ¬ kfirst i) (h3 : klater i) (h4 : ¬ klast i)
    (x2 : Vec F S1000x896 .f32) (x3 : Vec F S896x1024 .f32) (x4 : Vec F S1x1024 .f32) (x5 : Vec F S1024x1024 .bf16) (x6 : Vec F S1x1024 .f32) (x7 : Vec F S1024x91 .bf16) (x8 : Vec F S1x91 .f32) (x9 : Vec F S1024x364 .bf16) (x10 : Vec F S1x364 .f32) (xs13 : Vec F S1000x1024 .f32) (xs14 : Vec F S12544x1024 .bf16)
    (y11 : Vec F S1000x91 .f32) (y12 : Vec F S1000x364 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y11 ∗ owns (c : Thread nD τ) arg12 fullShare y12 ∗ owns (c : Thread nD τ) arg13 fullShare xs13 ∗ owns (c : Thread nD τ) arg14 fullShare xs14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y11 ∗ owns (c : Thread nD τ) arg12 fullShare y12
            ∗ owns (c : Thread nD τ) arg13 fullShare (k0_pay4 (View.ld xs14 (Rect.unit (s := S12544x1024) (k0_off2 i) S896x1024.size (k0_off2_inb i))) x2 xs13)
            ∗ owns (c : Thread nD τ) arg14 fullShare xs14) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → ℕ) = fun _ => 0 := by funext a; fin_cases a <;> rfl
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact h1 | exact h2 | exact h3 | exact h4)
  sl_step
  sl_unfold_words
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    · ipureintro; exact harg10.read_unread _
    iexact H10
  isplitl [H11]
  · iexists _; isplitr
    · ipureintro; exact harg11.read_unread _
    iexact H11
  isplitl [H12]
  · iexists _; isplitr
    · ipureintro; exact harg12.read_unread _
    iexact H12
  isplitl [H13]
  · iexists _; isplitr
    swap; · iexact H13
    ipureintro
    refine (Cert.StoreReads.read_store_whole _ _ hz (fun a => by fin_cases a <;> simp) _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1000x896) hz, View.ld_unit_zero (S := S896x1024) hz, View.ld_unit_zero (S := S1000x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz, View.readCov_unit_zero (S := S1000x1024) _ hz]
    all_goals rfl
  iexists _; isplitr
  · ipureintro; exact harg14.read_unread _
  iexact H14

set_option maxHeartbeats 1000000 in
/-- The body at a point of a later row sweep, last column tile: on whole staging and scratch memrefs at the
    stated contents it runs to the continuation, the inputs as they were, the accumulator at the point's partial product added to what it held,
    the cached weight matrix as it was, the two outputs at the epilogue's values. -/
theorem run_SnL (c : Dev nD) (i : grid0.Coords) (arg2 : Memref sig .tc .vmem S1000x896 .f32) (harg2 : arg2.IsWhole) (arg3 : Memref sig .tc .vmem S896x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x91 .bf16) (harg7 : arg7.IsWhole) (arg8 : Memref sig .tc .vmem S1x91 .f32) (harg8 : arg8.IsWhole) (arg9 : Memref sig .tc .vmem S1024x364 .bf16) (harg9 : arg9.IsWhole) (arg10 : Memref sig .tc .vmem S1x364 .f32) (harg10 : arg10.IsWhole) (arg11 : Memref sig .tc .vmem S1000x91 .f32) (harg11 : arg11.IsWhole) (arg12 : Memref sig .tc .vmem S1000x364 .f32) (harg12 : arg12.IsWhole) (arg13 : Memref sig .tc .vmem S1000x1024 .f32) (harg13 : arg13.IsWhole) (arg14 : Memref sig .tc .vmem S12544x1024 .bf16) (harg14 : arg14.IsWhole)
    (h1 : ¬ sweep0 i) (h2 : ¬ kfirst i) (h3 : klater i) (h4 : klast i)
    (x2 : Vec F S1000x896 .f32) (x3 : Vec F S896x1024 .f32) (x4 : Vec F S1x1024 .f32) (x5 : Vec F S1024x1024 .bf16) (x6 : Vec F S1x1024 .f32) (x7 : Vec F S1024x91 .bf16) (x8 : Vec F S1x91 .f32) (x9 : Vec F S1024x364 .bf16) (x10 : Vec F S1x364 .f32) (xs13 : Vec F S1000x1024 .f32) (xs14 : Vec F S12544x1024 .bf16)
    (y11 : Vec F S1000x91 .f32) (y12 : Vec F S1000x364 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y11 ∗ owns (c : Thread nD τ) arg12 fullShare y12 ∗ owns (c : Thread nD τ) arg13 fullShare xs13 ∗ owns (c : Thread nD τ) arg14 fullShare xs14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (k0_pay6 (k0_pay4 (View.ld xs14 (Rect.unit (s := S12544x1024) (k0_off2 i) S896x1024.size (k0_off2_inb i))) x2 xs13) x4 x5 x6 x7 x8) ∗ owns (c : Thread nD τ) arg12 fullShare (k0_pay7 (k0_pay4 (View.ld xs14 (Rect.unit (s := S12544x1024) (k0_off2 i) S896x1024.size (k0_off2_inb i))) x2 xs13) x4 x5 x6 x9 x10)
            ∗ owns (c : Thread nD τ) arg13 fullShare (k0_pay4 (View.ld xs14 (Rect.unit (s := S12544x1024) (k0_off2 i) S896x1024.size (k0_off2_inb i))) x2 xs13)
            ∗ owns (c : Thread nD τ) arg14 fullShare xs14) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → ℕ) = fun _ => 0 := by funext a; fin_cases a <;> rfl
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact h1 | exact h2 | exact h3 | exact h4)
  sl_step
  sl_unfold_words
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    · ipureintro; exact harg10.read_unread _
    iexact H10
  isplitl [H11]
  · iexists _; isplitr
    swap; · iexact H11
    ipureintro
    refine (Cert.StoreReads.read_store_whole _ _ hz (fun a => by fin_cases a <;> simp) _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1000x896) hz, View.ld_unit_zero (S := S896x1024) hz, View.ld_unit_zero (S := S1000x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz, View.readCov_unit_zero (S := S1000x1024) _ hz]
    all_goals rfl
  isplitl [H12]
  · iexists _; isplitr
    swap; · iexact H12
    ipureintro
    refine (Cert.StoreReads.read_store_whole _ _ hz (fun a => by fin_cases a <;> simp) _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1000x896) hz, View.ld_unit_zero (S := S896x1024) hz, View.ld_unit_zero (S := S1000x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz, View.readCov_unit_zero (S := S1000x1024) _ hz]
    all_goals rfl
  isplitl [H13]
  · iexists _; isplitr
    swap; · iexact H13
    ipureintro
    refine (Cert.StoreReads.read_store_whole _ _ hz (fun a => by fin_cases a <;> simp) _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1000x896) hz, View.ld_unit_zero (S := S896x1024) hz, View.ld_unit_zero (S := S1000x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz, View.readCov_unit_zero (S := S1000x1024) _ hz]
    all_goals rfl
  iexists _; isplitr
  · ipureintro; exact harg14.read_unread _
  iexact H14

end Cert.Kernel.Body

end
-- ==== Proof.RunsK0.lean ====
/-
  The kernel body's triple at the points of the FIRST row sweep (row tile 0), one theorem per control case: the
  point's block of the weight matrix is copied, in reduced precision, onto its 896 rows of the cache and read straight
  back; the accumulator is reset at the first column tile and added to afterwards; the epilogue runs at the last
  column tile.
-/
import proofs.«102008_g47519518163636_cont_8to1_c_297_11_alg».proof.Proof.DatK
import proofs.«102008_g47519518163636_cont_8to1_c_297_11_alg».proof.Proof.LibStoreReads
import Idealize.ShloMosaic.Lib.Pipeline.FrameBody
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Carried

variable {F : FTy → Type} [FloatOps F]

local notation "𝕄" => MT nD τ sig Unit (Elt F) ℕ (UR sig nD τ) ℕ

set_option maxHeartbeats 1000000 in
/-- The body at a point of the first row sweep, first column tile: on whole staging and scratch memrefs at the
    stated contents it runs to the continuation, the inputs as they were, the accumulator at the point's partial product,
    the cached weight matrix overwritten on this tile's rows by the block's copy, the two outputs untouched. -/
theorem run_S0F (c : Dev nD) (i : grid0.Coords) (arg2 : Memref sig .tc .vmem S1000x896 .f32) (harg2 : arg2.IsWhole) (arg3 : Memref sig .tc .vmem S896x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x91 .bf16) (harg7 : arg7.IsWhole) (arg8 : Memref sig .tc .vmem S1x91 .f32) (harg8 : arg8.IsWhole) (arg9 : Memref sig .tc .vmem S1024x364 .bf16) (harg9 : arg9.IsWhole) (arg10 : Memref sig .tc .vmem S1x364 .f32) (harg10 : arg10.IsWhole) (arg11 : Memref sig .tc .vmem S1000x91 .f32) (harg11 : arg11.IsWhole) (arg12 : Memref sig .tc .vmem S1000x364 .f32) (harg12 : arg12.IsWhole) (arg13 : Memref sig .tc .vmem S1000x1024 .f32) (harg13 : arg13.IsWhole) (arg14 : Memref sig .tc .vmem S12544x1024 .bf16) (harg14 : arg14.IsWhole)
    (h1 : sweep0 i) (h2 : kfirst i) (h3 : ¬ klater i) (h4 : ¬ klast i)
    (x2 : Vec F S1000x896 .f32) (x3 : Vec F S896x1024 .f32) (x4 : Vec F S1x1024 .f32) (x5 : Vec F S1024x1024 .bf16) (x6 : Vec F S1x1024 .f32) (x7 : Vec F S1024x91 .bf16) (x8 : Vec F S1x91 .f32) (x9 : Vec F S1024x364 .bf16) (x10 : Vec F S1x364 .f32) (xs13 : Vec F S1000x1024 .f32) (xs14 : Vec F S12544x1024 .bf16)
    (y11 : Vec F S1000x91 .f32) (y12 : Vec F S1000x364 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y11 ∗ owns (c : Thread nD τ) arg12 fullShare y12 ∗ owns (c : Thread nD τ) arg13 fullShare xs13 ∗ owns (c : Thread nD τ) arg14 fullShare xs14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y11 ∗ owns (c : Thread nD τ) arg12 fullShare y12
            ∗ owns (c : Thread nD τ) arg13 fullShare (k0_pay3 (k0_pay1 x3) x2)
            ∗ owns (c : Thread nD τ) arg14 fullShare (arg14.view.read (Elt F) (arg14.view.writes (Elt F) (harg14.unread xs14) [(⟨Rect.unit (s := S12544x1024) (k0_off1 i) S896x1024.size (k0_off1_inb i h1), k0_pay1 x3⟩ : View.Piece (Elt F) S12544x1024 .bf16)]))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → ℕ) = fun _ => 0 := by funext a; fin_cases a <;> rfl
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact h1 | exact h2 | exact h3 | exact h4)
  sl_step
  sl_unfold_words
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    · ipureintro; exact harg10.read_unread _
    iexact H10
  isplitl [H11]
  · iexists _; isplitr
    · ipureintro; exact harg11.read_unread _
    iexact H11
  isplitl [H12]
  · iexists _; isplitr
    · ipureintro; exact harg12.read_unread _
    iexact H12
  isplitl [H13]
  · iexists _; isplitr
    swap; · iexact H13
    ipureintro
    refine (Cert.StoreReads.read_store_whole _ _ hz (fun a => by fin_cases a <;> simp) _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1000x896) hz, View.ld_unit_zero (S := S896x1024) hz, View.ld_unit_zero (S := S1000x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz, View.readCov_unit_zero (S := S1000x1024) _ hz, View.readCov_cons_toLoadRect]
    all_goals rfl
  iexists _; isplitr
  swap; · iexact H14
  ipureintro
  simp only [View.readAt_eq_ld, harg3.read_unread, View.ld_unit_zero (S := S896x1024) hz, k0_off1]
  all_goals rfl

set_option maxHeartbeats 1000000 in
/-- The body at a point of the first row sweep, a middle column tile: on whole staging and scratch memrefs at the
    stated contents it runs to the continuation, the inputs as they were, the accumulator at the point's partial product added to what it held,
    the cached weight matrix overwritten on this tile's rows by the block's copy, the two outputs untouched. -/
theorem run_S0M (c : Dev nD) (i : grid0.Coords) (arg2 : Memref sig .tc .vmem S1000x896 .f32) (harg2 : arg2.IsWhole) (arg3 : Memref sig .tc .vmem S896x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x91 .bf16) (harg7 : arg7.IsWhole) (arg8 : Memref sig .tc .vmem S1x91 .f32) (harg8 : arg8.IsWhole) (arg9 : Memref sig .tc .vmem S1024x364 .bf16) (harg9 : arg9.IsWhole) (arg10 : Memref sig .tc .vmem S1x364 .f32) (harg10 : arg10.IsWhole) (arg11 : Memref sig .tc .vmem S1000x91 .f32) (harg11 : arg11.IsWhole) (arg12 : Memref sig .tc .vmem S1000x364 .f32) (harg12 : arg12.IsWhole) (arg13 : Memref sig .tc .vmem S1000x1024 .f32) (harg13 : arg13.IsWhole) (arg14 : Memref sig .tc .vmem S12544x1024 .bf16) (harg14 : arg14.IsWhole)
    (h1 : sweep0 i) (h2 : ¬ kfirst i) (h3 : klater i) (h4 : ¬ klast i)
    (x2 : Vec F S1000x896 .f32) (x3 : Vec F S896x1024 .f32) (x4 : Vec F S1x1024 .f32) (x5 : Vec F S1024x1024 .bf16) (x6 : Vec F S1x1024 .f32) (x7 : Vec F S1024x91 .bf16) (x8 : Vec F S1x91 .f32) (x9 : Vec F S1024x364 .bf16) (x10 : Vec F S1x364 .f32) (xs13 : Vec F S1000x1024 .f32) (xs14 : Vec F S12544x1024 .bf16)
    (y11 : Vec F S1000x91 .f32) (y12 : Vec F S1000x364 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y11 ∗ owns (c : Thread nD τ) arg12 fullShare y12 ∗ owns (c : Thread nD τ) arg13 fullShare xs13 ∗ owns (c : Thread nD τ) arg14 fullShare xs14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y11 ∗ owns (c : Thread nD τ) arg12 fullShare y12
            ∗ owns (c : Thread nD τ) arg13 fullShare (k0_pay4 (k0_pay1 x3) x2 xs13)
            ∗ owns (c : Thread nD τ) arg14 fullShare (arg14.view.read (Elt F) (arg14.view.writes (Elt F) (harg14.unread xs14) [(⟨Rect.unit (s := S12544x1024) (k0_off1 i) S896x1024.size (k0_off1_inb i h1), k0_pay1 x3⟩ : View.Piece (Elt F) S12544x1024 .bf16)]))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → ℕ) = fun _ => 0 := by funext a; fin_cases a <;> rfl
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact h1 | exact h2 | exact h3 | exact h4)
  sl_step
  sl_unfold_words
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    · ipureintro; exact harg10.read_unread _
    iexact H10
  isplitl [H11]
  · iexists _; isplitr
    · ipureintro; exact harg11.read_unread _
    iexact H11
  isplitl [H12]
  · iexists _; isplitr
    · ipureintro; exact harg12.read_unread _
    iexact H12
  isplitl [H13]
  · iexists _; isplitr
    swap; · iexact H13
    ipureintro
    refine (Cert.StoreReads.read_store_whole _ _ hz (fun a => by fin_cases a <;> simp) _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1000x896) hz, View.ld_unit_zero (S := S896x1024) hz, View.ld_unit_zero (S := S1000x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz, View.readCov_unit_zero (S := S1000x1024) _ hz, View.readCov_cons_toLoadRect]
    all_goals rfl
  iexists _; isplitr
  swap; · iexact H14
  ipureintro
  simp only [View.readAt_eq_ld, harg3.read_unread, View.ld_unit_zero (S := S896x1024) hz, k0_off1]
  all_goals rfl

set_option maxHeartbeats 1000000 in
/-- The body at a point of the first row sweep, last column tile: on whole staging and scratch memrefs at the
    stated contents it runs to the continuation, the inputs as they were, the accumulator at the point's partial product added to what it held,
    the cached weight matrix overwritten on this tile's rows by the block's copy, the two outputs at the epilogue's values. -/
theorem run_S0L (c : Dev nD) (i : grid0.Coords) (arg2 : Memref sig .tc .vmem S1000x896 .f32) (harg2 : arg2.IsWhole) (arg3 : Memref sig .tc .vmem S896x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1024x91 .bf16) (harg7 : arg7.IsWhole) (arg8 : Memref sig .tc .vmem S1x91 .f32) (harg8 : arg8.IsWhole) (arg9 : Memref sig .tc .vmem S1024x364 .bf16) (harg9 : arg9.IsWhole) (arg10 : Memref sig .tc .vmem S1x364 .f32) (harg10 : arg10.IsWhole) (arg11 : Memref sig .tc .vmem S1000x91 .f32) (harg11 : arg11.IsWhole) (arg12 : Memref sig .tc .vmem S1000x364 .f32) (harg12 : arg12.IsWhole) (arg13 : Memref sig .tc .vmem S1000x1024 .f32) (harg13 : arg13.IsWhole) (arg14 : Memref sig .tc .vmem S12544x1024 .bf16) (harg14 : arg14.IsWhole)
    (h1 : sweep0 i) (h2 : ¬ kfirst i) (h3 : klater i) (h4 : klast i)
    (x2 : Vec F S1000x896 .f32) (x3 : Vec F S896x1024 .f32) (x4 : Vec F S1x1024 .f32) (x5 : Vec F S1024x1024 .bf16) (x6 : Vec F S1x1024 .f32) (x7 : Vec F S1024x91 .bf16) (x8 : Vec F S1x91 .f32) (x9 : Vec F S1024x364 .bf16) (x10 : Vec F S1x364 .f32) (xs13 : Vec F S1000x1024 .f32) (xs14 : Vec F S12544x1024 .bf16)
    (y11 : Vec F S1000x91 .f32) (y12 : Vec F S1000x364 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y11 ∗ owns (c : Thread nD τ) arg12 fullShare y12 ∗ owns (c : Thread nD τ) arg13 fullShare xs13 ∗ owns (c : Thread nD τ) arg14 fullShare xs14
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (k0_pay6 (k0_pay4 (k0_pay1 x3) x2 xs13) x4 x5 x6 x7 x8) ∗ owns (c : Thread nD τ) arg12 fullShare (k0_pay7 (k0_pay4 (k0_pay1 x3) x2 xs13) x4 x5 x6 x9 x10)
            ∗ owns (c : Thread nD τ) arg13 fullShare (k0_pay4 (k0_pay1 x3) x2 xs13)
            ∗ owns (c : Thread nD τ) arg14 fullShare (arg14.view.read (Elt F) (arg14.view.writes (Elt F) (harg14.unread xs14) [(⟨Rect.unit (s := S12544x1024) (k0_off1 i) S896x1024.size (k0_off1_inb i h1), k0_pay1 x3⟩ : View.Piece (Elt F) S12544x1024 .bf16)]))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14) K := by
  have hz : (![0, 0] : Fin 2 → ℕ) = fun _ => 0 := by funext a; fin_cases a <;> rfl
  simp only [cc0__body_eq_skeleton]; unfold cc0__body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | exact h1 | exact h2 | exact h3 | exact h4)
  sl_step
  sl_unfold_words
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    · ipureintro; exact harg10.read_unread _
    iexact H10
  isplitl [H11]
  · iexists _; isplitr
    swap; · iexact H11
    ipureintro
    refine (Cert.StoreReads.read_store_whole _ _ hz (fun a => by fin_cases a <;> simp) _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1000x896) hz, View.ld_unit_zero (S := S896x1024) hz, View.ld_unit_zero (S := S1000x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz, View.readCov_unit_zero (S := S1000x1024) _ hz, View.readCov_cons_toLoadRect]
    all_goals rfl
  isplitl [H12]
  · iexists _; isplitr
    swap; · iexact H12
    ipureintro
    refine (Cert.StoreReads.read_store_whole _ _ hz (fun a => by fin_cases a <;> simp) _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1000x896) hz, View.ld_unit_zero (S := S896x1024) hz, View.ld_unit_zero (S := S1000x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz, View.readCov_unit_zero (S := S1000x1024) _ hz, View.readCov_cons_toLoadRect]
    all_goals rfl
  isplitl [H13]
  · iexists _; isplitr
    swap; · iexact H13
    ipureintro
    refine (Cert.StoreReads.read_store_whole _ _ hz (fun a => by fin_cases a <;> simp) _).trans ?_
    simp only [View.readAt_eq_ld, harg2.read_unread, harg3.read_unread, harg4.read_unread, harg5.read_unread, harg6.read_unread, harg7.read_unread, harg8.read_unread, harg9.read_unread, harg10.read_unread, harg13.read_unread, harg14.read_unread, View.ld_unit_zero (S := S1000x896) hz, View.ld_unit_zero (S := S896x1024) hz, View.ld_unit_zero (S := S1000x1024) hz, View.ld_unit_zero (S := S1x1024) hz, View.ld_unit_zero (S := S1024x1024) hz, View.ld_unit_zero (S := S1024x91) hz, View.ld_unit_zero (S := S1x91) hz, View.ld_unit_zero (S := S1024x364) hz, View.ld_unit_zero (S := S1x364) hz, View.readCov_unit_zero (S := S1000x1024) _ hz, View.readCov_cons_toLoadRect]
    all_goals rfl
  iexists _; isplitr
  swap; · iexact H14
  ipureintro
  simp only [View.readAt_eq_ld, harg3.read_unread, View.ld_unit_zero (S := S896x1024) hz, k0_off1]
  all_goals rfl

end Cert.Kernel.Body

end
-- ==== Proof.RunsK.lean ====
/-
  The six control cases of the kernel body (first row sweep or later × first / middle / last column tile), gathered:
  the later sweeps' in RunsKn, the first sweep's in RunsK0.
-/
import proofs.«102008_g47519518163636_cont_8to1_c_297_11_alg».proof.Proof.RunsKn
import proofs.«102008_g47519518163636_cont_8to1_c_297_11_alg».proof.Proof.RunsK0
-- ==== Proof.CachedK.lean ====
/-
  The cached weight matrix and the tiles it holds.

  The first row sweep (points 0 to 13) stores, at point `k`, the reduced-precision copy of block `k` of the first
  weight matrix into rows `896 * k` to `896 * k + 895` of the second scratch buffer; every later point reads the tile
  of its own column tile back from those rows. Here:

  * in the first sweep the copy made at point `t` is `tile t` (the point of tile `t` is `t` itself), and `tile`
    depends on its number only through the column tile, `tile (k % 14) = tile k`;
  * a store of that copy over rows `896 * t …` keeps what the buffer held on the rows of the earlier tiles and holds
    `tile t` on its own rows, so "the tiles up to `t - 1` are cached" becomes "the tiles up to `t` are cached";
  * once all fourteen tiles are cached (after point 13) they are cached at every later point;
  * a load of rows `896 * (t % 14) …` of a buffer that has tile `t % 14` cached reads `tile t`.
-/
import proofs.«102008_g47519518163636_cont_8to1_c_297_11_alg».proof.Proof.CarriedK
import Idealize.ShloMosaic.Lib.Pipeline.FrameBody
import Idealize.ShloMosaic.Lib.WritesUnit

noncomputable section

namespace Cert.Kernel.Tiles

open Idealize.ShloMosaic Idealize.ShloMosaic.TcCoe Idealize.ShloMosaic.ValueIdx
open Idealize.SL.Sem
open Cert.Kernel Cert.Kernel.Gen Cert.Kernel.Carried

variable {F : FTy → Type} [FloatOps F]
variable (m : (ℓ : Loc nD τ sig) → Buf (Elt F) ℓ)

/-- In the first row sweep the point of tile `t` is `t`: the copy made there is `tile t`. -/
theorem tile_of_first_sweep (c : Dev nD) (t : Fin cfg0.N) (ht : t.val < 14) :
    k0_pay1 (iblk m c 1 t) = tile m c t.val :=
  congrArg (fun x : Fin cfg0.N => k0_pay1 (iblk m c 1 x))
    (Fin.ext (Nat.mod_eq_of_lt ht).symm : t = ⟨t.val % 14, tile_lt t.val⟩)

/-- A tile depends on its number through the column tile only. -/
theorem tile_mod (c : Dev nD) (k : ℕ) : tile m c (k % 14) = tile m c k :=
  congrArg (fun x : Fin cfg0.N => k0_pay1 (iblk m c 1 x))
    (Fin.ext (Nat.mod_mod k 14) : (⟨k % 14 % 14, tile_lt (k % 14)⟩ : Fin cfg0.N) = ⟨k % 14, tile_lt k⟩)

/-- The store of the first sweep's point `t`: over any contents `f` that hold the tiles up to `t - 1` (none, at
    `t = 0`), writing the point's copy over rows `896 * t` onwards leaves the tiles up to `t`. -/
theorem cached_store (c : Dev nD) {κ : Kind} {sp : Space} (v : View sig κ sp S12544x1024 .bf16) (f : v.ty.Contents (Elt F))
    (t : Fin cfg0.N) (ht : t.val < 14) (off : Fin 2 → ℕ) (inb : ∀ a, off a + S896x1024.size a ≤ S12544x1024.size a)
    (hoff : off = ![896 * (t.val % 14), 0])
    (hprev : t.val ≠ 0 → Cached m c (t.val - 1) (v.read (Elt F) f)) :
    Cached m c t.val (v.read (Elt F) (v.writes (Elt F) f
      [(⟨Rect.unit (s := S12544x1024) off S896x1024.size inb, k0_pay1 (iblk m c 1 t)⟩ : View.Piece (Elt F) S12544x1024 .bf16)])) := by
  intro k hk hkt a b
  have hmod : t.val % 14 = t.val := Nat.mod_eq_of_lt ht
  by_cases hkeq : k = t.val
  · subst hkeq
    refine (View.read_writes_cons_rows_of_mem v f inb (k0_pay1 (iblk m c 1 t)) [] (cell t.val hk a b) (ix2 a b) hoff ?_ ?_).trans ?_
    · show 896 * t.val + a.val = 896 * (t.val % 14) + a.val
      rw [hmod]
    · rfl
    · exact congrFun (tile_of_first_sweep m c t ht) (ix2 a b)
  · have hlt : k < t.val := by omega
    have ha : a.val < 896 := a.isLt
    refine (View.read_writes_cons_rows_of_not_mem (W := 896) v f inb (k0_pay1 (iblk m c 1 t)) [] (cell k hk a b) hoff rfl (Or.inl ?_)).trans ?_
    · show 896 * k + a.val < 896 * (t.val % 14)
      rw [hmod]; omega
    · exact hprev (by omega) k hk (by omega) a b

/-- Every tile number is at most 13: contents that hold the tiles up to some `n ≥ 13` hold them up to any number. -/
theorem cached_of_full (c : Dev nD) (n n' : ℕ) (hn : 13 ≤ n) (Z : Vec F S12544x1024 .bf16) (h : Cached m c n Z) :
    Cached m c n' Z :=
  fun k hk _ a b => h k hk (by omega) a b

/-- A load of rows `896 * (t % 14)` onwards, all columns, of contents that hold tile `t % 14` reads `tile t`. -/
theorem cached_load (c : Dev nD) (t : Fin cfg0.N) (Z : Vec F S12544x1024 .bf16) (n : ℕ) (hn : t.val % 14 ≤ n) (hZ : Cached m c n Z)
    (off : Fin 2 → ℕ) (inb : ∀ a, off a + S896x1024.size a ≤ S12544x1024.size a) (hoff : off = ![896 * (t.val % 14), 0]) :
    View.ld Z (Rect.unit (s := S12544x1024) off S896x1024.size inb) = tile m c t.val := by
  subst hoff
  funext j
  obtain ⟨a, b, rfl⟩ : ∃ (a : Fin 896) (b : Fin 1024), j = ix2 a b := ⟨j 0, j 1, eq_ix2 j⟩
  have hk : t.val % 14 < 14 := Nat.mod_lt _ (by decide)
  have e : (Rect.unit (s := S12544x1024) ![896 * (t.val % 14), 0] S896x1024.size inb).idx (ix2 a b) = cell (t.val % 14) hk a b :=
    funext fun d => Fin.ext (by
      match d with
      | ⟨0, _⟩ => show 896 * (t.val % 14) + 1 * a.val = 896 * (t.val % 14) + a.val; omega
      | ⟨1, _⟩ => show 0 + 1 * b.val = b.val; omega)
  exact (congrArg Z e).trans ((hZ (t.val % 14) hk hn a b).trans (congrFun (tile_mod m c t.val) (ix2 a b)))

end Cert.Kernel.Tiles

end
-- ==== Proof.ObligK.lean ====
/-
  The body obligation at every grid point, and the frame run.

  The grid is 5 row tiles by 14 column tiles, the column tile innermost; a point is in one of six cases, the first
  row sweep or a later one, times the first, a middle or the last column tile of its row tile:

  * in the first row sweep the point stores its reduced-precision tile of the first weight matrix into the cached
    matrix, beside the tiles the earlier points stored, and multiplies with that tile; in a later sweep the cached
    matrix holds all fourteen tiles and the point multiplies with the tile it reads back, which is the same tile;
  * at a row tile's first column tile the accumulator is set to the point's partial product, elsewhere the partial
    product is added to what the point before left: in every case the accumulator ends at `acc` of the point;
  * at a row tile's last column tile the epilogue stores the two outputs computed from the finished accumulator,
    `scoreAt` and `bboxAt` of the point; elsewhere the two output buffers are left as they were.

  So the invariant after a point — the accumulator at `acc`, the cached matrix holding every tile stored so far —
  is kept from point to point; before the first point both scratch buffers hold anything, and after the last point
  their contents are forgotten again. The frame run then follows from the pipeline's launch theorem.
-/
import proofs.«102008_g47519518163636_cont_8to1_c_297_11_alg».proof.Proof.DatK
import proofs.«102008_g47519518163636_cont_8to1_c_297_11_alg».proof.Proof.RunsK
import proofs.«102008_g47519518163636_cont_8to1_c_297_11_alg».proof.Proof.CachedK
import Idealize.ShloMosaic.Lib.Pipeline.FrameBody
import Idealize.ShloMosaic.Lib.Ring
import Idealize.ShloMosaic.Lib.Tactic
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Carried Cert.Kernel.Tiles

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`: the invariant, the core's debt, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- What it returns: the invariant at the next point, the same debt, and each staging buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-! ## The six cases -/

set_option maxHeartbeats 1600000 in
/-- First row sweep, first column tile: the first point. The scratch buffers come at anything; the accumulator is set to the point's partial product and the point's tile is stored. -/
theorem sound_S0F (c : Dev nD) (t : Fin cfg0.N) (hlt : t.val < 14) (hf : t.val % 14 = 0) :
    bodyPre m c t ⊢ wp frame (wpE (defs₀ (F := F)) Variants.none c none) Set.univ (bodyAt0 t) (fun _ => bodyPost m c t) := by
  have h0 : t.val = 0 := by omega
  have c1 : sweep0 (grid0.coords t) := (hsweep0 t).mpr hlt
  have c2 : kfirst (grid0.coords t) := (hkfirst t).mpr hf
  have c3 : ¬ klater (grid0.coords t) := fun h => (hklater t).mp h hf
  have c4 : ¬ klast (grid0.coords t) := fun h => by have := (hklast t).mp h; omega
  have hacc : acc m c t.val t.isLt = k0_pay3 (k0_pay1 (iblk m c 1 t)) (iblk m c 0 t) := by
    rw [acc_first m c t hf, tile_of_first_sweep m c t hlt]
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  rw [show (dats m 0 c).leavesExact 7 t = owns (c : Thread nD τ) (ms7 t) fullShare ((dats m 0 c).after 7 t) from by
    unfold Dat.leavesExact; rw [live_7 t], after_7]
  rw [show (dats m 0 c).leavesExact 8 t = owns (c : Thread nD τ) (ms8 t) fullShare ((dats m 0 c).after 8 t) from by
    unfold Dat.leavesExact; rw [live_8 t], after_8]
  rw [Dat.leavesExact_idle (dats m 0 c) 9 t (idle_9 t c4) (noFlush_9 t c4), Dat.leavesExact_idle (dats m 0 c) 10 t (idle_10 t c4) (noFlush_10 t c4)]
  rw [Phi_castSucc m c t, Phi_zero m c _ _ h0, PhiA_eq]
  rw [hacc]
  iintro ⟨⟨⟨⟨%dA, HA⟩, ⟨%dW, HW⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_S0F c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scA (Memref.isWhole_whole _) scW (Memref.isWhole_whole _) c1 c2 c3 c4 (iblk m c 0 t) (iblk m c 1 t) (iblk m c 2 t) (iblk m c 3 t) (iblk m c 4 t) (iblk m c 5 t) (iblk m c 6 t) (iblk m c 7 t) (iblk m c 8 t) dA dW ((dats m 0 c).before 9 t d9) ((dats m 0 c).before 10 t d10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HW]; · iexact HW
  iintro ⟨H0, H1, H2, H3, H4, H5, H6, H7, H8, H9, H10, HA, HW⟩
  isplitl [HA HW Hg]
  · isplitl [HA HW]
    · isplitl [HA]; · iexact HA
      iexists _; isplitl [HW]; · iexact HW
      ipureintro
      exact cached_store m c scW.view _ t hlt (k0_off1 (grid0.coords t)) (k0_off1_inb (grid0.coords t) c1) (hoff1 t) (fun hne => absurd h0 hne)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

set_option maxHeartbeats 1600000 in
/-- First row sweep, a middle column tile: the point's partial product is added to the accumulator and the point's tile is stored beside the earlier ones. -/
theorem sound_S0M (c : Dev nD) (t : Fin cfg0.N) (hlt : t.val < 14) (hnf : ¬ t.val % 14 = 0) (hnl : ¬ t.val % 14 = 13) :
    bodyPre m c t ⊢ wp frame (wpE (defs₀ (F := F)) Variants.none c none) Set.univ (bodyAt0 t) (fun _ => bodyPost m c t) := by
  have hz : t.val ≠ 0 := by omega
  have c1 : sweep0 (grid0.coords t) := (hsweep0 t).mpr hlt
  have c2 : ¬ kfirst (grid0.coords t) := fun h => hnf ((hkfirst t).mp h)
  have c3 : klater (grid0.coords t) := (hklater t).mpr hnf
  have c4 : ¬ klast (grid0.coords t) := fun h => hnl ((hklast t).mp h)
  have hacc : acc m c t.val t.isLt = k0_pay4 (k0_pay1 (iblk m c 1 t)) (iblk m c 0 t) (acc m c (t.val - 1) (Nat.lt_of_le_of_lt (Nat.sub_le _ _) t.isLt)) := by
    rw [acc_next m c t hnf, tile_of_first_sweep m c t hlt]
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  rw [show (dats m 0 c).leavesExact 7 t = owns (c : Thread nD τ) (ms7 t) fullShare ((dats m 0 c).after 7 t) from by
    unfold Dat.leavesExact; rw [live_7 t], after_7]
  rw [show (dats m 0 c).leavesExact 8 t = owns (c : Thread nD τ) (ms8 t) fullShare ((dats m 0 c).after 8 t) from by
    unfold Dat.leavesExact; rw [live_8 t], after_8]
  rw [Dat.leavesExact_idle (dats m 0 c) 9 t (idle_9 t c4) (noFlush_9 t c4), Dat.leavesExact_idle (dats m 0 c) 10 t (idle_10 t c4) (noFlush_10 t c4)]
  rw [Phi_castSucc m c t, Phi_pos m c _ _ hz]
  rw [hacc]
  iintro ⟨⟨⟨HA, ⟨%Z, HW, %hZ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_S0M c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scA (Memref.isWhole_whole _) scW (Memref.isWhole_whole _) c1 c2 c3 c4 (iblk m c 0 t) (iblk m c 1 t) (iblk m c 2 t) (iblk m c 3 t) (iblk m c 4 t) (iblk m c 5 t) (iblk m c 6 t) (iblk m c 7 t) (iblk m c 8 t) (acc m c (t.val - 1) (Nat.lt_of_le_of_lt (Nat.sub_le _ _) t.isLt)) Z ((dats m 0 c).before 9 t d9) ((dats m 0 c).before 10 t d10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HW]; · iexact HW
  iintro ⟨H0, H1, H2, H3, H4, H5, H6, H7, H8, H9, H10, HA, HW⟩
  isplitl [HA HW Hg]
  · isplitl [HA HW]
    · isplitl [HA]; · iexact HA
      iexists _; isplitl [HW]; · iexact HW
      ipureintro
      exact cached_store m c scW.view _ t hlt (k0_off1 (grid0.coords t)) (k0_off1_inb (grid0.coords t) c1) (hoff1 t) (fun _ => by rw [Memref.IsWhole.read_unread]; exact hZ)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

set_option maxHeartbeats 1600000 in
/-- First row sweep, last column tile: as at a middle tile, and the epilogue stores the two outputs computed from the finished accumulator. -/
theorem sound_S0L (c : Dev nD) (t : Fin cfg0.N) (hlt : t.val < 14) (hl : t.val % 14 = 13) :
    bodyPre m c t ⊢ wp frame (wpE (defs₀ (F := F)) Variants.none c none) Set.univ (bodyAt0 t) (fun _ => bodyPost m c t) := by
  have hz : t.val ≠ 0 := by omega
  have c1 : sweep0 (grid0.coords t) := (hsweep0 t).mpr hlt
  have hnf : ¬ t.val % 14 = 0 := by omega
  have c2 : ¬ kfirst (grid0.coords t) := fun h => hnf ((hkfirst t).mp h)
  have c3 : klater (grid0.coords t) := (hklater t).mpr hnf
  have c4 : klast (grid0.coords t) := (hklast t).mpr hl
  have hacc : acc m c t.val t.isLt = k0_pay4 (k0_pay1 (iblk m c 1 t)) (iblk m c 0 t) (acc m c (t.val - 1) (Nat.lt_of_le_of_lt (Nat.sub_le _ _) t.isLt)) := by
    rw [acc_next m c t hnf, tile_of_first_sweep m c t hlt]
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  rw [show (dats m 0 c).leavesExact 7 t = owns (c : Thread nD τ) (ms7 t) fullShare ((dats m 0 c).after 7 t) from by
    unfold Dat.leavesExact; rw [live_7 t], after_7]
  rw [show (dats m 0 c).leavesExact 8 t = owns (c : Thread nD τ) (ms8 t) fullShare ((dats m 0 c).after 8 t) from by
    unfold Dat.leavesExact; rw [live_8 t], after_8]
  rw [show (dats m 0 c).leavesExact 9 t = owns (c : Thread nD τ) (ms9 t) fullShare ((dats m 0 c).after 9 t) from by
    unfold Dat.leavesExact; rw [live_9 t c4], after_9]
  rw [show (dats m 0 c).leavesExact 10 t = owns (c : Thread nD τ) (ms10 t) fullShare ((dats m 0 c).after 10 t) from by
    unfold Dat.leavesExact; rw [live_10 t c4], after_10]
  unfold scoreAt bboxAt
  rw [Phi_castSucc m c t, Phi_pos m c _ _ hz]
  rw [hacc]
  iintro ⟨⟨⟨HA, ⟨%Z, HW, %hZ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run_S0L c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scA (Memref.isWhole_whole _) scW (Memref.isWhole_whole _) c1 c2 c3 c4 (iblk m c 0 t) (iblk m c 1 t) (iblk m c 2 t) (iblk m c 3 t) (iblk m c 4 t) (iblk m c 5 t) (iblk m c 6 t) (iblk m c 7 t) (iblk m c 8 t) (acc m c (t.val - 1) (Nat.lt_of_le_of_lt (Nat.sub_le _ _) t.isLt)) Z ((dats m 0 c).before 9 t d9) ((dats m 0 c).before 10 t d10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HW]; · iexact HW
  iintro ⟨H0, H1, H2, H3, H4, H5, H6, H7, H8, H9, H10, HA, HW⟩
  isplitl [HA HW Hg]
  · isplitl [HA HW]
    · isplitl [HA]; · iexact HA
      iexists _; isplitl [HW]; · iexact HW
      ipureintro
      exact cached_store m c scW.view _ t hlt (k0_off1 (grid0.coords t)) (k0_off1_inb (grid0.coords t) c1) (hoff1 t) (fun _ => by rw [Memref.IsWhole.read_unread]; exact hZ)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 1600000 in
/-- A later row sweep, first column tile: the accumulator is set to the partial product with the tile read back from the cached matrix, which holds every tile. -/
theorem sound_SnF (c : Dev nD) (t : Fin cfg0.N) (hge : ¬ t.val < 14) (hf : t.val % 14 = 0) :
    bodyPre m c t ⊢ wp frame (wpE (defs₀ (F := F)) Variants.none c none) Set.univ (bodyAt0 t) (fun _ => bodyPost m c t) := by
  have c1 : ¬ sweep0 (grid0.coords t) := fun h => hge ((hsweep0 t).mp h)
  have hz : t.val ≠ 0 := by omega
  have c2 : kfirst (grid0.coords t) := (hkfirst t).mpr hf
  have c3 : ¬ klater (grid0.coords t) := fun h => (hklater t).mp h hf
  have c4 : ¬ klast (grid0.coords t) := fun h => by have := (hklast t).mp h; omega
  have hacc : acc m c t.val t.isLt = k0_pay3 (tile m c t.val) (iblk m c 0 t) := acc_first m c t hf
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  rw [show (dats m 0 c).leavesExact 7 t = owns (c : Thread nD τ) (ms7 t) fullShare ((dats m 0 c).after 7 t) from by
    unfold Dat.leavesExact; rw [live_7 t], after_7]
  rw [show (dats m 0 c).leavesExact 8 t = owns (c : Thread nD τ) (ms8 t) fullShare ((dats m 0 c).after 8 t) from by
    unfold Dat.leavesExact; rw [live_8 t], after_8]
  rw [Dat.leavesExact_idle (dats m 0 c) 9 t (idle_9 t c4) (noFlush_9 t c4), Dat.leavesExact_idle (dats m 0 c) 10 t (idle_10 t c4) (noFlush_10 t c4)]
  rw [Phi_castSucc m c t, Phi_pos m c _ _ hz]
  rw [hacc]
  iintro ⟨⟨⟨HA, ⟨%Z, HW, %hZ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hload : (View.ld Z (Rect.unit (s := S12544x1024) (k0_off2 (grid0.coords t)) S896x1024.size (k0_off2_inb (grid0.coords t)))) = tile m c t.val :=
    cached_load m c t Z (t.val - 1) (by omega) hZ (k0_off2 (grid0.coords t)) (k0_off2_inb (grid0.coords t)) (hoff2 t)
  rw [← hload]
  iapply (run_SnF c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scA (Memref.isWhole_whole _) scW (Memref.isWhole_whole _) c1 c2 c3 c4 (iblk m c 0 t) (iblk m c 1 t) (iblk m c 2 t) (iblk m c 3 t) (iblk m c 4 t) (iblk m c 5 t) (iblk m c 6 t) (iblk m c 7 t) (iblk m c 8 t) (acc m c (t.val - 1) (Nat.lt_of_le_of_lt (Nat.sub_le _ _) t.isLt)) Z ((dats m 0 c).before 9 t d9) ((dats m 0 c).before 10 t d10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HW]; · iexact HW
  iintro ⟨H0, H1, H2, H3, H4, H5, H6, H7, H8, H9, H10, HA, HW⟩
  isplitl [HA HW Hg]
  · isplitl [HA HW]
    · isplitl [HA]; · iexact HA
      iexists Z; isplitl [HW]; · iexact HW
      ipureintro
      exact cached_of_full m c (t.val - 1) t.val (by omega) Z hZ
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

set_option maxHeartbeats 1600000 in
/-- A later row sweep, a middle column tile: the partial product with the cached tile is added to the accumulator. -/
theorem sound_SnM (c : Dev nD) (t : Fin cfg0.N) (hge : ¬ t.val < 14) (hnf : ¬ t.val % 14 = 0) (hnl : ¬ t.val % 14 = 13) :
    bodyPre m c t ⊢ wp frame (wpE (defs₀ (F := F)) Variants.none c none) Set.univ (bodyAt0 t) (fun _ => bodyPost m c t) := by
  have c1 : ¬ sweep0 (grid0.coords t) := fun h => hge ((hsweep0 t).mp h)
  have hz : t.val ≠ 0 := by omega
  have c2 : ¬ kfirst (grid0.coords t) := fun h => hnf ((hkfirst t).mp h)
  have c3 : klater (grid0.coords t) := (hklater t).mpr hnf
  have c4 : ¬ klast (grid0.coords t) := fun h => hnl ((hklast t).mp h)
  have hacc : acc m c t.val t.isLt = k0_pay4 (tile m c t.val) (iblk m c 0 t) (acc m c (t.val - 1) (Nat.lt_of_le_of_lt (Nat.sub_le _ _) t.isLt)) := acc_next m c t hnf
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  rw [show (dats m 0 c).leavesExact 7 t = owns (c : Thread nD τ) (ms7 t) fullShare ((dats m 0 c).after 7 t) from by
    unfold Dat.leavesExact; rw [live_7 t], after_7]
  rw [show (dats m 0 c).leavesExact 8 t = owns (c : Thread nD τ) (ms8 t) fullShare ((dats m 0 c).after 8 t) from by
    unfold Dat.leavesExact; rw [live_8 t], after_8]
  rw [Dat.leavesExact_idle (dats m 0 c) 9 t (idle_9 t c4) (noFlush_9 t c4), Dat.leavesExact_idle (dats m 0 c) 10 t (idle_10 t c4) (noFlush_10 t c4)]
  rw [Phi_castSucc m c t, Phi_pos m c _ _ hz]
  rw [hacc]
  iintro ⟨⟨⟨HA, ⟨%Z, HW, %hZ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hload : (View.ld Z (Rect.unit (s := S12544x1024) (k0_off2 (grid0.coords t)) S896x1024.size (k0_off2_inb (grid0.coords t)))) = tile m c t.val :=
    cached_load m c t Z (t.val - 1) (by omega) hZ (k0_off2 (grid0.coords t)) (k0_off2_inb (grid0.coords t)) (hoff2 t)
  rw [← hload]
  iapply (run_SnM c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scA (Memref.isWhole_whole _) scW (Memref.isWhole_whole _) c1 c2 c3 c4 (iblk m c 0 t) (iblk m c 1 t) (iblk m c 2 t) (iblk m c 3 t) (iblk m c 4 t) (iblk m c 5 t) (iblk m c 6 t) (iblk m c 7 t) (iblk m c 8 t) (acc m c (t.val - 1) (Nat.lt_of_le_of_lt (Nat.sub_le _ _) t.isLt)) Z ((dats m 0 c).before 9 t d9) ((dats m 0 c).before 10 t d10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HW]; · iexact HW
  iintro ⟨H0, H1, H2, H3, H4, H5, H6, H7, H8, H9, H10, HA, HW⟩
  isplitl [HA HW Hg]
  · isplitl [HA HW]
    · isplitl [HA]; · iexact HA
      iexists Z; isplitl [HW]; · iexact HW
      ipureintro
      exact cached_of_full m c (t.val - 1) t.val (by omega) Z hZ
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

set_option maxHeartbeats 1600000 in
/-- A later row sweep, last column tile: as at a middle tile, and the epilogue stores the two outputs. -/
theorem sound_SnL (c : Dev nD) (t : Fin cfg0.N) (hge : ¬ t.val < 14) (hl : t.val % 14 = 13) :
    bodyPre m c t ⊢ wp frame (wpE (defs₀ (F := F)) Variants.none c none) Set.univ (bodyAt0 t) (fun _ => bodyPost m c t) := by
  have c1 : ¬ sweep0 (grid0.coords t) := fun h => hge ((hsweep0 t).mp h)
  have hz : t.val ≠ 0 := by omega
  have hnf : ¬ t.val % 14 = 0 := by omega
  have c2 : ¬ kfirst (grid0.coords t) := fun h => hnf ((hkfirst t).mp h)
  have c3 : klater (grid0.coords t) := (hklater t).mpr hnf
  have c4 : klast (grid0.coords t) := (hklast t).mpr hl
  have hacc : acc m c t.val t.isLt = k0_pay4 (tile m c t.val) (iblk m c 0 t) (acc m c (t.val - 1) (Nat.lt_of_le_of_lt (Nat.sub_le _ _) t.isLt)) := acc_next m c t hnf
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = Phi m c (t.val + 1) t.isLt from rfl, Phi_succ]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  rw [show (dats m 0 c).leavesExact 7 t = owns (c : Thread nD τ) (ms7 t) fullShare ((dats m 0 c).after 7 t) from by
    unfold Dat.leavesExact; rw [live_7 t], after_7]
  rw [show (dats m 0 c).leavesExact 8 t = owns (c : Thread nD τ) (ms8 t) fullShare ((dats m 0 c).after 8 t) from by
    unfold Dat.leavesExact; rw [live_8 t], after_8]
  rw [show (dats m 0 c).leavesExact 9 t = owns (c : Thread nD τ) (ms9 t) fullShare ((dats m 0 c).after 9 t) from by
    unfold Dat.leavesExact; rw [live_9 t c4], after_9]
  rw [show (dats m 0 c).leavesExact 10 t = owns (c : Thread nD τ) (ms10 t) fullShare ((dats m 0 c).after 10 t) from by
    unfold Dat.leavesExact; rw [live_10 t c4], after_10]
  unfold scoreAt bboxAt
  rw [Phi_castSucc m c t, Phi_pos m c _ _ hz]
  rw [hacc]
  iintro ⟨⟨⟨HA, ⟨%Z, HW, %hZ⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hload : (View.ld Z (Rect.unit (s := S12544x1024) (k0_off2 (grid0.coords t)) S896x1024.size (k0_off2_inb (grid0.coords t)))) = tile m c t.val :=
    cached_load m c t Z (t.val - 1) (by omega) hZ (k0_off2 (grid0.coords t)) (k0_off2_inb (grid0.coords t)) (hoff2 t)
  rw [← hload]
  iapply (run_SnL c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scA (Memref.isWhole_whole _) scW (Memref.isWhole_whole _) c1 c2 c3 c4 (iblk m c 0 t) (iblk m c 1 t) (iblk m c 2 t) (iblk m c 3 t) (iblk m c 4 t) (iblk m c 5 t) (iblk m c 6 t) (iblk m c 7 t) (iblk m c 8 t) (acc m c (t.val - 1) (Nat.lt_of_le_of_lt (Nat.sub_le _ _) t.isLt)) Z ((dats m 0 c).before 9 t d9) ((dats m 0 c).before 10 t d10) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HW]; · iexact HW
  iintro ⟨H0, H1, H2, H3, H4, H5, H6, H7, H8, H9, H10, HA, HW⟩
  isplitl [HA HW Hg]
  · isplitl [HA HW]
    · isplitl [HA]; · iexact HA
      iexists Z; isplitl [HW]; · iexact HW
      ipureintro
      exact cached_of_full m c (t.val - 1) t.val (by omega) Z hZ
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ## The obligation -/

/-- The body at any point: the point is in exactly one of the six cases. -/
theorem sound_body (c : Dev nD) (t : Fin cfg0.N) :
    bodyPre m c t ⊢ wp frame (wpE (defs₀ (F := F)) Variants.none c none) Set.univ (bodyAt0 t) (fun _ => bodyPost m c t) := by
  by_cases hlt : t.val < 14
  · by_cases hf : t.val % 14 = 0
    · exact sound_S0F m c t hlt hf
    · by_cases hl : t.val % 14 = 13
      · exact sound_S0L m c t hlt hl
      · exact sound_S0M m c t hlt hf hl
  · by_cases hf : t.val % 14 = 0
    · exact sound_SnF m c t hlt hf
    · by_cases hl : t.val % 14 = 13
      · exact sound_SnL m c t hlt hl
      · exact sound_SnM m c t hlt hf hl

/-- The pipeline's body obligation, at every point: the windows conjoined one by one. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After any point the invariant gives the class's back: what the two scratch buffers hold is forgotten. -/
theorem Phi_out (c : Dev nD) (t : Fin (cfg0.N + 1)) (ht : t.val ≠ 0) : (dats m 0 c).Φ t ⊢ Pipeline.ΦA spec0 c := by
  rw [show (dats m 0 c).Φ t = Phi m c t.val (Nat.le_of_lt_succ t.isLt) from rfl, Phi_pos m c _ _ ht, PhiA_eq]
  iintro ⟨⟨HA, ⟨%Z, HW, %hZ⟩⟩, Hg⟩
  isplitl [HA HW]
  · isplitl [HA]
    · iexists _; iexact HA
    iexists _; iexact HW
  iexact Hg

/-- The same after the last point. -/
theorem hout (c : Dev nD) : (dats m 0 c).Φ (Fin.last cfg0.N) ⊢ Pipeline.ΦA spec0 c :=
  Phi_out m c _ (by rw [Fin.val_last]; have : cfg0.N = 70 := N_0; omega)

/-! ## The run and the frame -/

set_option backward.isDefEq.respectTransparency.types false in
/-- For any float values, from any memory with zero counters: every weakly fair execution of @main on the
    TensorCores terminates, every array of the pipeline at what the proof data says and every other unscoped
    buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the nine argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

end Cert.Kernel.Body

end
-- ==== Proof.lean ====
/-
  The certificate of the fused box head: one kernel on a 5 x 14 grid (row tiles of 1000 rows, column tiles of
  896 columns of the first product) against the plain composition of four matrix products.

  At the ideal instance every change of float format is the identity and every operation exact, so both
  programs compute, index by index on the extended reals,
      h1 = max (x W1 + b1) 0,  h2 = max (h1 W2 + b2) 0,  score = h2 Wc + bc,  bbox = h2 Wb + bb
  (HeadSpec). The reference does so in one line per operation (RefHead). The kernel accumulates the first product
  over the fourteen column tiles in a scratch accumulator, reading the weight block from a second scratch that the
  first row sweep fills; what these hold after each grid point is a pure function of the argument blocks
  (CarriedI), the body keeps it (RunsI, CachedI, ObligI), and at a row tile's last column tile the accumulator is the
  whole sum over 12544 = 14 * 896 columns regrouped tile by tile — regrouping a finite sum needs only that
  addition on the extended reals is commutative and associative, so no finiteness of the inputs is used —, whence the
  two output blocks are the blocks of the one whole-array function (CarriedValue) and the arrays end at it (ArraysI).
  The word-level kernel's frame is the same argument read at the word instance (CarriedK … ObligK). The ideal pass
  rewrote nothing, so there is nothing to preserve.
-/
import proofs.«102008_g47519518163636_cont_8to1_c_297_11_alg».proof.Defs
import proofs.«102008_g47519518163636_cont_8to1_c_297_11_alg».proof.Proof.Gen.Kernel
import proofs.«102008_g47519518163636_cont_8to1_c_297_11_alg».proof.Proof.Gen.Kernel.Skeleton
import proofs.«102008_g47519518163636_cont_8to1_c_297_11_alg».proof.Proof.Gen.Kernel.Launch
import proofs.«102008_g47519518163636_cont_8to1_c_297_11_alg».proof.Proof.Gen.Kernel.Points
import proofs.«102008_g47519518163636_cont_8to1_c_297_11_alg».proof.Proof.Gen.Kernel.Frame
import proofs.«102008_g47519518163636_cont_8to1_c_297_11_alg».proof.Proof.Gen.KernelIdeal
import proofs.«102008_g47519518163636_cont_8to1_c_297_11_alg».proof.Proof.Gen.KernelIdeal.Skeleton
import proofs.«102008_g47519518163636_cont_8to1_c_297_11_alg».proof.Proof.Gen.KernelIdeal.Launch
import proofs.«102008_g47519518163636_cont_8to1_c_297_11_alg».proof.Proof.Gen.KernelIdeal.Points
import proofs.«102008_g47519518163636_cont_8to1_c_297_11_alg».proof.Proof.Gen.KernelIdeal.Frame
import proofs.«102008_g47519518163636_cont_8to1_c_297_11_alg».proof.Proof.Gen.ReferenceIdeal
import proofs.«102008_g47519518163636_cont_8to1_c_297_11_alg».proof.Proof.Gen.ReferenceIdeal.Run
import proofs.«102008_g47519518163636_cont_8to1_c_297_11_alg».proof.Proof.Gen.ReferenceIdeal.Read
import proofs.«102008_g47519518163636_cont_8to1_c_297_11_alg».proof.Proof.Gen.Pre_finite_inputs
import proofs.«102008_g47519518163636_cont_8to1_c_297_11_alg».proof.Proof.RefHead
import proofs.«102008_g47519518163636_cont_8to1_c_297_11_alg».proof.Proof.ArraysI
import proofs.«102008_g47519518163636_cont_8to1_c_297_11_alg».proof.Proof.CarriedValue
import proofs.«102008_g47519518163636_cont_8to1_c_297_11_alg».proof.Proof.ObligI
import proofs.«102008_g47519518163636_cont_8to1_c_297_11_alg».proof.Proof.ObligK
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its nine arguments as they were. -/
theorem frame_kernel : Cert.frame_Kernel := fun m ρ _ => Cert.Kernel.Body.frame (F := Bits) m ρ

/-- So does the idealized kernel. -/
theorem frame_kernelIdeal : Cert.frame_KernelIdeal := fun m ρ _ => Cert.KernelIdeal.Body.frame (F := Ideal) m ρ

/-- So does the reference: its run, the two results dropped. -/
theorem frame_reference : Cert.frame_ReferenceIdeal := fun m ρ _ =>
  (θ_run Cert.ReferenceIdeal.defs _ _).mono (fun _ h c => (h c).2.2) (Cert.RefHead.run m ρ)

/-- The ideal pass rewrote no operation. -/
theorem preserves : Cert.preserves_Kernel_KernelIdeal := trivial

/-- From memories agreeing on the nine arguments both programs end with the score array and the box array of
    `HeadSpec` at those arguments: the kernel's two output arrays are what its flushed blocks assemble to, the
    reference's two results what its operations compose to. -/
theorem algebraic : Cert.algebraic_KernelIdeal_ReferenceIdeal := by
  intro m ρ m' ρ' _ hagree
  refine ⟨fun c => Cert.BoxHead.scoreArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.BoxHead.bboxArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · refine (θ_run Cert.KernelIdeal.defs _ _).mono (fun r h c => ?_) (Cert.KernelIdeal.Body.run_main (F := Ideal) m ρ)
    refine ⟨((h c).1 9).trans (Cert.KernelIdeal.Arrays.score_final m c _
        (fun t ht p q => Cert.KernelIdeal.CarriedValue.scoreAt_apply m c t ht p q)),
      ((h c).1 10).trans (Cert.KernelIdeal.Arrays.bbox_final m c _
        (fun t ht p q => Cert.KernelIdeal.CarriedValue.bboxAt_apply m c t ht p q)),
      ((h c).1 0).trans (((Cert.KernelIdeal.Body.dats m 0 c).arrAt_in 0 rfl _).trans ((Cert.KernelIdeal.Body.A_eq m c 0).trans (Cert.KernelIdeal.Gen.V_main_arg0 m c))),
      ((h c).1 1).trans (((Cert.KernelIdeal.Body.dats m 0 c).arrAt_in 1 rfl _).trans ((Cert.KernelIdeal.Body.A_eq m c 1).trans (Cert.KernelIdeal.Gen.V_main_arg1 m c))),
      ((h c).2 Cert.KernelIdeal.main_arg2 (Pipeline.mem_restRefs_of Cert.KernelIdeal.main_arg2 (by decide) (by decide))).trans (Cert.KernelIdeal.Gen.V_main_arg2 m c),
      ((h c).2 Cert.KernelIdeal.main_arg3 (Pipeline.mem_restRefs_of Cert.KernelIdeal.main_arg3 (by decide) (by decide))).trans (Cert.KernelIdeal.Gen.V_main_arg3 m c),
      ((h c).2 Cert.KernelIdeal.main_arg4 (Pipeline.mem_restRefs_of Cert.KernelIdeal.main_arg4 (by decide) (by decide))).trans (Cert.KernelIdeal.Gen.V_main_arg4 m c),
      ((h c).2 Cert.KernelIdeal.main_arg5 (Pipeline.mem_restRefs_of Cert.KernelIdeal.main_arg5 (by decide) (by decide))).trans (Cert.KernelIdeal.Gen.V_main_arg5 m c),
      ((h c).2 Cert.KernelIdeal.main_arg6 (Pipeline.mem_restRefs_of Cert.KernelIdeal.main_arg6 (by decide) (by decide))).trans (Cert.KernelIdeal.Gen.V_main_arg6 m c),
      ((h c).2 Cert.KernelIdeal.main_arg7 (Pipeline.mem_restRefs_of Cert.KernelIdeal.main_arg7 (by decide) (by decide))).trans (Cert.KernelIdeal.Gen.V_main_arg7 m c),
      ((h c).2 Cert.KernelIdeal.main_arg8 (Pipeline.mem_restRefs_of Cert.KernelIdeal.main_arg8 (by decide) (by decide))).trans (Cert.KernelIdeal.Gen.V_main_arg8 m c)⟩
  · refine (θ_run Cert.ReferenceIdeal.defs _ _).mono (fun r h c => ?_) (Cert.RefHead.run m' ρ')
    obtain ⟨e0, e1, e2, e3, e4, e5, e6, e7, e8⟩ := hagree c
    obtain ⟨hs, hb, hrest⟩ := h c
    exact ⟨by rw [hs, e0, e1, e2, e3, e4, e5, e6], by rw [hb, e0, e1, e2, e3, e4, e7, e8], hrest⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
